-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x128 : Shape := ⟨2, ![1024, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x128 .f32) (main_arg5 : FVec F S1024x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  main_v28

def fn {F : FTy → Type} [FloatOps F] (main_arg0 : FVec F S8x4096x1024 .f32) (main_arg1 : FVec F S8x4096x1024 .f32) (main_arg2 : FVec F S8x4096x1024 .f32) (main_arg3 : FVec F S1024x128 .f32) (main_arg4 : FVec F S1024x128 .f32) (main_arg5 : FVec F S1024x128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_v13 main_v16
-- ==== Kernel.lean ====
abbrev S8x4096x1024 : Shape := ⟨3, ![8, 4096, 1024]⟩
abbrev S1024x128 : Shape := ⟨2, ![1024, 128]⟩
abbrev S32768x1024 : Shape := ⟨2, ![32768, 1024]⟩
abbrev S32768x128 : Shape := ⟨2, ![32768, 128]⟩
abbrev S2048x1024 : Shape := ⟨2, ![2048, 1024]⟩
abbrev S2048x128 : Shape := ⟨2, ![2048, 128]⟩
abbrev S8x4096x128 : Shape := ⟨3, ![8, 4096, 128]⟩
abbrev S8x512x128 : Shape := ⟨3, ![8, 512, 128]⟩
abbrev S8x1024x128 : Shape := ⟨3, ![8, 1024, 128]⟩
abbrev S8x512x1 : Shape := ⟨3, ![8, 512, 1]⟩
abbrev S8x512x1024 : Shape := ⟨3, ![8, 512, 1024]⟩
abbrev S8x512 : Shape := ⟨2, ![8, 512]⟩

abbrev nBuf : Space → Nat
  | .hbm => 16
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S32768x1024, .f32⟩
  | .hbm, ⟨7, _⟩ => ⟨S32768x128, .bf16⟩
  | .hbm, ⟨8, _⟩ => ⟨S8x4096x128, .bf16⟩
  | .hbm, ⟨9, _⟩ => ⟨S32768x1024, .f32⟩
  | .hbm, ⟨10, _⟩ => ⟨S32768x128, .bf16⟩
  | .hbm, ⟨11, _⟩ => ⟨S8x4096x128, .bf16⟩
  | .hbm, ⟨12, _⟩ => ⟨S32768x1024, .f32⟩
  | .hbm, ⟨13, _⟩ => ⟨S32768x128, .bf16⟩
  | .hbm, ⟨14, _⟩ => ⟨S8x4096x128, .bf16⟩
  | .hbm, ⟨15, _⟩ => ⟨S8x4096x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S2048x128, .bf16⟩
  | .local _ .vmem, ⟨4, _⟩ => ⟨S2048x128, .bf16⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S2048x128, .bf16⟩
  | .local _ .vmem, ⟨9, _⟩ => ⟨S2048x128, .bf16⟩
  | .local _ .vmem, ⟨10, _⟩ => ⟨S2048x1024, .f32⟩
  | .local _ .vmem, ⟨11, _⟩ => ⟨S2048x1024, .f32⟩
  | .local _ .vmem, ⟨12, _⟩ => ⟨S1024x128, .f32⟩
  | .local _ .vmem, ⟨13, _⟩ => ⟨S2048x128, .bf16⟩
  | .local _ .vmem, ⟨14, _⟩ => ⟨S2048x128, .bf16⟩
  | .local _ .vmem, ⟨15, _⟩ => ⟨S8x512x128, .bf16⟩
  | .local _ .vmem, ⟨16, _⟩ => ⟨S8x512x128, .bf16⟩
  | .local _ .vmem, ⟨17, _⟩ => ⟨S8x1024x128, .bf16⟩
  | .local _ .vmem, ⟨18, _⟩ => ⟨S8x1024x128, .bf16⟩
  | .local _ .vmem, ⟨19, _⟩ => ⟨S8x1024x128, .bf16⟩
  | .local _ .vmem, ⟨20, _⟩ => ⟨S8x1024x128, .bf16⟩
  | .local _ .vmem, ⟨21, _⟩ => ⟨S8x512x128, .f32⟩
  | .local _ .vmem, ⟨22, _⟩ => ⟨S8x512x128, .f32⟩
  | .local _ .vmem, ⟨23, _⟩ => ⟨S8x512x1, .f32⟩
  | .local _ .vmem, ⟨24, _⟩ => ⟨S8x512x1, .f32⟩
  | .local _ .vmem, ⟨25, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_scratch0 : Ref sig .tc := ⟨.vmem, 23, rfl⟩
abbrev cc3_scratch1 : Ref sig .tc := ⟨.vmem, 24, rfl⟩
abbrev cc3_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v42 : BitVec 1 := Scalar.cmpi .eq arg1 c3_i32
  let v43 : BitVec 32 := Scalar.extui v42
  let c0_i32_34 : BitVec 32 := 0#32
  let v44 : BitVec 1 := Scalar.cmpi .ne v43 c0_i32_34
  v44

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S8x512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S8x1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S8x1024x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S8x512x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S8x4096x1024_S32768x1024 : S8x4096x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S2048x128_S2048x128_0_0 : ∀ a, (![0, 0] : Fin 2 → Nat) a + S2048x128.size a ≤ S2048x128.size a
  h_S2048x128 : 0 < S2048x128.numel
  packedbf16_S2048x128_S2048x128_0_0 : (Rect.unit (s := S2048x128) ![0, 0] S2048x128.size inb_S2048x128_S2048x128_0_0).PackedRows (EltTy.packing .bf16)
  shapeCasts_S32768x128_S8x4096x128 : S32768x128.ShapeCasts S8x4096x128
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  inb_S8x1024x128_S8x1024x128_0_0_0 : ∀ a, (![0, 0, 0] : Fin 3 → Nat) a + S8x1024x128.size a ≤ S8x1024x128.size a
  h_S8x1024x128 : 0 < S8x1024x128.numel
  shapeCasts_S8x1024x128_S8x1024x128 : S8x1024x128.ShapeCasts S8x1024x128
  reduces_S8x512x1024_S8x512 : S8x512x1024.Reduces [2] S8x512
  shapeCasts_S8x512_S8x512x1 : S8x512.ShapeCasts S8x512x1
  broadcasts_S8x512x1_S8x512x1024 : S8x512x1.Broadcasts S8x512x1024
  broadcasts_S8x512x1_S8x512x128 : S8x512x1.Broadcasts S8x512x128
  dot_S2048x1024_S1024x128_S2048x128_1_0_0_1_n_n_wf : DotDims.WF S2048x1024 S1024x128 S2048x128 [1] [0] [0] [1] [] []
  dot_S8x512x128_S8x1024x128_S8x512x1024_2_2_1_1_0_0_wf : DotDims.WF S8x512x128 S8x1024x128 S8x512x1024 [2] [2] [1] [1] [0] [0]
  dot_S8x512x1024_S8x1024x128_S8x512x128_2_1_1_2_0_0_wf : DotDims.WF S8x512x1024 S8x1024x128 S8x512x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .bf16 = 32 ∨ (Rect.block (s := S32768x128) S2048x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S32768x1024.size a
  hwx1_0 : ∀ i : grid1.Coords, EltTy.bits .f32 = 32 ∨ (Rect.block (s := S32768x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .f32 = 32 ∨ (Rect.block (s := S1024x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S32768x128.size a
  hwx1_2 : ∀ i : grid1.Coords, EltTy.bits .bf16 = 32 ∨ (Rect.block (s := S32768x128) S2048x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S32768x1024.size a
  hwx2_0 : ∀ i : grid2.Coords, EltTy.bits .f32 = 32 ∨ (Rect.block (s := S32768x1024) S2048x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S32768x128.size a
  hwx2_2 : ∀ i : grid2.Coords, EltTy.bits .bf16 = 32 ∨ (Rect.block (s := S32768x128) S2048x128.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x512x128.size a ≤ S8x4096x128.size a
  hwx3_0 : ∀ i : grid3.Coords, EltTy.bits .bf16 = 32 ∨ (Rect.block (s := S8x4096x128) S8x512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x1024x128.size a ≤ S8x4096x128.size a
  hwx3_1 : ∀ i : grid3.Coords, EltTy.bits .bf16 = 32 ∨ (Rect.block (s := S8x4096x128) S8x1024x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x1024x128.size a ≤ S8x4096x128.size a
  hwx3_2 : ∀ i : grid3.Coords, EltTy.bits .bf16 = 32 ∨ (Rect.block (s := S8x4096x128) S8x1024x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8x512x128.size a ≤ S8x4096x128.size a
  hwx3_3 : ∀ i : grid3.Coords, EltTy.bits .f32 = 32 ∨ (Rect.block (s := S8x4096x128) S8x512x128.size (cc3_transform_3 i) (hinb3_3 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S8x512x128_S8x1024x128_S8x512x1024_2_2_1_1_0_0 : DotDims S8x512x128 S8x1024x128 S8x512x1024 where
  lhsContracting := [2]
  rhsContracting := [2]
  lhsNonContracting := [1]
  rhsNonContracting := [1]
  lhsBatch := [0]
  rhsBatch := [0]
  wf := dot_S8x512x128_S8x1024x128_S8x512x1024_2_2_1_1_0_0_wf
def dot_S8x512x1024_S8x1024x128_S8x512x128_2_1_1_2_0_0 : DotDims S8x512x1024 S8x1024x128 S8x512x128 where
  lhsContracting := [2]
  rhsContracting := [1]
  lhsNonContracting := [1]
  rhsNonContracting := [2]
  lhsBatch := [0]
  rhsBatch := [0]
  wf := dot_S8x512x1024_S8x1024x128_S8x512x128_2_1_1_2_0_0_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S1024x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S8x512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S8x1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S8x1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9) S8x512x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S1024x128 : Shape := ⟨2, ![1024, 128]⟩
abbrev S8x4096x128 : Shape := ⟨3, ![8, 4096, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S8x4096x128, .f32⟩
  | .hbm, ⟨7, _⟩ => ⟨S8x4096x128, .f32⟩
  | .hbm, ⟨8, _⟩ => ⟨S8x4096x128, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S_, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096x1, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x1024_S1024x128_S8x4096x128_2_0_01_1_n_n_wf : DotDims.WF S8x4096x1024 S1024x128 S8x4096x128 [2] [0] [0, 1] [1] [] []
  dot_S8x4096x128_S8x4096x128_S8x4096x4096_2_2_1_1_0_0_wf : DotDims.WF S8x4096x128 S8x4096x128 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x1024_S1024x128_S8x4096x128_2_0_01_1_n_n : DotDims S8x4096x1024 S1024x128 S8x4096x128 where
  lhsContracting := [2]
  rhsContracting := [0]
  lhsNonContracting := [0, 1]
  rhsNonContracting := [1]
  lhsBatch := []
  rhsBatch := []
  wf := dot_S8x4096x1024_S1024x128_S8x4096x128_2_0_01_1_n_n_wf
def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.ProjRegion.lean ====
/- The three projection regions of @main (regions 0, 1, 2): each multiplies a row block of its input,
   [2048,1024], by the whole weight matrix, [1024,128], into a row block of its output, [2048,128], on a grid of
   16 points. Per region, at the core's buffer contents `V` when the region is entered: every window's block at a
   point, what the body leaves in the output window's buffer, the body's triple, the pipeline's proof data and the
   body obligation the pipeline rule asks for. -/
import proofs.«165083_j41102837022983_2_alg».proof.Proof.Gen.KernelIdeal.Launch
import proofs.«165083_j41102837022983_2_alg».proof.Proof.Gen.KernelIdeal.Skeleton
import proofs.«165083_j41102837022983_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.ProjRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The body's accesses: each is the whole of its staging buffer -/

abbrev xRect : Rect S2048x1024 := Rect.unit (s := S2048x1024) ![0, 0] S2048x1024.size inb_S2048x1024_S2048x1024_0_0
abbrev wRect : Rect S1024x128 := Rect.unit (s := S1024x128) ![0, 0] S1024x128.size inb_S1024x128_S1024x128_0_0
abbrev oRect : Rect S2048x128 := Rect.unit (s := S2048x128) ![0, 0] S2048x128.size inb_S2048x128_S2048x128_0_0

/-- The one store is of the whole output buffer, so it covers it. -/
theorem cover_out (p : Vec F S2048x128 .bf16) (y : S2048x128.Idx) :
    ∃ pc ∈ ([⟨oRect, p⟩] : List (View.Piece (Elt F) S2048x128 .bf16)), y ∈ pc.1.set :=
  View.cover_of_tiled [⟨oRect, p⟩] S2048x128.size (by rfl) y

/-! # Region 0: the projection of input 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body, from the two input blocks: the body's one store, of the
    whole buffer, whose payload is the product of the two loaded blocks. -/
def out0 (x : Vec F S2048x1024 .f32) (w : Vec F S1024x128 .f32) : Vec F S2048x128 .bf16 :=
  View.canon [⟨oRect, k0_pay1 (View.ld x xRect) (View.ld w wRect)⟩]

/-- The proof data of the region's pipeline on core `c`: the arrays as the region finds them; after the body at
    point `t` each input's buffer at its block and the output's at `out0` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- Each input window's current staging buffer holds its block at every point, fetched there or not, for any proof
    data whose array is `V`'s and whose body leaves the block in place: unfetched, the block index has not moved
    (window 1's index map is constant, and it is fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs, the inputs' at read contents `x`, `w` and the output's at anything, runs to the
    continuation holding the inputs' as they were and the output's at `out0 x w`. -/
theorem sound_kernel0 (c : Dev nD) (E : Set ℕ) (i : grid0.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out0 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection of input 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body, from the two input blocks: the body's one store, of the
    whole buffer, whose payload is the product of the two loaded blocks. -/
def out1 (x : Vec F S2048x1024 .f32) (w : Vec F S1024x128 .f32) : Vec F S2048x128 .bf16 :=
  View.canon [⟨oRect, k1_pay1 (View.ld x xRect) (View.ld w wRect)⟩]

/-- The proof data of the region's pipeline on core `c`: the arrays as the region finds them; after the body at
    point `t` each input's buffer at its block and the output's at `out1` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each input window's current staging buffer holds its block at every point, fetched there or not, for any proof
    data whose array is `V`'s and whose body leaves the block in place: unfetched, the block index has not moved
    (window 1's index map is constant, and it is fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging memrefs, the inputs' at read contents `x`, `w` and the output's at anything, runs to the
    continuation holding the inputs' as they were and the output's at `out1 x w`. -/
theorem sound_kernel1 (c : Dev nD) (E : Set ℕ) (i : grid1.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out1 x w)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the projection of input 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body, from the two input blocks: the body's one store, of the
    whole buffer, whose payload is the product of the two loaded blocks. -/
def out2 (x : Vec F S2048x1024 .f32) (w : Vec F S1024x128 .f32) : Vec F S2048x128 .bf16 :=
  View.canon [⟨oRect, k2_pay1 (View.ld x xRect) (View.ld w wRect)⟩]

/-- The proof data of the region's pipeline on core `c`: the arrays as the region finds them; after the body at
    point `t` each input's buffer at its block and the output's at `out2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- Each input window's current staging buffer holds its block at every point, fetched there or not, for any proof
    data whose array is `V`'s and whose body leaves the block in place: unfetched, the block index has not moved
    (window 1's index map is constant, and it is fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole staging memrefs, the inputs' at read contents `x`, `w` and the output's at anything, runs to the
    continuation holding the inputs' as they were and the output's at `out2 x w`. -/
theorem sound_kernel2 (c : Dev nD) (E : Set ℕ) (i : grid2.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out2 x w)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.ProjRegion

end
-- ==== Proof.AttnBody.lean ====
/-
  The attention kernel's body as three triples, one per control case of a grid point: the key-tile coordinate is 0
  (the running quantities are reset before the update), it is 1 or 2 (update only), it is 3 (update, then the
  quotient is stored into the output block). All loads and stores are of whole buffers, so what a buffer holds
  after the body is the payload of the last store into it.
-/
import proofs.«165083_j41102837022983_2_alg».proof.Proof.Gen.KernelIdeal.Launch
import proofs.«165083_j41102837022983_2_alg».proof.Proof.Gen.KernelIdeal.Skeleton
import proofs.«165083_j41102837022983_2_alg».proof.Proof.Gen.KernelIdeal.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.AttnBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the key-tile coordinate is 0. -/
abbrev condReset (i : grid3.Coords) : Prop := (Scalar.cmpi .ne (Scalar.extui (Scalar.cmpi .eq (BitVec.ofNat 32 (i 1).val) 0#32)) 0#32) = 1#1
/-- The quotient branch is taken: the key-tile coordinate is 3. -/
abbrev condFinal (i : grid3.Coords) : Prop := k3_cond2 i = 1#1

/-- The offsets of every access of the body are zero. -/
theorem hz3 : (![0, 0, 0] : Fin 3 → Nat) = fun _ => 0 := by
  funext a; fin_cases a <;> rfl

/-- A buffer whose LAST store was of the whole buffer holds that store's payload. -/
theorem read_whole_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- The new running maximum, from the query block, the key block and the old maximum. -/
def newMax (q : Vec F S8x512x128 .bf16) (k : Vec F S8x1024x128 .bf16) (m : Vec F S8x512x1 .f32) : Vec F S8x512x1 .f32 :=
  k3_pay2 (k3_pay9 q k m)
/-- The new running sum of exponentials. -/
def newSum (q : Vec F S8x512x128 .bf16) (k : Vec F S8x1024x128 .bf16) (m l : Vec F S8x512x1 .f32) : Vec F S8x512x1 .f32 :=
  k3_pay12 q k m m l
/-- The new running weighted sum of value rows. -/
def newAcc (q : Vec F S8x512x128 .bf16) (k v : Vec F S8x1024x128 .bf16) (m : Vec F S8x512x1 .f32) (a : Vec F S8x512x128 .f32) :
    Vec F S8x512x128 .f32 :=
  k3_pay1 (k3_pay7 v) (k3_pay10 q k m m) (k3_pay11 q k m) a
/-- The quotient stored at the last key tile. -/
def quotient (a : Vec F S8x512x128 .f32) (l : Vec F S8x512x1 .f32) : Vec F S8x512x128 .f32 := k3_pay3 a l

set_option maxHeartbeats 4000000 in
/-- Key tile 1 or 2: the three running quantities are updated from what the point before left; the output buffer is
    not touched. -/
theorem run_mid (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : ¬condReset i) (hc2 : ¬condFinal i)
    (xq : Vec F S8x512x128 .bf16) (xk xv : Vec F S8x1024x128 .bf16) (xo : Vec F S8x512x128 .f32)
    (sm sl : Vec F S8x512x1 .f32) (sa : Vec F S8x512x128 .f32) (E : Set ℕ) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ owns (c : Thread nD τ) arg6 fullShare sm ∗ owns (c : Thread nD τ) arg7 fullShare sl ∗ owns (c : Thread nD τ) arg8 fullShare sa
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (newMax xq xk sm)
            ∗ owns (c : Thread nD τ) arg7 fullShare (newSum xq xk sm sl)
            ∗ owns (c : Thread nD τ) arg8 fullShare (newAcc xq xk xv sm sa)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

set_option maxHeartbeats 4000000 in
/-- Key tile 0: the running quantities are first reset (maximum to the word of `-∞`, both sums to zero), whatever
    they held, then updated; the output buffer is not touched. -/
theorem run_first (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : condReset i) (hc2 : ¬condFinal i)
    (xq : Vec F S8x512x128 .bf16) (xk xv : Vec F S8x1024x128 .bf16) (xo : Vec F S8x512x128 .f32)
    (E : Set ℕ) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (newMax xq xk k3_pay4)
            ∗ owns (c : Thread nD τ) arg7 fullShare (newSum xq xk k3_pay4 k3_pay5)
            ∗ owns (c : Thread nD τ) arg8 fullShare (newAcc xq xk xv k3_pay4 k3_pay6)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

set_option maxHeartbeats 4000000 in
/-- Key tile 3: the running quantities are updated from what the point before left, and the output buffer, whatever it
    held, receives the weighted sum divided by the sum of exponentials. -/
theorem run_last (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : ¬condReset i) (hc2 : condFinal i)
    (xq : Vec F S8x512x128 .bf16) (xk xv : Vec F S8x1024x128 .bf16)
    (sm sl : Vec F S8x512x1 .f32) (sa : Vec F S8x512x128 .f32) (E : Set ℕ) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ owns (c : Thread nD τ) arg6 fullShare sm ∗ owns (c : Thread nD τ) arg7 fullShare sl ∗ owns (c : Thread nD τ) arg8 fullShare sa
        ∗ (iprop(owns (c : Thread nD τ) arg2 fullShare xq ∗ owns (c : Thread nD τ) arg3 fullShare xk ∗ owns (c : Thread nD τ) arg4 fullShare xv
            ∗ owns (c : Thread nD τ) arg5 fullShare (quotient (newAcc xq xk xv sm sa) (newSum xq xk sm sl))
            ∗ owns (c : Thread nD τ) arg6 fullShare (newMax xq xk sm)
            ∗ owns (c : Thread nD τ) arg7 fullShare (newSum xq xk sm sl)
            ∗ owns (c : Thread nD τ) arg8 fullShare (newAcc xq xk xv sm sa)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf2; subst hf3; subst hf4; subst hf6; subst hf7; subst hf8
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

end Cert.KernelIdeal.AttnBody

end
-- ==== Proof.AttnRegion.lean ====
/-
  Region 3 of @main: the attention kernel on its grid of 8 × 4 points (query tile, key tile), point `t` having key
  tile `t % 4`. For each query tile the kernel keeps three running quantities in scratch between the four key
  tiles — the row maximum so far, the sum of exponentials shifted by it, and the weighted sum of value rows
  shifted by it — resets them at key tile 0 and stores the quotient of the last two into the output block at key
  tile 3. This module states what the scratch holds after every point, by recursion on the point, and proves the
  pipeline rule's obligation for the body against it.
-/
import proofs.«165083_j41102837022983_2_alg».proof.Proof.Gen.KernelIdeal.Launch
import proofs.«165083_j41102837022983_2_alg».proof.Proof.Gen.KernelIdeal.Skeleton
import proofs.«165083_j41102837022983_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«165083_j41102837022983_2_alg».proof.Proof.AttnBody

set_option maxRecDepth 16384

noncomputable section

namespace Cert.KernelIdeal.AttnRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.KernelIdeal.AttnBody

/-! ## The two branch conditions over the grid, and where the output window is idle -/

/-- The reset branch is taken exactly at the points of key tile 0. -/
theorem hcondReset : ∀ t : Fin cfg3.N, condReset (grid3.coords t) ↔ t.val % 4 = 0 :=
  (by decide +kernel : ∀ t : Fin grid3.N, condReset (grid3.coords t) ↔ t.val % 4 = 0)
/-- The quotient branch is taken exactly at the points of key tile 3. -/
theorem hcondFinal : ∀ t : Fin cfg3.N, condFinal (grid3.coords t) ↔ t.val % 4 = 3 :=
  (by decide +kernel : ∀ t : Fin grid3.N, condFinal (grid3.coords t) ↔ t.val % 4 = 3)

/-- The three input windows are never idle. -/
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
/-- The output window is idle, and not written back, at every point whose key tile is not 3; -/
theorem idle_3 : ∀ t : Fin cfg3.N, ¬ t.val % 4 = 3 → cfg3.idle 3 (grid3.coords t) = true := by decide +kernel
theorem noFlush_3 : ∀ t : Fin cfg3.N, ¬ t.val % 4 = 3 → (cfg3.win 3).flush t = false := by decide +kernel
/-- it is live at key tile 3. -/
theorem live_3 : ∀ t : Fin cfg3.N, t.val % 4 = 3 → cfg3.idle 3 (grid3.coords t) = false := by decide +kernel

/-! ## The memrefs the body is called with -/

abbrev ms_0 (t : Fin cfg3.N) : Memref sig .tc .vmem S8x512x128 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S8x1024x128 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S8x1024x128 .bf16 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S8x512x128 .f32 := win3_3.stage (cfg3.slots t 3)
abbrev hs_3 (t : Fin cfg3.N) : (ms_3 t).IsWhole := hstage3_3 ((cfg3.slots t 3).cast nbuf3_3)
/-- The three scratch operands: whole scoped buffers of the kernel's own. -/
abbrev scM : Memref sig .tc .vmem S8x512x1 .f32 := Memref.whole cc3_scratch0
abbrev scL : Memref sig .tc .vmem S8x512x1 .f32 := Memref.whole cc3_scratch1
abbrev scA : Memref sig .tc .vmem S8x512x128 .f32 := Memref.whole cc3_scratch2

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch holds after each point -/

/-- The running quantities a key-tile-0 point starts from: the reset values. -/
def resetSt : Vec F S8x512x1 .f32 × Vec F S8x512x1 .f32 × Vec F S8x512x128 .f32 := (k3_pay4, k3_pay5, k3_pay6)

/-- One point's update of the running quantities `s`, on the point's query, key and value blocks. -/
def stepAt (c : Dev nD) (t : Fin cfg3.N) (s : Vec F S8x512x1 .f32 × Vec F S8x512x1 .f32 × Vec F S8x512x128 .f32) : Vec F S8x512x1 .f32 × Vec F S8x512x1 .f32 × Vec F S8x512x128 .f32 :=
  (newMax (iblk3 V c 0 t) (iblk3 V c 1 t) s.1,
   newSum (iblk3 V c 0 t) (iblk3 V c 1 t) s.1 s.2.1,
   newAcc (iblk3 V c 0 t) (iblk3 V c 1 t) (iblk3 V c 2 t) s.1 s.2.2)

/-- THE RECURRENCE. The running quantities after the body at position `n`: the update applied to the reset values
    when the key tile is 0, to what position `n - 1` left otherwise. -/
def stAt (c : Dev nD) : (n : ℕ) → n < cfg3.N → Vec F S8x512x1 .f32 × Vec F S8x512x1 .f32 × Vec F S8x512x128 .f32
  | 0, hn => stepAt V c ⟨0, hn⟩ resetSt
  | n + 1, hn => stepAt V c ⟨n + 1, hn⟩ (if (n + 1) % 4 = 0 then resetSt else stAt c n (Nat.lt_of_succ_lt hn))

/-- At a point of key tile 0 the update starts from the reset values, -/
theorem stAt_reset (c : Dev nD) (t : Fin cfg3.N) (h : t.val % 4 = 0) : stAt V c t.val t.isLt = stepAt V c t resetSt := by
  obtain ⟨n, hn⟩ := t
  cases n with
  | zero => rfl
  | succ n => show stepAt V c _ (if (n + 1) % 4 = 0 then _ else _) = _; rw [if_pos h]
/-- and at any other point from what the point before left. -/
theorem stAt_carry (c : Dev nD) (t : Fin cfg3.N) (h : ¬ t.val % 4 = 0) :
    stAt V c t.val t.isLt = stepAt V c t (stAt V c (t.val - 1) (Nat.lt_of_le_of_lt (Nat.sub_le _ _) t.isLt)) := by
  obtain ⟨n, hn⟩ := t
  cases n with
  | zero => exact absurd (Nat.zero_mod _) h
  | succ n => show stepAt V c _ (if (n + 1) % 4 = 0 then _ else _) = _; rw [if_neg h]; rfl

/-! ## The invariant -/

/-- The core's scoped buffers that are no staging buffer of this region, with the three scratch buffers at the given
    assertions: the staging buffers of the other three regions, each whole at some contents, then the scratch. -/
def restWith (c : Dev nD) (S0 S1 S2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ S0 ∗ S1 ∗ S2)

/-- The class invariant (every scoped buffer no window stages at some contents, the generator register at some state)
    with the scratch operands as memrefs owned at some contents. -/
theorem PhiA_eq (c : Dev nD) :
    (Pipeline.ΦA spec3 c : sProp 𝕄)
      = iprop(restWith c iprop(∃ d, owns (c : Thread nD τ) scM fullShare d) iprop(∃ d, owns (c : Thread nD τ) scL fullShare d)
          iprop(∃ d, owns (c : Thread nD τ) scA fullShare d) ∗ (∃ r, prngReg c r)) := by
  unfold Pipeline.ΦA restWith; rw [scopedRest3_eq]; simp only [scM, scL, scA, owns_whole]; try rfl

/-- The region invariant before position `n`: before the first point the class invariant (the scratch at anything);
    afterwards the scratch at what the point before left, the rest unchanged. -/
def PhiS (c : Dev nD) : (n : ℕ) → n ≤ cfg3.N → sProp 𝕄
  | 0, _ => Pipeline.ΦA spec3 c
  | n + 1, hn => iprop(restWith c (owns (c : Thread nD τ) scM fullShare (stAt V c n hn).1)
      (owns (c : Thread nD τ) scL fullShare (stAt V c n hn).2.1) (owns (c : Thread nD τ) scA fullShare (stAt V c n hn).2.2)
      ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(restWith c (owns (c : Thread nD τ) scM fullShare (stAt V c n hn).1)
      (owns (c : Thread nD τ) scL fullShare (stAt V c n hn).2.1) (owns (c : Thread nD τ) scA fullShare (stAt V c n hn).2.2)
      ∗ (∃ r, prngReg c r)) := rfl

theorem PhiS_pos (c : Dev nD) (n : ℕ) (h : n ≤ cfg3.N) (hz : n ≠ 0) :
    PhiS V c n h = iprop(restWith c (owns (c : Thread nD τ) scM fullShare (stAt V c (n - 1) (by omega)).1)
      (owns (c : Thread nD τ) scL fullShare (stAt V c (n - 1) (by omega)).2.1) (owns (c : Thread nD τ) scA fullShare (stAt V c (n - 1) (by omega)).2.2)
      ∗ (∃ r, prngReg c r)) := by
  cases n with
  | zero => exact absurd rfl hz
  | succ n => rfl

/-! ## The proof data -/

/-- The proof data of region 3 on core `c`, at the contents `V` the region is entered from: after the body at point
    `t` each input's buffer at its block, the output's at the quotient of the running quantities after `t` (which the
    pipeline writes back at key tile 3 only); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => quotient (stAt V c t.val t.isLt).2.2 (stAt V c t.val t.isLt).2.1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after_0 (c : Dev nD) (t : Fin cfg3.N) : (dat3 V c).after 0 t = iblk3 V c 0 t := by dsimp only [dat3]
theorem after_1 (c : Dev nD) (t : Fin cfg3.N) : (dat3 V c).after 1 t = iblk3 V c 1 t := by dsimp only [dat3]
theorem after_2 (c : Dev nD) (t : Fin cfg3.N) : (dat3 V c).after 2 t = iblk3 V c 2 t := by dsimp only [dat3]
theorem after_3 (c : Dev nD) (t : Fin cfg3.N) :
    (dat3 V c).after 3 t = quotient (stAt V c t.val t.isLt).2.2 (stAt V c t.val t.isLt).2.1 := by dsimp only [dat3]

theorem before_0 (c : Dev nD) (t : Fin cfg3.N) (d) : (dat3 V c).before 0 t d = iblk3 V c 0 t :=
  before_0_of V (dat3 V c) (A_eq3 V c 0) (after_0 V c) t d
theorem before_1 (c : Dev nD) (t : Fin cfg3.N) (d) : (dat3 V c).before 1 t d = iblk3 V c 1 t :=
  before_1_of V (dat3 V c) (A_eq3 V c 1) (after_1 V c) t d
theorem before_2 (c : Dev nD) (t : Fin cfg3.N) (d) : (dat3 V c).before 2 t d = iblk3 V c 2 t :=
  before_2_of V (dat3 V c) (A_eq3 V c 2) (after_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms_0 t) fullShare ((dat3 V c).before 0 t d))
    ∗ (∃ d, owns (c : Thread nD τ) (ms_1 t) fullShare ((dat3 V c).before 1 t d))
    ∗ (∃ d, owns (c : Thread nD τ) (ms_2 t) fullShare ((dat3 V c).before 2 t d))
    ∗ (∃ d, owns (c : Thread nD τ) (ms_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point. The inputs' memrefs hold their blocks; the key tile `t % 4` says which case the point is in.
    At key tile 0 the scratch is handed over at whatever it holds (at the very first point the class invariant's
    anything, later what the previous query tile left) and comes back at the update of the reset values; at the other
    key tiles it is handed over at what the point before left and comes back updated; at key tile 3 the output buffer
    comes back at the quotient. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before_0, before_1, before_2]
  rw [show (dat3 V c).owesAt () t.succ = (dat3 V c).owesAt () t.castSucc from rfl]
  rw [show (dat3 V c).Φ t.succ = PhiS V c (t.val + 1) t.isLt from rfl, PhiS_succ]
  have hN : t.val < 32 := lt_of_lt_of_eq t.isLt (show cfg3.N = 32 from N_3)
  rw [show (dat3 V c).leavesExact 0 t = owns (c : Thread nD τ) (ms_0 t) fullShare ((dat3 V c).after 0 t) from by
    unfold Dat.leavesExact; rw [live_0 t], after_0]
  rw [show (dat3 V c).leavesExact 1 t = owns (c : Thread nD τ) (ms_1 t) fullShare ((dat3 V c).after 1 t) from by
    unfold Dat.leavesExact; rw [live_1 t], after_1]
  rw [show (dat3 V c).leavesExact 2 t = owns (c : Thread nD τ) (ms_2 t) fullShare ((dat3 V c).after 2 t) from by
    unfold Dat.leavesExact; rw [live_2 t], after_2]
  by_cases h0 : t.val % 4 = 0
  · have h3 : ¬ t.val % 4 = 3 := by omega
    rw [Dat.leavesExact_idle (dat3 V c) 3 t (idle_3 t h3) (noFlush_3 t h3)]
    rw [stAt_reset V c t h0]
    unfold stepAt; dsimp only
    by_cases hz : t.val = 0
    ·
      rw [PhiS_castSucc V c t, PhiS_zero V c _ _ hz, PhiA_eq]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_first c (grid3.coords t) _ _ _ _ _ _ _ _ _ _ _ _ _ _ ((hcondReset t).mpr h0) (fun h => h3 ((hcondFinal t).mp h)) (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_first c (grid3.coords t) _ _ _ _ _ _ _ _ _ _ _ _ _ _ ((hcondReset t).mpr h0) (fun h => h3 ((hcondFinal t).mp h)) (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dat3 V c).leavesExact 3 t = owns (c : Thread nD τ) (ms_3 t) fullShare ((dat3 V c).after 3 t) from by
        unfold Dat.leavesExact; rw [live_3 t h3], after_3]
      rw [stAt_carry V c t h0]
      unfold stepAt; dsimp only
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_last c (grid3.coords t) _ _ _ _ _ _ _ _ _ _ _ _ _ _ (fun h => h0 ((hcondReset t).mp h)) ((hcondFinal t).mpr h3) (iblk3 V c 0 t) (iblk3 V c 1 t) (iblk3 V c 2 t) _ _ _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat3 V c) 3 t (idle_3 t h3) (noFlush_3 t h3)]
      rw [stAt_carry V c t h0]
      unfold stepAt; dsimp only
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_mid c (grid3.coords t) _ _ _ _ _ _ _ _ _ _ _ _ _ _ (fun h => h0 ((hcondReset t).mp h)) (fun h => h3 ((hcondFinal t).mp h)) (iblk3 V c 0 t) (iblk3 V c 1 t) (iblk3 V c 2 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the class invariant back: what the scratch holds is forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA_eq]
  unfold restWith
  iintro ⟨⟨X0, X1, X2, X3, X4, X5, X6, X7, X8, X9, X10, X11, X12, X13, X14, HS0, HS1, HS2⟩, Hg⟩
  isplitl [X0 X1 X2 X3 X4 X5 X6 X7 X8 X9 X10 X11 X12 X13 X14 HS0 HS1 HS2]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [HS0]; · iexists _; iexact HS0
    isplitl [HS1]; · iexists _; iexact HS1
    iexists _; iexact HS2
  iexact Hg

theorem hout3 (c : Dev nD) : (dat3 V c).Φ (Fin.last cfg3.N) ⊢ Pipeline.ΦA spec3 c :=
  Phi_out V c _ (by rw [Fin.val_last]; have : cfg3.N = 32 := N_3; omega)

end Cert.KernelIdeal.AttnRegion

end
-- ==== Proof.Run.lean ====
/-
  The run of @main from the launch to the return, as eight segments: four stretches of reshapes and four kernel
  regions, alternating. The contents of every buffer at every segment boundary are named (`W0` … `W8`), so that one
  run theorem gives both that each argument array ends as launched and what the result buffer holds at the end: the
  last region's output array as its write-backs leave it, that region having been entered from the reshaped results
  of the three projection regions, each of those entered from a reshaped input and a weight matrix as launched.
-/
import proofs.«165083_j41102837022983_2_alg».proof.Proof.Gen.KernelIdeal.Launch
import proofs.«165083_j41102837022983_2_alg».proof.Proof.Gen.KernelIdeal.Regions
import proofs.«165083_j41102837022983_2_alg».proof.Proof.ProjRegion
import proofs.«165083_j41102837022983_2_alg».proof.Proof.AttnRegion
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main

@main is four stretches of reshapes and four kernel regions, alternating. Each boundary's contents are named: a
stretch rewrites the buffers its reshapes write; a region leaves its windows' arrays at what its write-backs
leave and every other buffer as entered. -/

/-- Core `c`'s buffers at launch. -/
abbrev W0 : Dev nD → Valuation τ sig (Elt F) := fun c b => (s₀ m ρ).mem ((c : Dev nD), b)
/-- After the first stretch (the reshape of input 0): what region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (ProjRegion.dat0 (V1 m ρ) c).arrAt w cfg0.N
theorem W2_arr (c : Dev nD) (w : Fin cfg0.W) :
    W2 m ρ c (Proc.devRef .tc (Pipeline.arrRef spec0 w)) = (ProjRegion.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (ProjRegion.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 0's result reshaped, input 1 reshaped): what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (ProjRegion.dat1 (V3 m ρ) c).arrAt w cfg1.N
theorem W4_arr (c : Dev nD) (w : Fin cfg1.W) :
    W4 m ρ c (Proc.devRef .tc (Pipeline.arrRef spec1 w)) = (ProjRegion.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (ProjRegion.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 1's result reshaped, input 2 reshaped): what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (ProjRegion.dat2 (V5 m ρ) c).arrAt w cfg2.N
theorem W6_arr (c : Dev nD) (w : Fin cfg2.W) :
    W6 m ρ c (Proc.devRef .tc (Pipeline.arrRef spec2 w)) = (ProjRegion.dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (ProjRegion.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth stretch (region 2's result reshaped): what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: the end of @main. -/
def W8 (c : Dev nD) : Valuation τ sig (Elt F) :=
  Pipeline.withArrays spec3 c (W7 m ρ c) fun w => (AttnRegion.dat3 (V7 m ρ) c).arrAt w cfg3.N
theorem W8_arr (c : Dev nD) (w : Fin cfg3.W) :
    W8 m ρ c (Proc.devRef .tc (Pipeline.arrRef spec3 w)) = (AttnRegion.dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (AttnRegion.dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## What each stage leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- A region leaves an input window's array as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((ProjRegion.dat0 (V1 m ρ) c).arrAt_in w hin _).trans (ProjRegion.A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((ProjRegion.dat1 (V3 m ρ) c).arrAt_in w hin _).trans (ProjRegion.A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((ProjRegion.dat2 (V5 m ρ) c).arrAt_in w hin _).trans (ProjRegion.A_eq2 (V5 m ρ) c w))
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((AttnRegion.dat3 (V7 m ρ) c).arrAt_in w hin _).trans (AttnRegion.A_eq3 (V7 m ρ) c w))

/-! ## The arguments end as launched

No reshape writes an argument and no region has one as an output window's array (a region reads it through an input
window or bypasses it), so the fold at an argument's buffer walks back to the launch memory. -/

theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <|
  (W6_of_ne m ρ c main_arg0 (by decide)).trans <| (W5_of m ρ c main_arg0 (by decide)).trans <|
  (W4_of_ne m ρ c main_arg0 (by decide)).trans <| (W3_of m ρ c main_arg0 (by decide)).trans <|
  (W2_of_ne m ρ c main_arg0 (by decide)).trans <| (W1_of m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <|
  (W6_of_ne m ρ c main_arg1 (by decide)).trans <| (W5_of m ρ c main_arg1 (by decide)).trans <|
  (W4_of_ne m ρ c main_arg1 (by decide)).trans <| (W3_of m ρ c main_arg1 (by decide)).trans <|
  (W2_of_ne m ρ c main_arg1 (by decide)).trans <| (W1_of m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <|
  (W6_of_ne m ρ c main_arg2 (by decide)).trans <| (W5_of m ρ c main_arg2 (by decide)).trans <|
  (W4_of_ne m ρ c main_arg2 (by decide)).trans <| (W3_of m ρ c main_arg2 (by decide)).trans <|
  (W2_of_ne m ρ c main_arg2 (by decide)).trans <| (W1_of m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <|
  (W6_of_ne m ρ c main_arg3 (by decide)).trans <| (W5_of m ρ c main_arg3 (by decide)).trans <|
  (W4_of_ne m ρ c main_arg3 (by decide)).trans <| (W3_of m ρ c main_arg3 (by decide)).trans <|
  (W2_in m ρ c 1 rfl).trans <| (W1_of m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <|
  (W6_of_ne m ρ c main_arg4 (by decide)).trans <| (W5_of m ρ c main_arg4 (by decide)).trans <|
  (W4_in m ρ c 1 rfl).trans <| (W3_of m ρ c main_arg4 (by decide)).trans <|
  (W2_of_ne m ρ c main_arg4 (by decide)).trans <| (W1_of m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <|
  (W6_in m ρ c 1 rfl).trans <| (W5_of m ρ c main_arg5 (by decide)).trans <|
  (W4_of_ne m ρ c main_arg5 (by decide)).trans <| (W3_of m ρ c main_arg5 (by decide)).trans <|
  (W2_of_ne m ρ c main_arg5 (by decide)).trans <| (W1_of m ρ c main_arg5 (by decide)).trans rfl

/-- The result buffer at the end of @main is the last region's output window's array as its write-backs leave it. -/
theorem W8_main_v9 (c : Dev nD) : W8 m ρ c (Proc.devRef .tc main_v9) = (AttnRegion.dat3 (V7 m ρ) c).arrAt 3 cfg3.N :=
  W8_arr m ρ c 3

/-! ## What each region is entered from, at its input windows' arrays

A reshape leaves in its result buffer the operand's elements in row-major order under the result's shape. -/

/-- Region 0's first window: input 0, its leading two axes merged. -/
theorem V1_win0 (c : Dev nD) :
    (V1 m ρ c (Pipeline.arrRef spec0 0) : S32768x1024.Idx → Elt F .f32)
      = shapeCast S32768x1024 (m ((c : Thread nD τ).loc main_arg0) : S8x4096x1024.Idx → Elt F .f32) shapeCasts_S8x4096x1024_S32768x1024 := by
  show StableHlo.after hostOps0 (W0 m ρ c) (Proc.devRef .tc main_v0) = _
  after_results; rfl
/-- Region 0's second window: the first weight matrix, as launched. -/
theorem V1_win1 (c : Dev nD) : V1 m ρ c (Pipeline.arrRef spec0 1) = m ((c : Thread nD τ).loc main_arg3) :=
  (W1_of m ρ c main_arg3 (by decide)).trans rfl

theorem W2_main_arg1 (c : Dev nD) : W2 m ρ c (Proc.devRef .tc main_arg1) = m ((c : Thread nD τ).loc main_arg1) :=
  (W2_of_ne m ρ c main_arg1 (by decide)).trans ((W1_of m ρ c main_arg1 (by decide)).trans rfl)
/-- Region 1's first window: input 1, its leading two axes merged. -/
theorem V3_win0 (c : Dev nD) :
    (V3 m ρ c (Pipeline.arrRef spec1 0) : S32768x1024.Idx → Elt F .f32)
      = shapeCast S32768x1024 (m ((c : Thread nD τ).loc main_arg1) : S8x4096x1024.Idx → Elt F .f32) shapeCasts_S8x4096x1024_S32768x1024 := by
  rw [← W2_main_arg1 m ρ c]
  show StableHlo.after hostOps1 (W2 m ρ c) (Proc.devRef .tc main_v3) = _
  after_results; rfl
/-- Region 1's second window: the second weight matrix, as launched. -/
theorem V3_win1 (c : Dev nD) : V3 m ρ c (Pipeline.arrRef spec1 1) = m ((c : Thread nD τ).loc main_arg4) :=
  (W3_of m ρ c main_arg4 (by decide)).trans <| (W2_of_ne m ρ c main_arg4 (by decide)).trans <| (W1_of m ρ c main_arg4 (by decide)).trans rfl

theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
  (W2_of_ne m ρ c main_arg2 (by decide)).trans ((W1_of m ρ c main_arg2 (by decide)).trans rfl)
/-- Region 2's first window: input 2, its leading two axes merged. -/
theorem V5_win0 (c : Dev nD) :
    (V5 m ρ c (Pipeline.arrRef spec2 0) : S32768x1024.Idx → Elt F .f32)
      = shapeCast S32768x1024 (m ((c : Thread nD τ).loc main_arg2) : S8x4096x1024.Idx → Elt F .f32) shapeCasts_S8x4096x1024_S32768x1024 := by
  rw [← W4_main_arg2 m ρ c]
  show StableHlo.after hostOps2 (W4 m ρ c) (Proc.devRef .tc main_v6) = _
  after_results; rfl
/-- Region 2's second window: the third weight matrix, as launched. -/
theorem V5_win1 (c : Dev nD) : V5 m ρ c (Pipeline.arrRef spec2 1) = m ((c : Thread nD τ).loc main_arg5) :=
  (W5_of m ρ c main_arg5 (by decide)).trans <| (W4_of_ne m ρ c main_arg5 (by decide)).trans <|
  (W3_of m ρ c main_arg5 (by decide)).trans <| (W2_of_ne m ρ c main_arg5 (by decide)).trans <| (W1_of m ρ c main_arg5 (by decide)).trans rfl

/-- Region 3's first window: region 0's result, its rows split back into batch and position. -/
theorem V7_win0 (c : Dev nD) :
    (V7 m ρ c (Pipeline.arrRef spec3 0) : S8x4096x128.Idx → Elt F .bf16)
      = shapeCast S8x4096x128 ((ProjRegion.dat0 (V1 m ρ) c).arrAt 2 cfg0.N : S32768x128.Idx → Elt F .bf16) shapeCasts_S32768x128_S8x4096x128 := by
  rw [← W2_arr m ρ c 2]
  refine (W7_of m ρ c main_v2 (by decide)).trans <| (W6_of_ne m ρ c main_v2 (by decide)).trans <|
    (W5_of m ρ c main_v2 (by decide)).trans <| (W4_of_ne m ρ c main_v2 (by decide)).trans ?_
  show StableHlo.after hostOps1 (W2 m ρ c) (Proc.devRef .tc main_v2) = _
  after_results; rfl
/-- Region 3's second window: region 1's result, likewise. -/
theorem V7_win1 (c : Dev nD) :
    (V7 m ρ c (Pipeline.arrRef spec3 1) : S8x4096x128.Idx → Elt F .bf16)
      = shapeCast S8x4096x128 ((ProjRegion.dat1 (V3 m ρ) c).arrAt 2 cfg1.N : S32768x128.Idx → Elt F .bf16) shapeCasts_S32768x128_S8x4096x128 := by
  rw [← W4_arr m ρ c 2]
  refine (W7_of m ρ c main_v5 (by decide)).trans <| (W6_of_ne m ρ c main_v5 (by decide)).trans ?_
  show StableHlo.after hostOps2 (W4 m ρ c) (Proc.devRef .tc main_v5) = _
  after_results; rfl
/-- Region 3's third window: region 2's result, likewise. -/
theorem V7_win2 (c : Dev nD) :
    (V7 m ρ c (Pipeline.arrRef spec3 2) : S8x4096x128.Idx → Elt F .bf16)
      = shapeCast S8x4096x128 ((ProjRegion.dat2 (V5 m ρ) c).arrAt 2 cfg2.N : S32768x128.Idx → Elt F .bf16) shapeCasts_S32768x128_S8x4096x128 := by
  rw [← W6_arr m ρ c 2]
  show StableHlo.after hostOps3 (W6 m ρ c) (Proc.devRef .tc main_v8) = _
  after_results; rfl

/-! # The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => ProjRegion.dat0 (V1 m ρ) c
  | ⟨1, _⟩ => fun c => ProjRegion.dat1 (V3 m ρ) c
  | ⟨2, _⟩ => fun c => ProjRegion.dat2 (V5 m ρ) c
  | ⟨3, _⟩ => fun c => AttnRegion.dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies of what it owes, at nothing. -/
abbrev R (c : Dev nD) : sProp 𝕄 := iprop((∃ r, prngReg c r) ∗ ∃ W, owes (c : Thread nD τ) (0 : CellTallies nD τ sig Unit) W)
/-- A stretch of reshapes as a segment over the unscoped references from the contents `W`, `R` riding along: its
    exit state is those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! # The regions as segments -/

-- a library lemma stated over `pin pcs a p` unifies with the pinned configuration only when unification may unfold
-- plain definitions in a metavariable's type
set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ProjRegion.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (ProjRegion.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (ProjRegion.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (AttnRegion.body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (AttnRegion.dat3 (V7 m ρ) c).Φ 0 from rfl]
    refine BIBase.Entails.trans ?_ (AttnRegion.hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (AttnRegion.dat3 (V7 m ρ) c).Φ (Fin.last cfg3.N) from rfl]
    refine (AttnRegion.hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's eight segments in order: a host segment per stretch of reshapes from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and in every final state each unscoped TensorCore buffer holds the last boundary's contents
    `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Run

end
-- ==== Proof.KProjRegion.lean ====
/- The three projection regions of @main (regions 0, 1, 2): each multiplies a row block of its input,
   [2048,1024], by the whole weight matrix, [1024,128], into a row block of its output, [2048,128], on a grid of
   16 points. Per region, at the core's buffer contents `V` when the region is entered: every window's block at a
   point, what the body leaves in the output window's buffer, the body's triple, the pipeline's proof data and the
   body obligation the pipeline rule asks for. -/
import proofs.«165083_j41102837022983_2_alg».proof.Proof.Gen.Kernel.Launch
import proofs.«165083_j41102837022983_2_alg».proof.Proof.Gen.Kernel.Skeleton
import proofs.«165083_j41102837022983_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.ProjRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered
variable (V : (c : Dev nD) → (b : Ref sig .tc) → Buf (Elt F) ((c : Thread nD τ).loc b))

/-! ## The body's accesses: each is the whole of its staging buffer -/

abbrev xRect : Rect S2048x1024 := Rect.unit (s := S2048x1024) ![0, 0] S2048x1024.size inb_S2048x1024_S2048x1024_0_0
abbrev wRect : Rect S1024x128 := Rect.unit (s := S1024x128) ![0, 0] S1024x128.size inb_S1024x128_S1024x128_0_0
abbrev oRect : Rect S2048x128 := Rect.unit (s := S2048x128) ![0, 0] S2048x128.size inb_S2048x128_S2048x128_0_0

/-- The one store is of the whole output buffer, so it covers it. -/
theorem cover_out (p : Vec F S2048x128 .bf16) (y : S2048x128.Idx) :
    ∃ pc ∈ ([⟨oRect, p⟩] : List (View.Piece (Elt F) S2048x128 .bf16)), y ∈ pc.1.set :=
  View.cover_of_tiled [⟨oRect, p⟩] S2048x128.size (by rfl) y

/-! # Region 0: the projection of input 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output window's staging buffer after the body, from the two input blocks: the body's one store, of the
    whole buffer, whose payload is the product of the two loaded blocks. -/
def out0 (x : Vec F S2048x1024 .f32) (w : Vec F S1024x128 .f32) : Vec F S2048x128 .bf16 :=
  View.canon [⟨oRect, k0_pay1 (View.ld x xRect) (View.ld w wRect)⟩]

/-- The proof data of the region's pipeline on core `c`: the arrays as the region finds them; after the body at
    point `t` each input's buffer at its block and the output's at `out0` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

/-- Each input window's current staging buffer holds its block at every point, fetched there or not, for any proof
    data whose array is `V`'s and whose body leaves the block in place: unfetched, the block index has not moved
    (window 1's index map is constant, and it is fetched at the first point only). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body on whole staging memrefs, the inputs' at read contents `x`, `w` and the output's at anything, runs to the
    continuation holding the inputs' as they were and the output's at `out0 x w`. -/
theorem sound_kernel0 (c : Dev nD) (E : Set ℕ) (i : grid0.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out0 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the projection of input 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output window's staging buffer after the body, from the two input blocks: the body's one store, of the
    whole buffer, whose payload is the product of the two loaded blocks. -/
def out1 (x : Vec F S2048x1024 .f32) (w : Vec F S1024x128 .f32) : Vec F S2048x128 .bf16 :=
  View.canon [⟨oRect, k1_pay1 (View.ld x xRect) (View.ld w wRect)⟩]

/-- The proof data of the region's pipeline on core `c`: the arrays as the region finds them; after the body at
    point `t` each input's buffer at its block and the output's at `out1` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

/-- Each input window's current staging buffer holds its block at every point, fetched there or not, for any proof
    data whose array is `V`'s and whose body leaves the block in place: unfetched, the block index has not moved
    (window 1's index map is constant, and it is fetched at the first point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body on whole staging memrefs, the inputs' at read contents `x`, `w` and the output's at anything, runs to the
    continuation holding the inputs' as they were and the output's at `out1 x w`. -/
theorem sound_kernel1 (c : Dev nD) (E : Set ℕ) (i : grid1.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out1 x w)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation1 (c : Dev nD) : BodyObligation (dat1 (F := F) V c) (defs₀ (F := F)) Variants.none () Set.univ := fun t => by
  rw [bigSep_W1, bigSep_W1]
  exact sound_body1 V c t

/-! # Region 2: the projection of input 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The output window's staging buffer after the body, from the two input blocks: the body's one store, of the
    whole buffer, whose payload is the product of the two loaded blocks. -/
def out2 (x : Vec F S2048x1024 .f32) (w : Vec F S1024x128 .f32) : Vec F S2048x128 .bf16 :=
  View.canon [⟨oRect, k2_pay1 (View.ld x xRect) (View.ld w wRect)⟩]

/-- The proof data of the region's pipeline on core `c`: the arrays as the region finds them; after the body at
    point `t` each input's buffer at its block and the output's at `out2` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

/-- Each input window's current staging buffer holds its block at every point, fetched there or not, for any proof
    data whose array is `V`'s and whose body leaves the block in place: unfetched, the block index has not moved
    (window 1's index map is constant, and it is fetched at the first point only). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

set_option maxHeartbeats 1000000 in
/-- The body on whole staging memrefs, the inputs' at read contents `x`, `w` and the output's at anything, runs to the
    continuation holding the inputs' as they were and the output's at `out2 x w`. -/
theorem sound_kernel2 (c : Dev nD) (E : Set ℕ) (i : grid2.Coords)
    (arg1 : Memref sig .tc .vmem S2048x1024 .f32) (harg1 : arg1.IsWhole) (arg2 : Memref sig .tc .vmem S1024x128 .f32) (harg2 : arg2.IsWhole)
    (arg3 : Memref sig .tc .vmem S2048x128 .bf16) (harg3 : arg3.IsWhole)
    (x : Vec F S2048x1024 .f32) (w : Vec F S1024x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (out2 x w)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.ProjRegion

end
-- ==== Proof.KAttnBody.lean ====
/-
  The attention kernel's body as three triples, one per control case of a grid point: the key-tile coordinate is 0
  (the running quantities are reset before the update), it is 1 or 2 (update only), it is 3 (update, then the
  quotient is stored into the output block). All loads and stores are of whole buffers, so what a buffer holds
  after the body is the payload of the last store into it.
-/
import proofs.«165083_j41102837022983_2_alg».proof.Proof.Gen.Kernel.Launch
import proofs.«165083_j41102837022983_2_alg».proof.Proof.Gen.Kernel.Skeleton
import proofs.«165083_j41102837022983_2_alg».proof.Proof.Gen.Kernel.Points
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.Kernel.AttnBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset branch is taken: the key-tile coordinate is 0. -/
abbrev condReset (i : grid3.Coords) : Prop := (Scalar.cmpi .ne (Scalar.extui (Scalar.cmpi .eq (BitVec.ofNat 32 (i 1).val) 0#32)) 0#32) = 1#1
/-- The quotient branch is taken: the key-tile coordinate is 3. -/
abbrev condFinal (i : grid3.Coords) : Prop := k3_cond2 i = 1#1

/-- The offsets of every access of the body are zero. -/
theorem hz3 : (![0, 0, 0] : Fin 3 → Nat) = fun _ => 0 := by
  funext a; fin_cases a <;> rfl

/-- A buffer whose LAST store was of the whole buffer holds that store's payload. -/
theorem read_whole_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self, View.mem_set_unit_zero h inb y⟩)).trans
    (View.canon_cons_unit_zero h inb w L)

/-- The new running maximum, from the query block, the key block and the old maximum. -/
def newMax (q : Vec F S8x512x128 .bf16) (k : Vec F S8x1024x128 .bf16) (m : Vec F S8x512x1 .f32) : Vec F S8x512x1 .f32 :=
  k3_pay2 (k3_pay9 q k m)
/-- The new running sum of exponentials. -/
def newSum (q : Vec F S8x512x128 .bf16) (k : Vec F S8x1024x128 .bf16) (m l : Vec F S8x512x1 .f32) : Vec F S8x512x1 .f32 :=
  k3_pay12 q k m m l
/-- The new running weighted sum of value rows. -/
def newAcc (q : Vec F S8x512x128 .bf16) (k v : Vec F S8x1024x128 .bf16) (m : Vec F S8x512x1 .f32) (a : Vec F S8x512x128 .f32) :
    Vec F S8x512x128 .f32 :=
  k3_pay1 (k3_pay7 v) (k3_pay10 q k m m) (k3_pay11 q k m) a
/-- The quotient stored at the last key tile. -/
def quotient (a : Vec F S8x512x128 .f32) (l : Vec F S8x512x1 .f32) : Vec F S8x512x128 .f32 := k3_pay3 a l

set_option maxHeartbeats 4000000 in
/-- Key tile 1 or 2: the three running quantities are updated from what the point before left; the output buffer is
    not touched. -/
theorem run_mid (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : ¬condReset i) (hc2 : ¬condFinal i)
    (xq : Vec F S8x512x128 .bf16) (xk xv : Vec F S8x1024x128 .bf16) (xo : Vec F S8x512x128 .f32)
    (sm sl : Vec F S8x512x1 .f32) (sa : Vec F S8x512x128 .f32) (E : Set ℕ) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ owns (c : Thread nD τ) arg6 fullShare sm ∗ owns (c : Thread nD τ) arg7 fullShare sl ∗ owns (c : Thread nD τ) arg8 fullShare sa
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (newMax xq xk sm)
            ∗ owns (c : Thread nD τ) arg7 fullShare (newSum xq xk sm sl)
            ∗ owns (c : Thread nD τ) arg8 fullShare (newAcc xq xk xv sm sa)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf2; subst hf3; subst hf4; subst hf5; subst hf6; subst hf7; subst hf8
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

set_option maxHeartbeats 4000000 in
/-- Key tile 0: the running quantities are first reset (maximum to the word of `-∞`, both sums to zero), whatever
    they held, then updated; the output buffer is not touched. -/
theorem run_first (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : condReset i) (hc2 : ¬condFinal i)
    (xq : Vec F S8x512x128 .bf16) (xk xv : Vec F S8x1024x128 .bf16) (xo : Vec F S8x512x128 .f32)
    (E : Set ℕ) (K : PUnit → sProp 𝕄) :
    iprop(owns (c : Thread nD τ) arg2 fullShare xq ∗ owns (c : Thread nD τ) arg3 fullShare xk ∗ owns (c : Thread nD τ) arg4 fullShare xv
        ∗ owns (c : Thread nD τ) arg5 fullShare xo ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xq ∗ owns (c : Thread nD τ) arg3 fullShare xk ∗ owns (c : Thread nD τ) arg4 fullShare xv
            ∗ owns (c : Thread nD τ) arg5 fullShare xo
            ∗ owns (c : Thread nD τ) arg6 fullShare (newMax xq xk k3_pay4)
            ∗ owns (c : Thread nD τ) arg7 fullShare (newSum xq xk k3_pay4 k3_pay5)
            ∗ owns (c : Thread nD τ) arg8 fullShare (newAcc xq xk xv k3_pay4 k3_pay6)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf2; subst hf3; subst hf4; subst hf5
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

set_option maxHeartbeats 4000000 in
/-- Key tile 3: the running quantities are updated from what the point before left, and the output buffer, whatever it
    held, receives the weighted sum divided by the sum of exponentials. -/
theorem run_last (c : Dev nD) (i : grid3.Coords) (arg2 : Memref sig .tc .vmem S8x512x128 .bf16) (harg2 : arg2.IsWhole) (arg3 : Memref sig .tc .vmem S8x1024x128 .bf16) (harg3 : arg3.IsWhole) (arg4 : Memref sig .tc .vmem S8x1024x128 .bf16) (harg4 : arg4.IsWhole) (arg5 : Memref sig .tc .vmem S8x512x128 .f32) (harg5 : arg5.IsWhole) (arg6 : Memref sig .tc .vmem S8x512x1 .f32) (harg6 : arg6.IsWhole) (arg7 : Memref sig .tc .vmem S8x512x1 .f32) (harg7 : arg7.IsWhole) (arg8 : Memref sig .tc .vmem S8x512x128 .f32) (harg8 : arg8.IsWhole)
    (hc1 : ¬condReset i) (hc2 : condFinal i)
    (xq : Vec F S8x512x128 .bf16) (xk xv : Vec F S8x1024x128 .bf16)
    (sm sl : Vec F S8x512x1 .f32) (sa : Vec F S8x512x128 .f32) (E : Set ℕ) (K : PUnit → sProp 𝕄) :
    iprop(owns (c : Thread nD τ) arg2 fullShare xq ∗ owns (c : Thread nD τ) arg3 fullShare xk ∗ owns (c : Thread nD τ) arg4 fullShare xv
        ∗ (∃ d, owns (c : Thread nD τ) arg5 fullShare d) ∗ owns (c : Thread nD τ) arg6 fullShare sm ∗ owns (c : Thread nD τ) arg7 fullShare sl ∗ owns (c : Thread nD τ) arg8 fullShare sa
        ∗ (iprop(owns (c : Thread nD τ) arg2 fullShare xq ∗ owns (c : Thread nD τ) arg3 fullShare xk ∗ owns (c : Thread nD τ) arg4 fullShare xv
            ∗ owns (c : Thread nD τ) arg5 fullShare (quotient (newAcc xq xk xv sm sa) (newSum xq xk sm sl))
            ∗ owns (c : Thread nD τ) arg6 fullShare (newMax xq xk sm)
            ∗ owns (c : Thread nD τ) arg7 fullShare (newSum xq xk sm sl)
            ∗ owns (c : Thread nD τ) arg8 fullShare (newAcc xq xk xv sm sa)) -∗ K ⟨⟩))
      ⊢ wp frame (wpE (defs₀ (F := F)) Variants.none c none) E (cc3__attn_kernel i arg2 harg2 arg3 harg3 arg4 harg4 arg5 harg5 arg6 harg6 arg7 harg7 arg8 harg8) K := by
  simp only [cc3__attn_kernel_eq_skeleton]; unfold cc3__attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  subst hf2; subst hf3; subst hf4; subst hf6; subst hf7; subst hf8
  sl_exec (disch := first | exact hc1 | exact hc2)
  sl_step
  sl_unfold_run_names
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H6]
  · iexists _; isplitr
    swap; · iexact H6
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  isplitl [H7]
  · iexists _; isplitr
    swap; · iexact H7
    ipureintro
    rw [read_whole_store _ _ hz3]
    simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]
  iexists _; isplitr
  swap; · iexact H8
  ipureintro
  rw [read_whole_store _ _ hz3]
  simp only [View.readAt_eq_ld, View.ld_unit_zero (S := S8x512x128) hz3, View.ld_unit_zero (S := S8x1024x128) hz3, View.ld_unit_zero (S := S8x512x1) hz3, View.readCov_unit_zero (S := S8x512x128) _ hz3, View.readCov_unit_zero (S := S8x512x1) _ hz3, newMax, newSum, newAcc, quotient]

end Cert.Kernel.AttnBody

end
-- ==== Proof.KAttnRegion.lean ====
/-
  Region 3 of @main: the attention kernel on its grid of 8 × 4 points (query tile, key tile), point `t` having key
  tile `t % 4`. For each query tile the kernel keeps three running quantities in scratch between the four key
  tiles — the row maximum so far, the sum of exponentials shifted by it, and the weighted sum of value rows
  shifted by it — resets them at key tile 0 and stores the quotient of the last two into the output block at key
  tile 3. This module states what the scratch holds after every point, by recursion on the point, and proves the
  pipeline rule's obligation for the body against it.
-/
import proofs.«165083_j41102837022983_2_alg».proof.Proof.Gen.Kernel.Launch
import proofs.«165083_j41102837022983_2_alg».proof.Proof.Gen.Kernel.Skeleton
import proofs.«165083_j41102837022983_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«165083_j41102837022983_2_alg».proof.Proof.KAttnBody

set_option maxRecDepth 16384

noncomputable section

namespace Cert.Kernel.AttnRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Cert.Kernel.AttnBody

/-! ## The two branch conditions over the grid, and where the output window is idle -/

/-- The reset branch is taken exactly at the points of key tile 0. -/
theorem hcondReset : ∀ t : Fin cfg3.N, condReset (grid3.coords t) ↔ t.val % 4 = 0 :=
  (by decide +kernel : ∀ t : Fin grid3.N, condReset (grid3.coords t) ↔ t.val % 4 = 0)
/-- The quotient branch is taken exactly at the points of key tile 3. -/
theorem hcondFinal : ∀ t : Fin cfg3.N, condFinal (grid3.coords t) ↔ t.val % 4 = 3 :=
  (by decide +kernel : ∀ t : Fin grid3.N, condFinal (grid3.coords t) ↔ t.val % 4 = 3)

/-- The three input windows are never idle. -/
theorem live_0 : ∀ t : Fin cfg3.N, cfg3.idle 0 (grid3.coords t) = false := by decide +kernel
theorem live_1 : ∀ t : Fin cfg3.N, cfg3.idle 1 (grid3.coords t) = false := by decide +kernel
theorem live_2 : ∀ t : Fin cfg3.N, cfg3.idle 2 (grid3.coords t) = false := by decide +kernel
/-- The output window is idle, and not written back, at every point whose key tile is not 3; -/
theorem idle_3 : ∀ t : Fin cfg3.N, ¬ t.val % 4 = 3 → cfg3.idle 3 (grid3.coords t) = true := by decide +kernel
theorem noFlush_3 : ∀ t : Fin cfg3.N, ¬ t.val % 4 = 3 → (cfg3.win 3).flush t = false := by decide +kernel
/-- it is live at key tile 3. -/
theorem live_3 : ∀ t : Fin cfg3.N, t.val % 4 = 3 → cfg3.idle 3 (grid3.coords t) = false := by decide +kernel

/-! ## The memrefs the body is called with -/

abbrev ms_0 (t : Fin cfg3.N) : Memref sig .tc .vmem S8x512x128 .bf16 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S8x1024x128 .bf16 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S8x1024x128 .bf16 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S8x512x128 .f32 := win3_3.stage (cfg3.slots t 3)
abbrev hs_3 (t : Fin cfg3.N) : (ms_3 t).IsWhole := hstage3_3 ((cfg3.slots t 3).cast nbuf3_3)
/-- The three scratch operands: whole scoped buffers of the kernel's own. -/
abbrev scM : Memref sig .tc .vmem S8x512x1 .f32 := Memref.whole cc3_scratch0
abbrev scL : Memref sig .tc .vmem S8x512x1 .f32 := Memref.whole cc3_scratch1
abbrev scA : Memref sig .tc .vmem S8x512x128 .f32 := Memref.whole cc3_scratch2

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the scratch holds after each point -/

/-- The running quantities a key-tile-0 point starts from: the reset values. -/
def resetSt : Vec F S8x512x1 .f32 × Vec F S8x512x1 .f32 × Vec F S8x512x128 .f32 := (k3_pay4, k3_pay5, k3_pay6)

/-- One point's update of the running quantities `s`, on the point's query, key and value blocks. -/
def stepAt (c : Dev nD) (t : Fin cfg3.N) (s : Vec F S8x512x1 .f32 × Vec F S8x512x1 .f32 × Vec F S8x512x128 .f32) : Vec F S8x512x1 .f32 × Vec F S8x512x1 .f32 × Vec F S8x512x128 .f32 :=
  (newMax (iblk3 V c 0 t) (iblk3 V c 1 t) s.1,
   newSum (iblk3 V c 0 t) (iblk3 V c 1 t) s.1 s.2.1,
   newAcc (iblk3 V c 0 t) (iblk3 V c 1 t) (iblk3 V c 2 t) s.1 s.2.2)

/-- THE RECURRENCE. The running quantities after the body at position `n`: the update applied to the reset values
    when the key tile is 0, to what position `n - 1` left otherwise. -/
def stAt (c : Dev nD) : (n : ℕ) → n < cfg3.N → Vec F S8x512x1 .f32 × Vec F S8x512x1 .f32 × Vec F S8x512x128 .f32
  | 0, hn => stepAt V c ⟨0, hn⟩ resetSt
  | n + 1, hn => stepAt V c ⟨n + 1, hn⟩ (if (n + 1) % 4 = 0 then resetSt else stAt c n (Nat.lt_of_succ_lt hn))

/-- At a point of key tile 0 the update starts from the reset values, -/
theorem stAt_reset (c : Dev nD) (t : Fin cfg3.N) (h : t.val % 4 = 0) : stAt V c t.val t.isLt = stepAt V c t resetSt := by
  obtain ⟨n, hn⟩ := t
  cases n with
  | zero => rfl
  | succ n => show stepAt V c _ (if (n + 1) % 4 = 0 then _ else _) = _; rw [if_pos h]
/-- and at any other point from what the point before left. -/
theorem stAt_carry (c : Dev nD) (t : Fin cfg3.N) (h : ¬ t.val % 4 = 0) :
    stAt V c t.val t.isLt = stepAt V c t (stAt V c (t.val - 1) (Nat.lt_of_le_of_lt (Nat.sub_le _ _) t.isLt)) := by
  obtain ⟨n, hn⟩ := t
  cases n with
  | zero => exact absurd (Nat.zero_mod _) h
  | succ n => show stepAt V c _ (if (n + 1) % 4 = 0 then _ else _) = _; rw [if_neg h]; rfl

/-! ## The invariant -/

/-- The core's scoped buffers that are no staging buffer of this region, with the three scratch buffers at the given
    assertions: the staging buffers of the other three regions, each whole at some contents, then the scratch. -/
def restWith (c : Dev nD) (S0 S1 S2 : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ S0 ∗ S1 ∗ S2)

/-- The class invariant (every scoped buffer no window stages at some contents, the generator register at some state)
    with the scratch operands as memrefs owned at some contents. -/
theorem PhiA_eq (c : Dev nD) :
    (Pipeline.ΦA spec3 c : sProp 𝕄)
      = iprop(restWith c iprop(∃ d, owns (c : Thread nD τ) scM fullShare d) iprop(∃ d, owns (c : Thread nD τ) scL fullShare d)
          iprop(∃ d, owns (c : Thread nD τ) scA fullShare d) ∗ (∃ r, prngReg c r)) := by
  unfold Pipeline.ΦA restWith; rw [scopedRest3_eq]; simp only [scM, scL, scA, owns_whole]; try rfl

/-- The region invariant before position `n`: before the first point the class invariant (the scratch at anything);
    afterwards the scratch at what the point before left, the rest unchanged. -/
def PhiS (c : Dev nD) : (n : ℕ) → n ≤ cfg3.N → sProp 𝕄
  | 0, _ => Pipeline.ΦA spec3 c
  | n + 1, hn => iprop(restWith c (owns (c : Thread nD τ) scM fullShare (stAt V c n hn).1)
      (owns (c : Thread nD τ) scL fullShare (stAt V c n hn).2.1) (owns (c : Thread nD τ) scA fullShare (stAt V c n hn).2.2)
      ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(restWith c (owns (c : Thread nD τ) scM fullShare (stAt V c n hn).1)
      (owns (c : Thread nD τ) scL fullShare (stAt V c n hn).2.1) (owns (c : Thread nD τ) scA fullShare (stAt V c n hn).2.2)
      ∗ (∃ r, prngReg c r)) := rfl

theorem PhiS_pos (c : Dev nD) (n : ℕ) (h : n ≤ cfg3.N) (hz : n ≠ 0) :
    PhiS V c n h = iprop(restWith c (owns (c : Thread nD τ) scM fullShare (stAt V c (n - 1) (by omega)).1)
      (owns (c : Thread nD τ) scL fullShare (stAt V c (n - 1) (by omega)).2.1) (owns (c : Thread nD τ) scA fullShare (stAt V c (n - 1) (by omega)).2.2)
      ∗ (∃ r, prngReg c r)) := by
  cases n with
  | zero => exact absurd rfl hz
  | succ n => rfl

/-! ## The proof data -/

/-- The proof data of region 3 on core `c`, at the contents `V` the region is entered from: after the body at point
    `t` each input's buffer at its block, the output's at the quotient of the running quantities after `t` (which the
    pipeline writes back at key tile 3 only); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => quotient (stAt V c t.val t.isLt).2.2 (stAt V c t.val t.isLt).2.1
  Φ t := PhiS V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS_castSucc (c : Dev nD) (t : Fin cfg3.N) :
    (dat3 V c).Φ t.castSucc = PhiS V c t.val (Nat.le_of_lt t.isLt) := by
  dsimp only [dat3]; simp only [Fin.coe_castSucc]

theorem after_0 (c : Dev nD) (t : Fin cfg3.N) : (dat3 V c).after 0 t = iblk3 V c 0 t := by dsimp only [dat3]
theorem after_1 (c : Dev nD) (t : Fin cfg3.N) : (dat3 V c).after 1 t = iblk3 V c 1 t := by dsimp only [dat3]
theorem after_2 (c : Dev nD) (t : Fin cfg3.N) : (dat3 V c).after 2 t = iblk3 V c 2 t := by dsimp only [dat3]
theorem after_3 (c : Dev nD) (t : Fin cfg3.N) :
    (dat3 V c).after 3 t = quotient (stAt V c t.val t.isLt).2.2 (stAt V c t.val t.isLt).2.1 := by dsimp only [dat3]

theorem before_0 (c : Dev nD) (t : Fin cfg3.N) (d) : (dat3 V c).before 0 t d = iblk3 V c 0 t :=
  before_0_of V (dat3 V c) (A_eq3 V c 0) (after_0 V c) t d
theorem before_1 (c : Dev nD) (t : Fin cfg3.N) (d) : (dat3 V c).before 1 t d = iblk3 V c 1 t :=
  before_1_of V (dat3 V c) (A_eq3 V c 1) (after_1 V c) t d
theorem before_2 (c : Dev nD) (t : Fin cfg3.N) (d) : (dat3 V c).before 2 t d = iblk3 V c 2 t :=
  before_2_of V (dat3 V c) (A_eq3 V c 2) (after_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms_0 t) fullShare ((dat3 V c).before 0 t d))
    ∗ (∃ d, owns (c : Thread nD τ) (ms_1 t) fullShare ((dat3 V c).before 1 t d))
    ∗ (∃ d, owns (c : Thread nD τ) (ms_2 t) fullShare ((dat3 V c).before 2 t d))
    ∗ (∃ d, owns (c : Thread nD τ) (ms_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 8000000 in
/-- The body at any point. The inputs' memrefs hold their blocks; the key tile `t % 4` says which case the point is in.
    At key tile 0 the scratch is handed over at whatever it holds (at the very first point the class invariant's
    anything, later what the previous query tile left) and comes back at the update of the reset values; at the other
    key tiles it is handed over at what the point before left and comes back updated; at key tile 3 the output buffer
    comes back at the quotient. The core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before_0, before_1, before_2]
  rw [show (dat3 V c).owesAt () t.succ = (dat3 V c).owesAt () t.castSucc from rfl]
  rw [show (dat3 V c).Φ t.succ = PhiS V c (t.val + 1) t.isLt from rfl, PhiS_succ]
  have hN : t.val < 32 := lt_of_lt_of_eq t.isLt (show cfg3.N = 32 from N_3)
  rw [show (dat3 V c).leavesExact 0 t = owns (c : Thread nD τ) (ms_0 t) fullShare ((dat3 V c).after 0 t) from by
    unfold Dat.leavesExact; rw [live_0 t], after_0]
  rw [show (dat3 V c).leavesExact 1 t = owns (c : Thread nD τ) (ms_1 t) fullShare ((dat3 V c).after 1 t) from by
    unfold Dat.leavesExact; rw [live_1 t], after_1]
  rw [show (dat3 V c).leavesExact 2 t = owns (c : Thread nD τ) (ms_2 t) fullShare ((dat3 V c).after 2 t) from by
    unfold Dat.leavesExact; rw [live_2 t], after_2]
  by_cases h0 : t.val % 4 = 0
  · have h3 : ¬ t.val % 4 = 3 := by omega
    rw [Dat.leavesExact_idle (dat3 V c) 3 t (idle_3 t h3) (noFlush_3 t h3)]
    rw [stAt_reset V c t h0]
    unfold stepAt; dsimp only
    by_cases hz : t.val = 0
    ·
      rw [PhiS_castSucc V c t, PhiS_zero V c _ _ hz, PhiA_eq]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_first c (grid3.coords t) _ _ _ _ _ _ _ _ _ _ _ _ _ _ ((hcondReset t).mpr h0) (fun h => h3 ((hcondFinal t).mp h)) (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
    ·
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_first c (grid3.coords t) _ _ _ _ _ _ _ _ _ _ _ _ _ _ ((hcondReset t).mpr h0) (fun h => h3 ((hcondFinal t).mp h)) (iblk3 V c 0 t) (iblk3 V c 1 t) (iblk3 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h3 : t.val % 4 = 3
    · rw [show (dat3 V c).leavesExact 3 t = owns (c : Thread nD τ) (ms_3 t) fullShare ((dat3 V c).after 3 t) from by
        unfold Dat.leavesExact; rw [live_3 t h3], after_3]
      rw [stAt_carry V c t h0]
      unfold stepAt; dsimp only
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_last c (grid3.coords t) _ _ _ _ _ _ _ _ _ _ _ _ _ _ (fun h => h0 ((hcondReset t).mp h)) ((hcondFinal t).mpr h3) (iblk3 V c 0 t) (iblk3 V c 1 t) (iblk3 V c 2 t) _ _ _ Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · rw [Dat.leavesExact_idle (dat3 V c) 3 t (idle_3 t h3) (noFlush_3 t h3)]
      rw [stAt_carry V c t h0]
      unfold stepAt; dsimp only
      rw [PhiS_castSucc V c t, PhiS_pos V c _ _ hz]
      unfold restWith
      iintro ⟨⟨⟨X0, X1, X2, X3, X4, X5, X6, X7, X8, X9, X10, X11, X12, X13, X14, HS0, HS1, HS2⟩, Hg⟩, Ho, ⟨%d0, H0⟩, ⟨%d1, H1⟩, ⟨%d2, H2⟩, ⟨%d3, H3⟩⟩
      iapply (run_mid c (grid3.coords t) _ _ _ _ _ _ _ _ _ _ _ _ _ _ (fun h => h0 ((hcondReset t).mp h)) (fun h => h3 ((hcondFinal t).mp h)) (iblk3 V c 0 t) (iblk3 V c 1 t) (iblk3 V c 2 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [X0 X1 X2 X3 X4 X5 X6 X7 X8 X9 X10 X11 X12 X13 X14 HS0 HS1 HS2 Hg]
      · isplitl [X0 X1 X2 X3 X4 X5 X6 X7 X8 X9 X10 X11 X12 X13 X14 HS0 HS1 HS2]
        · isplitl [X0]; · iexact X0
          isplitl [X1]; · iexact X1
          isplitl [X2]; · iexact X2
          isplitl [X3]; · iexact X3
          isplitl [X4]; · iexact X4
          isplitl [X5]; · iexact X5
          isplitl [X6]; · iexact X6
          isplitl [X7]; · iexact X7
          isplitl [X8]; · iexact X8
          isplitl [X9]; · iexact X9
          isplitl [X10]; · iexact X10
          isplitl [X11]; · iexact X11
          isplitl [X12]; · iexact X12
          isplitl [X13]; · iexact X13
          isplitl [X14]; · iexact X14
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

/-- The pipeline rule's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point the invariant gives the class invariant back: what the scratch holds is forgotten. -/
theorem Phi_out (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA_eq]
  unfold restWith
  iintro ⟨⟨X0, X1, X2, X3, X4, X5, X6, X7, X8, X9, X10, X11, X12, X13, X14, HS0, HS1, HS2⟩, Hg⟩
  isplitl [X0 X1 X2 X3 X4 X5 X6 X7 X8 X9 X10 X11 X12 X13 X14 HS0 HS1 HS2]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    isplitl [HS0]; · iexists _; iexact HS0
    isplitl [HS1]; · iexists _; iexact HS1
    iexists _; iexact HS2
  iexact Hg

theorem hout3 (c : Dev nD) : (dat3 V c).Φ (Fin.last cfg3.N) ⊢ Pipeline.ΦA spec3 c :=
  Phi_out V c _ (by rw [Fin.val_last]; have : cfg3.N = 32 := N_3; omega)

end Cert.Kernel.AttnRegion

end
-- ==== Proof.KRun.lean ====
/-
  The run of @main from the launch to the return, as eight segments: four stretches of reshapes and four kernel
  regions, alternating. The contents of every buffer at every segment boundary are named (`W0` … `W8`), so that one
  run theorem gives both that each argument array ends as launched and what the result buffer holds at the end: the
  last region's output array as its write-backs leave it, that region having been entered from the reshaped results
  of the three projection regions, each of those entered from a reshaped input and a weight matrix as launched.
-/
import proofs.«165083_j41102837022983_2_alg».proof.Proof.Gen.Kernel.Launch
import proofs.«165083_j41102837022983_2_alg».proof.Proof.Gen.Kernel.Regions
import proofs.«165083_j41102837022983_2_alg».proof.Proof.KProjRegion
import proofs.«165083_j41102837022983_2_alg».proof.Proof.KAttnRegion
import Idealize.ShloMosaic.Lib.Pipeline.FrameBody
import Idealize.ShloMosaic.Lib.Pipeline.RegionsLoop
import Idealize.ShloMosaic.Lib.Pipeline.FrameSuffix
import Idealize.ShloMosaic.Lib.StableHlo.Run
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each segment boundary: a fold through @main

@main is four stretches of reshapes and four kernel regions, alternating. Each boundary's contents are named: a
stretch rewrites the buffers its reshapes write; a region leaves its windows' arrays at what its write-backs
leave and every other buffer as entered. -/

/-- Core `c`'s buffers at launch. -/
abbrev W0 : Dev nD → Valuation τ sig (Elt F) := fun c b => (s₀ m ρ).mem ((c : Dev nD), b)
/-- After the first stretch (the reshape of input 0): what region 0 is entered from. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (ProjRegion.dat0 (V1 m ρ) c).arrAt w cfg0.N
theorem W2_arr (c : Dev nD) (w : Fin cfg0.W) :
    W2 m ρ c (Proc.devRef .tc (Pipeline.arrRef spec0 w)) = (ProjRegion.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (ProjRegion.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 0's result reshaped, input 1 reshaped): what region 1 is entered from. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (ProjRegion.dat1 (V3 m ρ) c).arrAt w cfg1.N
theorem W4_arr (c : Dev nD) (w : Fin cfg1.W) :
    W4 m ρ c (Proc.devRef .tc (Pipeline.arrRef spec1 w)) = (ProjRegion.dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (ProjRegion.dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 1's result reshaped, input 2 reshaped): what region 2 is entered from. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (ProjRegion.dat2 (V5 m ρ) c).arrAt w cfg2.N
theorem W6_arr (c : Dev nD) (w : Fin cfg2.W) :
    W6 m ρ c (Proc.devRef .tc (Pipeline.arrRef spec2 w)) = (ProjRegion.dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (ProjRegion.dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the fourth stretch (region 2's result reshaped): what region 3 is entered from. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: the end of @main. -/
def W8 (c : Dev nD) : Valuation τ sig (Elt F) :=
  Pipeline.withArrays spec3 c (W7 m ρ c) fun w => (AttnRegion.dat3 (V7 m ρ) c).arrAt w cfg3.N
theorem W8_arr (c : Dev nD) (w : Fin cfg3.W) :
    W8 m ρ c (Proc.devRef .tc (Pipeline.arrRef spec3 w)) = (AttnRegion.dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (AttnRegion.dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## What each stage leaves unchanged -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- A region leaves an input window's array as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((ProjRegion.dat0 (V1 m ρ) c).arrAt_in w hin _).trans (ProjRegion.A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((ProjRegion.dat1 (V3 m ρ) c).arrAt_in w hin _).trans (ProjRegion.A_eq1 (V3 m ρ) c w))
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((ProjRegion.dat2 (V5 m ρ) c).arrAt_in w hin _).trans (ProjRegion.A_eq2 (V5 m ρ) c w))
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((AttnRegion.dat3 (V7 m ρ) c).arrAt_in w hin _).trans (AttnRegion.A_eq3 (V7 m ρ) c w))

/-! ## The arguments end as launched

No reshape writes an argument and no region has one as an output window's array (a region reads it through an input
window or bypasses it), so the fold at an argument's buffer walks back to the launch memory. -/

theorem W8_main_arg0 (c : Dev nD) : W8 m ρ c (Proc.devRef .tc main_arg0) = m ((c : Thread nD τ).loc main_arg0) :=
  (W8_of_ne m ρ c main_arg0 (by decide)).trans <| (W7_of m ρ c main_arg0 (by decide)).trans <|
  (W6_of_ne m ρ c main_arg0 (by decide)).trans <| (W5_of m ρ c main_arg0 (by decide)).trans <|
  (W4_of_ne m ρ c main_arg0 (by decide)).trans <| (W3_of m ρ c main_arg0 (by decide)).trans <|
  (W2_of_ne m ρ c main_arg0 (by decide)).trans <| (W1_of m ρ c main_arg0 (by decide)).trans rfl
theorem W8_main_arg1 (c : Dev nD) : W8 m ρ c (Proc.devRef .tc main_arg1) = m ((c : Thread nD τ).loc main_arg1) :=
  (W8_of_ne m ρ c main_arg1 (by decide)).trans <| (W7_of m ρ c main_arg1 (by decide)).trans <|
  (W6_of_ne m ρ c main_arg1 (by decide)).trans <| (W5_of m ρ c main_arg1 (by decide)).trans <|
  (W4_of_ne m ρ c main_arg1 (by decide)).trans <| (W3_of m ρ c main_arg1 (by decide)).trans <|
  (W2_of_ne m ρ c main_arg1 (by decide)).trans <| (W1_of m ρ c main_arg1 (by decide)).trans rfl
theorem W8_main_arg2 (c : Dev nD) : W8 m ρ c (Proc.devRef .tc main_arg2) = m ((c : Thread nD τ).loc main_arg2) :=
  (W8_of_ne m ρ c main_arg2 (by decide)).trans <| (W7_of m ρ c main_arg2 (by decide)).trans <|
  (W6_of_ne m ρ c main_arg2 (by decide)).trans <| (W5_of m ρ c main_arg2 (by decide)).trans <|
  (W4_of_ne m ρ c main_arg2 (by decide)).trans <| (W3_of m ρ c main_arg2 (by decide)).trans <|
  (W2_of_ne m ρ c main_arg2 (by decide)).trans <| (W1_of m ρ c main_arg2 (by decide)).trans rfl
theorem W8_main_arg3 (c : Dev nD) : W8 m ρ c (Proc.devRef .tc main_arg3) = m ((c : Thread nD τ).loc main_arg3) :=
  (W8_of_ne m ρ c main_arg3 (by decide)).trans <| (W7_of m ρ c main_arg3 (by decide)).trans <|
  (W6_of_ne m ρ c main_arg3 (by decide)).trans <| (W5_of m ρ c main_arg3 (by decide)).trans <|
  (W4_of_ne m ρ c main_arg3 (by decide)).trans <| (W3_of m ρ c main_arg3 (by decide)).trans <|
  (W2_in m ρ c 1 rfl).trans <| (W1_of m ρ c main_arg3 (by decide)).trans rfl
theorem W8_main_arg4 (c : Dev nD) : W8 m ρ c (Proc.devRef .tc main_arg4) = m ((c : Thread nD τ).loc main_arg4) :=
  (W8_of_ne m ρ c main_arg4 (by decide)).trans <| (W7_of m ρ c main_arg4 (by decide)).trans <|
  (W6_of_ne m ρ c main_arg4 (by decide)).trans <| (W5_of m ρ c main_arg4 (by decide)).trans <|
  (W4_in m ρ c 1 rfl).trans <| (W3_of m ρ c main_arg4 (by decide)).trans <|
  (W2_of_ne m ρ c main_arg4 (by decide)).trans <| (W1_of m ρ c main_arg4 (by decide)).trans rfl
theorem W8_main_arg5 (c : Dev nD) : W8 m ρ c (Proc.devRef .tc main_arg5) = m ((c : Thread nD τ).loc main_arg5) :=
  (W8_of_ne m ρ c main_arg5 (by decide)).trans <| (W7_of m ρ c main_arg5 (by decide)).trans <|
  (W6_in m ρ c 1 rfl).trans <| (W5_of m ρ c main_arg5 (by decide)).trans <|
  (W4_of_ne m ρ c main_arg5 (by decide)).trans <| (W3_of m ρ c main_arg5 (by decide)).trans <|
  (W2_of_ne m ρ c main_arg5 (by decide)).trans <| (W1_of m ρ c main_arg5 (by decide)).trans rfl

/-- The result buffer at the end of @main is the last region's output window's array as its write-backs leave it. -/
theorem W8_main_v9 (c : Dev nD) : W8 m ρ c (Proc.devRef .tc main_v9) = (AttnRegion.dat3 (V7 m ρ) c).arrAt 3 cfg3.N :=
  W8_arr m ρ c 3

/-! ## What each region is entered from, at its input windows' arrays

A reshape leaves in its result buffer the operand's elements in row-major order under the result's shape. -/

/-- Region 0's first window: input 0, its leading two axes merged. -/
theorem V1_win0 (c : Dev nD) :
    (V1 m ρ c (Pipeline.arrRef spec0 0) : S32768x1024.Idx → Elt F .f32)
      = shapeCast S32768x1024 (m ((c : Thread nD τ).loc main_arg0) : S8x4096x1024.Idx → Elt F .f32) shapeCasts_S8x4096x1024_S32768x1024 := by
  show StableHlo.after hostOps0 (W0 m ρ c) (Proc.devRef .tc main_v0) = _
  after_results; rfl
/-- Region 0's second window: the first weight matrix, as launched. -/
theorem V1_win1 (c : Dev nD) : V1 m ρ c (Pipeline.arrRef spec0 1) = m ((c : Thread nD τ).loc main_arg3) :=
  (W1_of m ρ c main_arg3 (by decide)).trans rfl

theorem W2_main_arg1 (c : Dev nD) : W2 m ρ c (Proc.devRef .tc main_arg1) = m ((c : Thread nD τ).loc main_arg1) :=
  (W2_of_ne m ρ c main_arg1 (by decide)).trans ((W1_of m ρ c main_arg1 (by decide)).trans rfl)
/-- Region 1's first window: input 1, its leading two axes merged. -/
theorem V3_win0 (c : Dev nD) :
    (V3 m ρ c (Pipeline.arrRef spec1 0) : S32768x1024.Idx → Elt F .f32)
      = shapeCast S32768x1024 (m ((c : Thread nD τ).loc main_arg1) : S8x4096x1024.Idx → Elt F .f32) shapeCasts_S8x4096x1024_S32768x1024 := by
  rw [← W2_main_arg1 m ρ c]
  show StableHlo.after hostOps1 (W2 m ρ c) (Proc.devRef .tc main_v3) = _
  after_results; rfl
/-- Region 1's second window: the second weight matrix, as launched. -/
theorem V3_win1 (c : Dev nD) : V3 m ρ c (Pipeline.arrRef spec1 1) = m ((c : Thread nD τ).loc main_arg4) :=
  (W3_of m ρ c main_arg4 (by decide)).trans <| (W2_of_ne m ρ c main_arg4 (by decide)).trans <| (W1_of m ρ c main_arg4 (by decide)).trans rfl

theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
  (W2_of_ne m ρ c main_arg2 (by decide)).trans ((W1_of m ρ c main_arg2 (by decide)).trans rfl)
/-- Region 2's first window: input 2, its leading two axes merged. -/
theorem V5_win0 (c : Dev nD) :
    (V5 m ρ c (Pipeline.arrRef spec2 0) : S32768x1024.Idx → Elt F .f32)
      = shapeCast S32768x1024 (m ((c : Thread nD τ).loc main_arg2) : S8x4096x1024.Idx → Elt F .f32) shapeCasts_S8x4096x1024_S32768x1024 := by
  rw [← W4_main_arg2 m ρ c]
  show StableHlo.after hostOps2 (W4 m ρ c) (Proc.devRef .tc main_v6) = _
  after_results; rfl
/-- Region 2's second window: the third weight matrix, as launched. -/
theorem V5_win1 (c : Dev nD) : V5 m ρ c (Pipeline.arrRef spec2 1) = m ((c : Thread nD τ).loc main_arg5) :=
  (W5_of m ρ c main_arg5 (by decide)).trans <| (W4_of_ne m ρ c main_arg5 (by decide)).trans <|
  (W3_of m ρ c main_arg5 (by decide)).trans <| (W2_of_ne m ρ c main_arg5 (by decide)).trans <| (W1_of m ρ c main_arg5 (by decide)).trans rfl

/-- Region 3's first window: region 0's result, its rows split back into batch and position. -/
theorem V7_win0 (c : Dev nD) :
    (V7 m ρ c (Pipeline.arrRef spec3 0) : S8x4096x128.Idx → Elt F .bf16)
      = shapeCast S8x4096x128 ((ProjRegion.dat0 (V1 m ρ) c).arrAt 2 cfg0.N : S32768x128.Idx → Elt F .bf16) shapeCasts_S32768x128_S8x4096x128 := by
  rw [← W2_arr m ρ c 2]
  refine (W7_of m ρ c main_v2 (by decide)).trans <| (W6_of_ne m ρ c main_v2 (by decide)).trans <|
    (W5_of m ρ c main_v2 (by decide)).trans <| (W4_of_ne m ρ c main_v2 (by decide)).trans ?_
  show StableHlo.after hostOps1 (W2 m ρ c) (Proc.devRef .tc main_v2) = _
  after_results; rfl
/-- Region 3's second window: region 1's result, likewise. -/
theorem V7_win1 (c : Dev nD) :
    (V7 m ρ c (Pipeline.arrRef spec3 1) : S8x4096x128.Idx → Elt F .bf16)
      = shapeCast S8x4096x128 ((ProjRegion.dat1 (V3 m ρ) c).arrAt 2 cfg1.N : S32768x128.Idx → Elt F .bf16) shapeCasts_S32768x128_S8x4096x128 := by
  rw [← W4_arr m ρ c 2]
  refine (W7_of m ρ c main_v5 (by decide)).trans <| (W6_of_ne m ρ c main_v5 (by decide)).trans ?_
  show StableHlo.after hostOps2 (W4 m ρ c) (Proc.devRef .tc main_v5) = _
  after_results; rfl
/-- Region 3's third window: region 2's result, likewise. -/
theorem V7_win2 (c : Dev nD) :
    (V7 m ρ c (Pipeline.arrRef spec3 2) : S8x4096x128.Idx → Elt F .bf16)
      = shapeCast S8x4096x128 ((ProjRegion.dat2 (V5 m ρ) c).arrAt 2 cfg2.N : S32768x128.Idx → Elt F .bf16) shapeCasts_S32768x128_S8x4096x128 := by
  rw [← W6_arr m ρ c 2]
  show StableHlo.after hostOps3 (W6 m ρ c) (Proc.devRef .tc main_v8) = _
  after_results; rfl

/-! # The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the pinned
    configuration at a numeral reduces to the printed one. -/
def pdats : (p : Fin 4) → (c : Dev nD) → Dat τ (Elt F) Unit ℕ (UR sig nD τ) ℕ (Pipeline.pin (pcfgs (F := F)) adm p) c
  | ⟨0, _⟩ => fun c => ProjRegion.dat0 (V1 m ρ) c
  | ⟨1, _⟩ => fun c => ProjRegion.dat1 (V3 m ρ) c
  | ⟨2, _⟩ => fun c => ProjRegion.dat2 (V5 m ρ) c
  | ⟨3, _⟩ => fun c => AttnRegion.dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies of what it owes, at nothing. -/
abbrev R (c : Dev nD) : sProp 𝕄 := iprop((∃ r, prngReg c r) ∗ ∃ W, owes (c : Thread nD τ) (0 : CellTallies nD τ sig Unit) W)
/-- A stretch of reshapes as a segment over the unscoped references from the contents `W`, `R` riding along: its
    exit state is those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents `W8`, the
    generator register at some state. -/
abbrev Tₙ (c : Dev nD) : sProp 𝕄 := iprop(StableHlo.held (c : Thread nD τ) (Pipeline.ucRefs τ sig) (W8 m ρ c) ∗ ∃ r, prngReg c r)

/-! # The regions as segments -/

-- a library lemma stated over `pin pcs a p` unifies with the pinned configuration only when unification may unfold
-- plain definitions in a metavariable's type
set_option backward.isDefEq.respectTransparency.types false in
/-- Region 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (ProjRegion.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (ProjRegion.body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (ProjRegion.body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 3 over the thread state: entered from every unscoped buffer at `W7`, left at `W8`. Its arrays are split
    out of the unscoped buffers and put back at the exit contents; the generator register goes into the region's
    invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (AttnRegion.body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (AttnRegion.dat3 (V7 m ρ) c).Φ 0 from rfl]
    refine BIBase.Entails.trans ?_ (AttnRegion.hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (AttnRegion.dat3 (V7 m ρ) c).Φ (Fin.last cfg3.N) from rfl]
    refine (AttnRegion.hout3 (V7 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's eight segments in order: a host segment per stretch of reshapes from its boundary's contents, a region per kernel. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN. From any memory with zero counters every weakly fair execution of @main on the TensorCores terminates,
    nothing faulting, and in every final state each unscoped TensorCore buffer holds the last boundary's contents
    `W8`: the launch over the segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Run

end
-- ==== Proof.Frames.lean ====
/-
  The three frame claims. The two kernel programs run as @main's eight segments (four host stretches of reshapes, four
  kernel regions), and the run names every unscoped buffer's final contents; an argument array is written by no host
  stretch and is an input (or untouched) in every region, so its final contents are its launch contents. The
  reference is a straight line of host operations, whose run likewise leaves the arguments as launched.
-/
import proofs.«165083_j41102837022983_2_alg».proof.Defs
import proofs.«165083_j41102837022983_2_alg».proof.Proof.Run
import proofs.«165083_j41102837022983_2_alg».proof.Proof.KRun
import proofs.«165083_j41102837022983_2_alg».proof.Proof.Gen.ReferenceIdeal.Run

noncomputable section

namespace Cert.Proof.Frames

open Idealize.ShloMosaic Idealize.ShloMosaic.TcCoe Idealize.SL.Sem

/-- The idealized kernel program runs to the end and leaves its six argument arrays as launched. -/
theorem frame_ki [Cert.KernelIdeal.Facts] [Cert.Pre_finite_inputs.Facts] : Cert.frame_KernelIdeal := fun m ρ _ =>
  (θ_run Cert.KernelIdeal.defs _ _).mono (fun r h c =>
    ⟨(h c _ (Cert.KernelIdeal.Run.mem_uc Cert.KernelIdeal.main_arg0 (by decide))).trans (Cert.KernelIdeal.Run.W8_main_arg0 m ρ c),
     (h c _ (Cert.KernelIdeal.Run.mem_uc Cert.KernelIdeal.main_arg1 (by decide))).trans (Cert.KernelIdeal.Run.W8_main_arg1 m ρ c),
     (h c _ (Cert.KernelIdeal.Run.mem_uc Cert.KernelIdeal.main_arg2 (by decide))).trans (Cert.KernelIdeal.Run.W8_main_arg2 m ρ c),
     (h c _ (Cert.KernelIdeal.Run.mem_uc Cert.KernelIdeal.main_arg3 (by decide))).trans (Cert.KernelIdeal.Run.W8_main_arg3 m ρ c),
     (h c _ (Cert.KernelIdeal.Run.mem_uc Cert.KernelIdeal.main_arg4 (by decide))).trans (Cert.KernelIdeal.Run.W8_main_arg4 m ρ c),
     (h c _ (Cert.KernelIdeal.Run.mem_uc Cert.KernelIdeal.main_arg5 (by decide))).trans (Cert.KernelIdeal.Run.W8_main_arg5 m ρ c)⟩)
    (Cert.KernelIdeal.Run.run_all (F := Ideal) m ρ)

/-- The word-level kernel program runs to the end and leaves its six argument arrays as launched. -/
theorem frame_k [Cert.Kernel.Facts] [Cert.Pre_finite_inputs.Facts] : Cert.frame_Kernel := fun m ρ _ =>
  (θ_run Cert.Kernel.defs _ _).mono (fun r h c =>
    ⟨(h c _ (Cert.Kernel.Run.mem_uc Cert.Kernel.main_arg0 (by decide))).trans (Cert.Kernel.Run.W8_main_arg0 m ρ c),
     (h c _ (Cert.Kernel.Run.mem_uc Cert.Kernel.main_arg1 (by decide))).trans (Cert.Kernel.Run.W8_main_arg1 m ρ c),
     (h c _ (Cert.Kernel.Run.mem_uc Cert.Kernel.main_arg2 (by decide))).trans (Cert.Kernel.Run.W8_main_arg2 m ρ c),
     (h c _ (Cert.Kernel.Run.mem_uc Cert.Kernel.main_arg3 (by decide))).trans (Cert.Kernel.Run.W8_main_arg3 m ρ c),
     (h c _ (Cert.Kernel.Run.mem_uc Cert.Kernel.main_arg4 (by decide))).trans (Cert.Kernel.Run.W8_main_arg4 m ρ c),
     (h c _ (Cert.Kernel.Run.mem_uc Cert.Kernel.main_arg5 (by decide))).trans (Cert.Kernel.Run.W8_main_arg5 m ρ c)⟩)
    (Cert.Kernel.Run.run_all (F := Bits) m ρ)

/-- The reference runs to the end and leaves its six argument arrays as launched. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.AttnSpec.lean ====
/-
  The mathematics of one query row of the attention stage, over the extended reals.

  A query row has 4096 scaled scores `s j` against the keys and the value rows `v j`. The reference normalises the
  exponentials of the scores shifted by their maximum and takes the weighted sum of the value rows. The kernel
  walks the keys in four tiles of 1024 and keeps, per row, the maximum so far, the sum of exponentials shifted by
  it, and the weighted sum of value rows shifted by it, rescaling both sums by `exp (old max − new max)` whenever
  the maximum moves; at the end it divides the weighted sum by the sum.
-/
import Idealize.ShloMosaic.PureOps.Ideal
import Mathlib.Data.EReal.Basic
import Mathlib.Algebra.BigOperators.Group.Finset.Basic

noncomputable section

namespace Cert.AttnSpec

open Idealize.ShloMosaic

/-- Key `i` of key tile `k` among the 4096 keys. -/
def key (k : Fin 4) (i : Fin 1024) : Fin 4096 := ⟨1024 * k.val + i.val, by omega⟩

/-- The key tile met at step `n` of a row's walk (the walk has four steps). -/
def tileOf (n : ℕ) : Fin 4 := ⟨n % 4, Nat.mod_lt _ (by decide)⟩

/-- An entry of a projected row: `∑_d x d · w d e`. -/
def proj (x : Fin 1024 → EReal) (w : Fin 1024 → Fin 128 → EReal) (e : Fin 128) : EReal := ∑ d, x d * w d e

/-- The scaled score of a projected query row against a projected key row. -/
def score (c : EReal) (q k : Fin 128 → EReal) : EReal := (∑ e, q e * k e) * c

/-- The running quantities of one query row: the maximum so far, the sum of exponentials shifted by it, and the
    weighted sum of value rows shifted by it. -/
structure St where
  M : EReal
  L : EReal
  A : Fin 128 → EReal

/-- Before the first tile: maximum `-∞`, both sums zero. -/
def St.init : St := ⟨⊥, 0, fun _ => 0⟩

/-- One key tile (its scores `s`, its value rows `v`) folded into the running quantities. -/
def St.step (σ : St) (s : Fin 1024 → EReal) (v : Fin 1024 → Fin 128 → EReal) : St :=
  ⟨max σ.M (Finset.univ.sup s),
   Ideal.exp (σ.M - max σ.M (Finset.univ.sup s)) * σ.L + ∑ i, Ideal.exp (s i - max σ.M (Finset.univ.sup s)),
   fun e => Ideal.exp (σ.M - max σ.M (Finset.univ.sup s)) * σ.A e
     + ∑ i, Ideal.exp (s i - max σ.M (Finset.univ.sup s)) * v i e⟩

/-- The running quantities after the first `n` key tiles of the row. -/
def St.run (s : Fin 4096 → EReal) (v : Fin 4096 → Fin 128 → EReal) : ℕ → St
  | 0 => St.init
  | n + 1 => (St.run s v n).step (fun i => s (key (tileOf n) i)) (fun i => v (key (tileOf n) i))

/-- What the tiled walk writes for the row: the weighted sum over the sum, after all four tiles. -/
def tiledOut (s : Fin 4096 → EReal) (v : Fin 4096 → Fin 128 → EReal) (e : Fin 128) : EReal :=
  Ideal.div ((St.run s v 4).A e) (St.run s v 4).L

/-- What the reference computes for the row: the value rows weighted by the normalised shifted exponentials. -/
def softmaxOut (s : Fin 4096 → EReal) (v : Fin 4096 → Fin 128 → EReal) (e : Fin 128) : EReal :=
  ∑ j, Ideal.div (Ideal.exp (s j - Finset.univ.sup s)) (∑ j', Ideal.exp (s j' - Finset.univ.sup s)) * v j e

/-- The projected query, key and value rows and the scores of query row `(b, n)`, from the six inputs. -/
def scores (c : EReal) (q k : Fin 8 → Fin 4096 → Fin 1024 → EReal) (Wq Wk : Fin 1024 → Fin 128 → EReal)
    (b : Fin 8) (n : Fin 4096) (j : Fin 4096) : EReal :=
  score c (proj (q b n) Wq) (proj (k b j) Wk)

/-- The whole result by the tiled walk, -/
def attnTiled (c : EReal) (q k v : Fin 8 → Fin 4096 → Fin 1024 → EReal) (Wq Wk Wv : Fin 1024 → Fin 128 → EReal)
    (b : Fin 8) (n : Fin 4096) (e : Fin 128) : EReal :=
  tiledOut (scores c q k Wq Wk b n) (fun j => proj (v b j) Wv) e

/-- and by the reference's formula. -/
def attnRef (c : EReal) (q k v : Fin 8 → Fin 4096 → Fin 1024 → EReal) (Wq Wk Wv : Fin 1024 → Fin 128 → EReal)
    (b : Fin 8) (n : Fin 4096) (e : Fin 128) : EReal :=
  softmaxOut (scores c q k Wq Wk b n) (fun j => proj (v b j) Wv) e

end Cert.AttnSpec

end
-- ==== Proof.LibBatchedDot.lean ====
/-
  Batched matrix products, read at an entry.

  Two arrangements of a product with one leading batch axis, over the extended reals, each read at entry (b, i, j) as the
  textbook sum with the batch index carried along:
    * rows against rows, [B, M, K] × [B, N, K] → [B, M, N] (contract the last axis of both):
        ∑ₖ A(b, i, k) · C(b, j, k)  — the Gram matrix of two families of rows;
    * matrix against matrix, [B, M, K] × [B, K, N] → [B, M, N] (contract the left operand's last axis with the right
      operand's middle axis):  ∑ₖ A(b, i, k) · C(b, k, j).
  Both for the kernel's matrix unit accumulating into zero. No sum is reordered and no factor moved, so nothing here
  needs the entries finite. General in B, M, N, K.
-/
import Idealize.ShloMosaic.PureOps.Ideal
import Idealize.ShloMosaic.PureOps.Ideal.Laws
import Idealize.ShloMosaic.Lib.ValueIdx

noncomputable section

namespace Cert.LibBatchedDot

open Idealize.ShloMosaic Idealize.ShloMosaic.ValueIdx

variable {B M N K : Nat} {φ₁ φ₂ : FTy}

/-! ## Rows against rows -/

/-- The dimension numbers of [B, M, K] × [B, N, K] → [B, M, N]. -/
abbrev rowsDims (wf : DotDims.WF (⟨3, ![B, M, K]⟩ : Shape) ⟨3, ![B, N, K]⟩ ⟨3, ![B, M, N]⟩ [2] [2] [1] [1] [0] [0]) :
    DotDims (⟨3, ![B, M, K]⟩ : Shape) ⟨3, ![B, N, K]⟩ ⟨3, ![B, M, N]⟩ where
  lhsContracting := [2]
  rhsContracting := [2]
  lhsNonContracting := [1]
  rhsNonContracting := [1]
  lhsBatch := [0]
  rhsBatch := [0]
  wf := wf

section Rows
variable (wf : DotDims.WF (⟨3, ![B, M, K]⟩ : Shape) ⟨3, ![B, N, K]⟩ ⟨3, ![B, M, N]⟩ [2] [2] [1] [1] [0] [0])

theorem rows_lhs0 (b : Fin B) (i : Fin M) (j : Fin N) (q : (rowsDims wf).contr.Idx) :
    ((rowsDims wf).lhsIdx (ix3 b i j) q 0).val = b.val := by
  unfold DotDims.lhsIdx
  rw [dif_pos (show (0 : Fin 3) ∈ (rowsDims wf).lhsBatch from List.mem_singleton.mpr rfl)]
  rfl

theorem rows_lhs1 (b : Fin B) (i : Fin M) (j : Fin N) (q : (rowsDims wf).contr.Idx) :
    ((rowsDims wf).lhsIdx (ix3 b i j) q 1).val = i.val := by
  unfold DotDims.lhsIdx
  rw [dif_neg (by decide : ¬(1 : Fin 3) ∈ ([0] : List (Fin 3))),
    dif_pos (show (1 : Fin 3) ∈ (rowsDims wf).lhsNonContracting from List.mem_singleton.mpr rfl)]
  rfl

theorem rows_lhs2 (b : Fin B) (i : Fin M) (j : Fin N) (q : (rowsDims wf).contr.Idx) :
    ((rowsDims wf).lhsIdx (ix3 b i j) q 2).val = (q ⟨0, Nat.one_pos⟩).val :=
  (rowsDims wf).lhsIdx_val_of_single rfl (ix3 b i j) q

theorem rows_rhs0 (b : Fin B) (i : Fin M) (j : Fin N) (q : (rowsDims wf).contr.Idx) :
    ((rowsDims wf).rhsIdx (ix3 b i j) q 0).val = b.val := by
  unfold DotDims.rhsIdx
  rw [dif_pos (show (0 : Fin 3) ∈ (rowsDims wf).rhsBatch from List.mem_singleton.mpr rfl)]
  rfl

theorem rows_rhs1 (b : Fin B) (i : Fin M) (j : Fin N) (q : (rowsDims wf).contr.Idx) :
    ((rowsDims wf).rhsIdx (ix3 b i j) q 1).val = j.val := by
  unfold DotDims.rhsIdx
  rw [dif_neg (by decide : ¬(1 : Fin 3) ∈ ([0] : List (Fin 3))),
    dif_pos (show (1 : Fin 3) ∈ (rowsDims wf).rhsNonContracting from List.mem_singleton.mpr rfl)]
  rfl

theorem rows_rhs2 (b : Fin B) (i : Fin M) (j : Fin N) (q : (rowsDims wf).contr.Idx) :
    ((rowsDims wf).rhsIdx (ix3 b i j) q 2).val = (q ⟨0, Nat.one_pos⟩).val :=
  (rowsDims wf).rhsIdx_val_of_single rfl (ix3 b i j) q

/-- The sum over the contraction index is the sum over k < K of A(b, i, k) · C(b, j, k). -/
theorem rows_sum_contr (A : FVec Ideal ⟨3, ![B, M, K]⟩ φ₁) (C : FVec Ideal ⟨3, ![B, N, K]⟩ φ₂) (b : Fin B) (i : Fin M) (j : Fin N) :
    ∑ q : (rowsDims wf).contr.Idx, A ((rowsDims wf).lhsIdx (ix3 b i j) q) * C ((rowsDims wf).rhsIdx (ix3 b i j) q)
      = ∑ k : Fin K, A (ix3 b i k) * C (ix3 b j k) := by
  rw [← Equiv.sum_comp (contrEquiv1 (rowsDims wf) K rfl rfl).symm]
  refine Finset.sum_congr rfl fun k _ => ?_
  have hk := contrEquiv1_symm_val (rowsDims wf) K rfl rfl k
  have el : (rowsDims wf).lhsIdx (ix3 b i j) ((contrEquiv1 (rowsDims wf) K rfl rfl).symm k) = ix3 b i k := funext fun a => Fin.ext (by
    match a with
    | ⟨0, _⟩ => exact rows_lhs0 wf b i j _
    | ⟨1, _⟩ => exact rows_lhs1 wf b i j _
    | ⟨2, _⟩ => exact (rows_lhs2 wf b i j _).trans hk)
  have er : (rowsDims wf).rhsIdx (ix3 b i j) ((contrEquiv1 (rowsDims wf) K rfl rfl).symm k) = ix3 b j k := funext fun a => Fin.ext (by
    match a with
    | ⟨0, _⟩ => exact rows_rhs0 wf b i j _
    | ⟨1, _⟩ => exact rows_rhs1 wf b i j _
    | ⟨2, _⟩ => exact (rows_rhs2 wf b i j _).trans hk)
  rw [el, er]

/-- The kernel's matrix unit into a zero accumulator, rows against rows, at entry (b, i, j). -/
theorem rows_matmul_zero_apply (prec : Option ContractPrecision)
    (A : FVec Ideal ⟨3, ![B, M, K]⟩ φ₁) (C : FVec Ideal ⟨3, ![B, N, K]⟩ φ₂) (b : Fin B) (i : Fin M) (j : Fin N) :
    FloatOps.matmul (rowsDims wf) prec A C (constant ⟨3, ![B, M, N]⟩ .f32 0x00000000#32) (ix3 b i j)
      = ∑ k : Fin K, A (ix3 b i k) * C (ix3 b j k) := by
  rw [Ideal.matmul_constant_zero_apply]
  exact rows_sum_contr wf A C b i j

end Rows

/-! ## Matrix against matrix -/

/-- The dimension numbers of [B, M, K] × [B, K, N] → [B, M, N]. -/
abbrev matDims (wf : DotDims.WF (⟨3, ![B, M, K]⟩ : Shape) ⟨3, ![B, K, N]⟩ ⟨3, ![B, M, N]⟩ [2] [1] [1] [2] [0] [0]) :
    DotDims (⟨3, ![B, M, K]⟩ : Shape) ⟨3, ![B, K, N]⟩ ⟨3, ![B, M, N]⟩ where
  lhsContracting := [2]
  rhsContracting := [1]
  lhsNonContracting := [1]
  rhsNonContracting := [2]
  lhsBatch := [0]
  rhsBatch := [0]
  wf := wf

section Mat
variable (wf : DotDims.WF (⟨3, ![B, M, K]⟩ : Shape) ⟨3, ![B, K, N]⟩ ⟨3, ![B, M, N]⟩ [2] [1] [1] [2] [0] [0])

theorem mat_lhs0 (b : Fin B) (i : Fin M) (j : Fin N) (q : (matDims wf).contr.Idx) :
    ((matDims wf).lhsIdx (ix3 b i j) q 0).val = b.val := by
  unfold DotDims.lhsIdx
  rw [dif_pos (show (0 : Fin 3) ∈ (matDims wf).lhsBatch from List.mem_singleton.mpr rfl)]
  rfl

theorem mat_lhs1 (b : Fin B) (i : Fin M) (j : Fin N) (q : (matDims wf).contr.Idx) :
    ((matDims wf).lhsIdx (ix3 b i j) q 1).val = i.val := by
  unfold DotDims.lhsIdx
  rw [dif_neg (by decide : ¬(1 : Fin 3) ∈ ([0] : List (Fin 3))),
    dif_pos (show (1 : Fin 3) ∈ (matDims wf).lhsNonContracting from List.mem_singleton.mpr rfl)]
  rfl

theorem mat_lhs2 (b : Fin B) (i : Fin M) (j : Fin N) (q : (matDims wf).contr.Idx) :
    ((matDims wf).lhsIdx (ix3 b i j) q 2).val = (q ⟨0, Nat.one_pos⟩).val :=
  (matDims wf).lhsIdx_val_of_single rfl (ix3 b i j) q

theorem mat_rhs0 (b : Fin B) (i : Fin M) (j : Fin N) (q : (matDims wf).contr.Idx) :
    ((matDims wf).rhsIdx (ix3 b i j) q 0).val = b.val := by
  unfold DotDims.rhsIdx
  rw [dif_pos (show (0 : Fin 3) ∈ (matDims wf).rhsBatch from List.mem_singleton.mpr rfl)]
  rfl

theorem mat_rhs1 (b : Fin B) (i : Fin M) (j : Fin N) (q : (matDims wf).contr.Idx) :
    ((matDims wf).rhsIdx (ix3 b i j) q 1).val = (q ⟨0, Nat.one_pos⟩).val :=
  (matDims wf).rhsIdx_val_of_single rfl (ix3 b i j) q

theorem mat_rhs2 (b : Fin B) (i : Fin M) (j : Fin N) (q : (matDims wf).contr.Idx) :
    ((matDims wf).rhsIdx (ix3 b i j) q 2).val = j.val := by
  unfold DotDims.rhsIdx
  rw [dif_neg (by decide : ¬(2 : Fin 3) ∈ ([0] : List (Fin 3))),
    dif_pos (show (2 : Fin 3) ∈ (matDims wf).rhsNonContracting from List.mem_singleton.mpr rfl)]
  rfl

/-- The sum over the contraction index is the sum over k < K of A(b, i, k) · C(b, k, j). -/
theorem mat_sum_contr (A : FVec Ideal ⟨3, ![B, M, K]⟩ φ₁) (C : FVec Ideal ⟨3, ![B, K, N]⟩ φ₂) (b : Fin B) (i : Fin M) (j : Fin N) :
    ∑ q : (matDims wf).contr.Idx, A ((matDims wf).lhsIdx (ix3 b i j) q) * C ((matDims wf).rhsIdx (ix3 b i j) q)
      = ∑ k : Fin K, A (ix3 b i k) * C (ix3 b k j) := by
  rw [← Equiv.sum_comp (contrEquiv1 (matDims wf) K rfl rfl).symm]
  refine Finset.sum_congr rfl fun k _ => ?_
  have hk := contrEquiv1_symm_val (matDims wf) K rfl rfl k
  have el : (matDims wf).lhsIdx (ix3 b i j) ((contrEquiv1 (matDims wf) K rfl rfl).symm k) = ix3 b i k := funext fun a => Fin.ext (by
    match a with
    | ⟨0, _⟩ => exact mat_lhs0 wf b i j _
    | ⟨1, _⟩ => exact mat_lhs1 wf b i j _
    | ⟨2, _⟩ => exact (mat_lhs2 wf b i j _).trans hk)
  have er : (matDims wf).rhsIdx (ix3 b i j) ((contrEquiv1 (matDims wf) K rfl rfl).symm k) = ix3 b k j := funext fun a => Fin.ext (by
    match a with
    | ⟨0, _⟩ => exact mat_rhs0 wf b i j _
    | ⟨1, _⟩ => exact (mat_rhs1 wf b i j _).trans hk
    | ⟨2, _⟩ => exact mat_rhs2 wf b i j _)
  rw [el, er]

/-- The kernel's matrix unit into a zero accumulator, matrix against matrix, at entry (b, i, j). -/
theorem mat_matmul_zero_apply (prec : Option ContractPrecision)
    (A : FVec Ideal ⟨3, ![B, M, K]⟩ φ₁) (C : FVec Ideal ⟨3, ![B, K, N]⟩ φ₂) (b : Fin B) (i : Fin M) (j : Fin N) :
    FloatOps.matmul (matDims wf) prec A C (constant ⟨3, ![B, M, N]⟩ .f32 0x00000000#32) (ix3 b i j)
      = ∑ k : Fin K, A (ix3 b i k) * C (ix3 b k j) := by
  rw [Ideal.matmul_constant_zero_apply]
  exact mat_sum_contr wf A C b i j

end Mat

end Cert.LibBatchedDot

end
-- ==== Proof.LibRank3Layout.lean ====
/-
  Layout operations of rank-three arrays read at an index, general in the extents and the element type.

  * a vector or matrix given unit axes by a shape cast: [a,b] → [a,1,b], [a,b] → [a,b,1], [a] → [1,1,a], [a,1] → [a];
  * the four broadcasts that fill unit axes of a rank-three array: [a,1,c], [1,b,c], [a,b,1], [1,1,c] → [a,b,c];
  * a rank-three array against its row-flattening: [a,b,c] → [a·b,c] and back, row (i, j) of the first being row
    i·b + j of the second.

  Each lemma names both indices by coordinates; its proof is one row-major equation or one case per axis.
-/
import Idealize.ShloMosaic.Lib.ValueIdx
import Idealize.ShloMosaic.Lib.Pipeline.Value

namespace Cert.Rank3Layout

open Idealize.ShloMosaic Idealize.ShloMosaic.ValueIdx

variable {α : Type}

/-! ## Unit axes added or dropped by a shape cast -/

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, 1]` column cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A rank-three array against its row-flattening -/

/-- An `[a, b, c]` array cast to `[a·b, c]` reads, at row `i·b + j` and column `k`, the operand at `(i, j, k)`. -/
theorem shapeCast_abc_rows_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[a·b, c]` array cast to `[a, b, c]` reads, at `(i, j, k)`, the operand at row `i·b + j` and column `k`. -/
theorem shapeCast_rows_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-! ## Broadcasts that fill unit axes -/

/-- An `[a, 1, c]` array broadcast to `[a, b, c]` reads, at `(i, j, k)`, the operand at `(i, 0, k)`. -/
theorem broadcastTo_a1c_apply {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_apply {a b c : ℕ} (x : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, 1]` array broadcast to `[a, b, c]` reads, at `(i, j, k)`, the operand at `(i, j, 0)`. -/
theorem broadcastTo_ab1_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j (0 : Fin 1)) := by
  refine broadcastTo_apply x h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand at `(0, 0, k)`. -/
theorem broadcastTo_11c_apply {a b c : ℕ} (x : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.Rank3Layout
-- ==== Proof.AttnPayload.lean ====
/-
  The attention kernel's arithmetic read at an index, over the extended reals.

  One grid point of the kernel holds a query block q [8, 512, 128], a key block k and a value block v [8, 1024, 128],
  and the three running quantities of every query row: the maximum so far m [8, 512, 1], the sum of shifted
  exponentials l [8, 512, 1] and the weighted sum of value rows a [8, 512, 128]. Its body computes the scaled scores
  s(b, r, i) = (∑ₑ q(b, r, e) · k(b, i, e)) · c, the new maximum m' = max m (supᵢ s), the new sum
  exp (m − m') · l + ∑ᵢ exp (s − m') and the new weighted sum exp (m − m') · a + ∑ᵢ exp (s − m') · v(b, i, ·).
  Read at row (b, r) these are exactly one step of the row's running quantities on the tile's scores and value rows.
  The reset values are −∞, 0, 0 and the final store is the weighted sum over the sum, entry by entry.

  Nothing here reorders a sum or moves a factor, so no entry needs to be finite.
-/
import proofs.«165083_j41102837022983_2_alg».proof.Proof.Gen.KernelIdeal.Skeleton
import proofs.«165083_j41102837022983_2_alg».proof.Proof.AttnSpec
import proofs.«165083_j41102837022983_2_alg».proof.Proof.LibBatchedDot
import proofs.«165083_j41102837022983_2_alg».proof.Proof.LibRank3Layout
import Idealize.ShloMosaic.PureOps.Ideal.Laws
import Idealize.ShloMosaic.Lib.ValueIdx
import Idealize.ShloMosaic.Lib.Pipeline.Value

noncomputable section

namespace Cert.KernelIdeal.AttnPayload

open Idealize.ShloMosaic Idealize.ShloMosaic.ValueIdx Cert.KernelIdeal

/-! ## Names for the row's data -/

/-- The scale of the scores, kept as the word the program prints. -/
abbrev c : EReal := Ideal.ofBits .f32 0x3DB504F3#32

/-- The running quantities of query row (b, r), read out of the three carried blocks. -/
abbrev rowState (mOld lOld : Vec Ideal S8x512x1 .f32) (accOld : Vec Ideal S8x512x128 .f32) (b : Fin 8) (r : Fin 512) :
    AttnSpec.St :=
  ⟨mOld (ix3 b r (0 : Fin 1)), lOld (ix3 b r (0 : Fin 1)), fun e => accOld (ix3 b r e)⟩

/-- The scaled scores of query row (b, r) against the 1024 key rows of the block. -/
abbrev rowScores (q : Vec Ideal S8x512x128 .bf16) (k : Vec Ideal S8x1024x128 .bf16) (b : Fin 8) (r : Fin 512) :
    Fin 1024 → EReal :=
  fun i => AttnSpec.score c (fun e => q (ix3 b r e)) (fun e => k (ix3 b i e))

/-- The value rows of batch b of the block. -/
abbrev rowValues (vv : Vec Ideal S8x1024x128 .bf16) (b : Fin 8) : Fin 1024 → Fin 128 → EReal :=
  fun i e => vv (ix3 b i e)

/-- Every index of an [8, 512, 1] block is (b, r, 0). -/
theorem idx_col (j : S8x512x1.Idx) : ∃ (b : Fin 8) (r : Fin 512), j = ix3 b r (0 : Fin 1) :=
  ⟨j 0, j 1, (eq_ix3 j).trans (congrArg (ix3 (n0 := 8) (n1 := 512) (j 0) (j 1)) (Subsingleton.elim (α := Fin 1) (j 2) (0 : Fin 1)))⟩

/-- Every index of an [8, 512, 128] block is (b, r, e). -/
theorem idx_acc (j : S8x512x128.Idx) : ∃ (b : Fin 8) (r : Fin 512) (e : Fin 128), j = ix3 b r e :=
  ⟨j 0, j 1, j 2, eq_ix3 j⟩

/-! ## The reset values, the stored maximum, the final quotient -/

/-- The stored maximum is the new maximum: its cast changes nothing. -/
theorem storedMax_eq (x : FVec Ideal S8x512x1 .f32) : Gen.k3_pay2 x = x := by
  unfold Gen.k3_pay2
  exact shapeCast_self x _

/-- The word 0xFF800000 is -∞. -/
theorem negInf_f32 : FloatOps.ofBits (F := Ideal) .f32 0xFF800000#32 = (⊥ : EReal) := by
  show Ideal.ofBits .f32 0xFF800000#32 = ⊥
  simp [Ideal.ofBits, Ideal.ieee]

/-- The maximum is reset to -∞, -/
theorem resetMax_apply (b : Fin 8) (r : Fin 512) : Gen.k3_pay4 (F := Ideal) (ix3 b r (0 : Fin 1)) = ⊥ := by
  unfold Gen.k3_pay4
  rw [shapeCast_self]
  exact negInf_f32

/-- the sum of exponentials to 0, -/
theorem resetSum_apply (b : Fin 8) (r : Fin 512) : Gen.k3_pay5 (F := Ideal) (ix3 b r (0 : Fin 1)) = 0 := by
  unfold Gen.k3_pay5
  rw [shapeCast_self]
  exact Ideal.ofBits_zero_f32

/-- and the weighted sum to 0. -/
theorem resetAcc_apply (b : Fin 8) (r : Fin 512) (e : Fin 128) : Gen.k3_pay6 (F := Ideal) (ix3 b r e) = 0 := by
  unfold Gen.k3_pay6
  rw [shapeCast_self]
  exact Ideal.ofBits_zero_f32

/-- The final store: the weighted sum over the row's sum of exponentials. -/
theorem quotient_apply (acc : Vec Ideal S8x512x128 .f32) (l : Vec Ideal S8x512x1 .f32) (b : Fin 8) (r : Fin 512) (e : Fin 128) :
    Gen.k3_pay3 acc l (ix3 b r e) = Ideal.div (acc (ix3 b r e)) (l (ix3 b r (0 : Fin 1))) := by
  unfold Gen.k3_pay3
  exact congrArg (fun z : EReal => Ideal.div (acc (ix3 b r e)) z) (Cert.Rank3Layout.broadcastTo_ab1_apply l _ b r e)

/-! ## The scores -/

/-- The row-by-row product of the query and key blocks at (b, r, i). -/
theorem gram_apply (q : FVec Ideal S8x512x128 .bf16) (k : FVec Ideal S8x1024x128 .bf16) (b : Fin 8) (r : Fin 512)
    (i : Fin 1024) :
    FloatOps.matmul dot_S8x512x128_S8x1024x128_S8x512x1024_2_2_1_1_0_0 none q k
      (constant S8x512x1024 .f32 0x00000000#32) (ix3 b r i) = ∑ e : Fin 128, q (ix3 b r e) * k (ix3 b i e) :=
  Cert.LibBatchedDot.rows_matmul_zero_apply (B := 8) (M := 512) (N := 1024) (K := 128) (φ₁ := .bf16) (φ₂ := .bf16)
    Gen.dot_S8x512x128_S8x1024x128_S8x512x1024_2_2_1_1_0_0_wf none q k b r i

/-- The score block at (b, r, i): that product times the scale. -/
theorem scores_apply (q : Vec Ideal S8x512x128 .bf16) (k : Vec Ideal S8x1024x128 .bf16) (b : Fin 8) (r : Fin 512)
    (i : Fin 1024) : Gen.k3_pay8 q k (ix3 b r i) = rowScores q k b r i := by
  unfold Gen.k3_pay8
  rw [shapeCast_self, shapeCast_self]
  exact congrArg (· * c) (gram_apply q k b r i)

/-! ## The lane reductions -/

/-- The index over (b, r) with lane i is (b, r, i). -/
theorem lift_lane (b : Fin 8) (r : Fin 512) (i : Fin 1024) :
    Gen.reduces_S8x512x1024_S8x512.lift (ix2 b r) i = ix3 b r i :=
  funext fun a => Fin.ext (by
    match a with
    | ⟨0, _⟩ => rfl
    | ⟨1, _⟩ => rfl
    | ⟨2, _⟩ => rfl)

/-- A fold of max from -∞ over a finite index type is the supremum: the supremum is defined as that fold. -/
theorem fold_max_bot_eq_sup {ι : Type} [Fintype ι] (g : ι → EReal) :
    Finset.fold max ⊥ g Finset.univ = Finset.univ.sup g := rfl

/-- The lane maximum of an [8, 512, 1024] block from -∞, at (b, r): the supremum of the row. -/
theorem laneMax_apply (x : FVec Ideal S8x512x1024 .f32) (hacc : (0xFF800000#32 : BitVec 32) = 0xFF800000#32)
    (b : Fin 8) (r : Fin 512) :
    multiReduction .maximumf [2] S8x512 x 0xFF800000#32 Gen.reduces_S8x512x1024_S8x512 (.inl rfl) hacc (ix2 b r)
      = Finset.univ.sup fun i : Fin 1024 => x (ix3 b r i) := by
  refine (Ideal.multiReduction_maximumf_single x 0xFF800000#32 Gen.reduces_S8x512x1024_S8x512 (.inl rfl) hacc (ix2 b r)).trans ?_
  have e : (x ∘ Gen.reduces_S8x512x1024_S8x512.lift (ix2 b r)) = fun i : Fin 1024 => x (ix3 b r i) :=
    funext fun i => congrArg x (lift_lane b r i)
  rw [e, negInf_f32]
  exact fold_max_bot_eq_sup (ι := Fin 1024) fun i : Fin 1024 => x (ix3 b r i)

/-- The lane sum of an [8, 512, 1024] block from 0, at (b, r): the sum of the row. -/
theorem laneSum_apply (x : FVec Ideal S8x512x1024 .f32) (hacc : (0x00000000#32 : BitVec 32) = 0x00000000#32)
    (b : Fin 8) (r : Fin 512) :
    multiReduction .add [2] S8x512 x 0x00000000#32 Gen.reduces_S8x512x1024_S8x512 (.inl rfl) hacc (ix2 b r)
      = ∑ i : Fin 1024, x (ix3 b r i) := by
  refine (Ideal.multiReduction_add_single x 0x00000000#32 Gen.reduces_S8x512x1024_S8x512 (.inl rfl) hacc (ix2 b r)).trans ?_
  exact Finset.sum_congr rfl fun i _ => congrArg x (lift_lane b r i)

/-! ## The update, in closed form -/

/-- The new maximum at row (b, r): the larger of the old maximum and the supremum of the row's scores. -/
theorem newMax_raw (q : Vec Ideal S8x512x128 .bf16) (k : Vec Ideal S8x1024x128 .bf16) (mOld : Vec Ideal S8x512x1 .f32)
    (b : Fin 8) (r : Fin 512) :
    Gen.k3_pay9 q k mOld (ix3 b r (0 : Fin 1))
      = max (mOld (ix3 b r (0 : Fin 1)) : EReal) (Finset.univ.sup (rowScores q k b r)) := by
  unfold Gen.k3_pay9
  have h1 : ∀ v13 : FVec Ideal S8x512 .f32,
      maximumf mOld (shapeCast S8x512x1 v13 Gen.shapeCasts_S8x512_S8x512x1) (ix3 b r (0 : Fin 1))
        = max (mOld (ix3 b r (0 : Fin 1)) : EReal) (v13 (ix2 b r)) := fun v13 =>
    congrArg (max (mOld (ix3 b r (0 : Fin 1)) : EReal)) (Cert.Rank3Layout.shapeCast_ab_ab1_apply v13 _ b r (0 : Fin 1))
  refine (h1 _).trans ?_
  refine congrArg (max (mOld (ix3 b r (0 : Fin 1)) : EReal)) ?_
  refine (laneMax_apply (Gen.k3_pay8 q k) rfl b r).trans ?_
  have e : (fun i : Fin 1024 => Gen.k3_pay8 q k (ix3 b r i)) = rowScores q k b r :=
    funext fun i => scores_apply q k b r i
  rw [e]

/-- The rescaling factor at row (b, r): the exponential of the old maximum less the new one. -/
theorem rescale_apply (q : Vec Ideal S8x512x128 .bf16) (k : Vec Ideal S8x1024x128 .bf16) (m m' : Vec Ideal S8x512x1 .f32)
    (b : Fin 8) (r : Fin 512) :
    Gen.k3_pay10 q k m m' (ix3 b r (0 : Fin 1))
      = Ideal.exp ((m' (ix3 b r (0 : Fin 1)) : EReal)
          - max (m (ix3 b r (0 : Fin 1)) : EReal) (Finset.univ.sup (rowScores q k b r))) := by
  unfold Gen.k3_pay10
  exact congrArg (fun z : EReal => Ideal.exp ((m' (ix3 b r (0 : Fin 1)) : EReal) - z)) (newMax_raw q k m b r)

/-- The shifted exponentials at (b, r, i): the exponential of the score less the row's new maximum. -/
theorem weights_apply (q : Vec Ideal S8x512x128 .bf16) (k : Vec Ideal S8x1024x128 .bf16) (m : Vec Ideal S8x512x1 .f32)
    (b : Fin 8) (r : Fin 512) (i : Fin 1024) :
    Gen.k3_pay11 q k m (ix3 b r i)
      = Ideal.exp (rowScores q k b r i
          - max (m (ix3 b r (0 : Fin 1)) : EReal) (Finset.univ.sup (rowScores q k b r))) := by
  unfold Gen.k3_pay11
  have h1 : ∀ (mx : FVec Ideal S8x512x1 .f32) (s : FVec Ideal S8x512x1024 .f32),
      exp (subf s (broadcastTo S8x512x1024 mx Gen.broadcasts_S8x512x1_S8x512x1024)) (ix3 b r i)
        = Ideal.exp ((s (ix3 b r i) : EReal) - mx (ix3 b r (0 : Fin 1))) := fun mx s =>
    congrArg (fun z : EReal => Ideal.exp ((s (ix3 b r i) : EReal) - z))
      (Cert.Rank3Layout.broadcastTo_ab1_apply mx _ b r i)
  refine (h1 _ _).trans ?_
  exact congrArg₂ (fun x z : EReal => Ideal.exp (x - z)) (scores_apply q k b r i) (newMax_raw q k m b r)

/-- The new sum of exponentials at row (b, r). -/
theorem newSum_raw (q : Vec Ideal S8x512x128 .bf16) (k : Vec Ideal S8x1024x128 .bf16) (mOld lOld : Vec Ideal S8x512x1 .f32)
    (b : Fin 8) (r : Fin 512) :
    Gen.k3_pay12 q k mOld mOld lOld (ix3 b r (0 : Fin 1))
      = Ideal.exp ((mOld (ix3 b r (0 : Fin 1)) : EReal)
            - max (mOld (ix3 b r (0 : Fin 1)) : EReal) (Finset.univ.sup (rowScores q k b r)))
          * lOld (ix3 b r (0 : Fin 1))
        + ∑ i : Fin 1024, Ideal.exp (rowScores q k b r i
            - max (mOld (ix3 b r (0 : Fin 1)) : EReal) (Finset.univ.sup (rowScores q k b r))) := by
  unfold Gen.k3_pay12
  have h1 : ∀ (x : FVec Ideal S8x512x1 .f32) (v24 : FVec Ideal S8x512 .f32),
      shapeCast S8x512x1 (addf (mulf x lOld) (shapeCast S8x512x1 v24 Gen.shapeCasts_S8x512_S8x512x1))
          Gen.shapeCasts_S8x512x1_S8x512x1 (ix3 b r (0 : Fin 1))
        = (x (ix3 b r (0 : Fin 1)) : EReal) * lOld (ix3 b r (0 : Fin 1)) + v24 (ix2 b r) := fun x v24 => by
    rw [shapeCast_self]
    exact congrArg (fun z : EReal => (x (ix3 b r (0 : Fin 1)) : EReal) * lOld (ix3 b r (0 : Fin 1)) + z)
      (Cert.Rank3Layout.shapeCast_ab_ab1_apply v24 _ b r (0 : Fin 1))
  refine (h1 _ _).trans ?_
  refine congrArg₂ (fun x z : EReal => x * (lOld (ix3 b r (0 : Fin 1)) : EReal) + z) (rescale_apply q k mOld mOld b r) ?_
  refine (laneSum_apply (Gen.k3_pay11 q k mOld) rfl b r).trans ?_
  exact Finset.sum_congr rfl fun i _ => weights_apply q k mOld b r i

/-- The weighted-sum update over variables: the rescaled old entry plus the product of the weights with the value block. -/
theorem acc_apply (v8 : FVec Ideal S8x1024x128 .bf16) (v18 : FVec Ideal S8x512x1 .f32) (v21 : FVec Ideal S8x512x1024 .f32)
    (v30 : Vec Ideal S8x512x128 .f32) (b : Fin 8) (r : Fin 512) (e : Fin 128) :
    Gen.k3_pay1 v8 v18 v21 v30 (ix3 b r e)
      = (v18 (ix3 b r (0 : Fin 1)) : EReal) * v30 (ix3 b r e) + ∑ i : Fin 1024, (v21 (ix3 b r i) : EReal) * v8 (ix3 b i e) := by
  unfold Gen.k3_pay1
  rw [shapeCast_self]
  have h1 : ∀ mm : FVec Ideal S8x512x128 .f32,
      addf (mulf (broadcastTo S8x512x128 v18 Gen.broadcasts_S8x512x1_S8x512x128) v30) mm (ix3 b r e)
        = (v18 (ix3 b r (0 : Fin 1)) : EReal) * v30 (ix3 b r e) + mm (ix3 b r e) := fun mm =>
    congrArg (fun z : EReal => z * (v30 (ix3 b r e) : EReal) + mm (ix3 b r e))
      (Cert.Rank3Layout.broadcastTo_ab1_apply v18 _ b r e)
  refine (h1 _).trans ?_
  refine congrArg (fun z : EReal => (v18 (ix3 b r (0 : Fin 1)) : EReal) * v30 (ix3 b r e) + z) ?_
  exact Cert.LibBatchedDot.mat_matmul_zero_apply (B := 8) (M := 512) (N := 128) (K := 1024) (φ₁ := .bf16) (φ₂ := .bf16)
    Gen.dot_S8x512x1024_S8x1024x128_S8x512x128_2_1_1_2_0_0_wf none
    (truncf .bf16 v21 Gen.bitsLt_bf16_f32) v8 b r e

/-- The value block passes through its cast unchanged. -/
theorem values_eq (vv : Vec Ideal S8x1024x128 .bf16) : Gen.k3_pay7 vv = vv := by
  unfold Gen.k3_pay7
  exact shapeCast_self vv _

/-- The new weighted sum at (b, r, e). -/
theorem newAcc_raw (q : Vec Ideal S8x512x128 .bf16) (k vv : Vec Ideal S8x1024x128 .bf16) (mOld : Vec Ideal S8x512x1 .f32)
    (accOld : Vec Ideal S8x512x128 .f32) (b : Fin 8) (r : Fin 512) (e : Fin 128) :
    Gen.k3_pay1 (Gen.k3_pay7 vv) (Gen.k3_pay10 q k mOld mOld) (Gen.k3_pay11 q k mOld) accOld (ix3 b r e)
      = Ideal.exp ((mOld (ix3 b r (0 : Fin 1)) : EReal)
            - max (mOld (ix3 b r (0 : Fin 1)) : EReal) (Finset.univ.sup (rowScores q k b r)))
          * accOld (ix3 b r e)
        + ∑ i : Fin 1024, Ideal.exp (rowScores q k b r i
            - max (mOld (ix3 b r (0 : Fin 1)) : EReal) (Finset.univ.sup (rowScores q k b r))) * rowValues vv b i e := by
  refine (acc_apply (Gen.k3_pay7 vv) (Gen.k3_pay10 q k mOld mOld) (Gen.k3_pay11 q k mOld) accOld b r e).trans ?_
  refine congrArg₂ (fun x z : EReal => x * (accOld (ix3 b r e) : EReal) + z) (rescale_apply q k mOld mOld b r) ?_
  refine Finset.sum_congr rfl fun i _ => ?_
  exact congrArg₂ (fun x z : EReal => x * z) (weights_apply q k mOld b r i) (congrFun (values_eq vv) (ix3 b i e))

/-! ## The update as one step of the row's running quantities -/

theorem step_M (σ : AttnSpec.St) (s : Fin 1024 → EReal) (v : Fin 1024 → Fin 128 → EReal) :
    (σ.step s v).M = max σ.M (Finset.univ.sup s) := rfl

theorem step_L (σ : AttnSpec.St) (s : Fin 1024 → EReal) (v : Fin 1024 → Fin 128 → EReal) :
    (σ.step s v).L = Ideal.exp (σ.M - max σ.M (Finset.univ.sup s)) * σ.L
      + ∑ i, Ideal.exp (s i - max σ.M (Finset.univ.sup s)) := rfl

theorem step_A (σ : AttnSpec.St) (s : Fin 1024 → EReal) (v : Fin 1024 → Fin 128 → EReal) (e : Fin 128) :
    (σ.step s v).A e = Ideal.exp (σ.M - max σ.M (Finset.univ.sup s)) * σ.A e
      + ∑ i, Ideal.exp (s i - max σ.M (Finset.univ.sup s)) * v i e := rfl

/-- The new maximum of row (b, r) is the step's. -/
theorem newMax_apply (q : Vec Ideal S8x512x128 .bf16) (k vv : Vec Ideal S8x1024x128 .bf16)
    (mOld lOld : Vec Ideal S8x512x1 .f32) (accOld : Vec Ideal S8x512x128 .f32) (b : Fin 8) (r : Fin 512) :
    Gen.k3_pay9 q k mOld (ix3 b r (0 : Fin 1))
      = ((⟨mOld (ix3 b r (0 : Fin 1)), lOld (ix3 b r (0 : Fin 1)), fun e => accOld (ix3 b r e)⟩ : AttnSpec.St).step
          (fun i : Fin 1024 => AttnSpec.score (Ideal.ofBits .f32 0x3DB504F3#32) (fun e => q (ix3 b r e)) (fun e => k (ix3 b i e)))
          (fun (i : Fin 1024) (e : Fin 128) => vv (ix3 b i e))).M :=
  (newMax_raw q k mOld b r).trans (step_M (rowState mOld lOld accOld b r) (rowScores q k b r) (rowValues vv b)).symm

/-- The new sum of exponentials of row (b, r) is the step's. -/
theorem newSum_apply (q : Vec Ideal S8x512x128 .bf16) (k vv : Vec Ideal S8x1024x128 .bf16)
    (mOld lOld : Vec Ideal S8x512x1 .f32) (accOld : Vec Ideal S8x512x128 .f32) (b : Fin 8) (r : Fin 512) :
    Gen.k3_pay12 q k mOld mOld lOld (ix3 b r (0 : Fin 1))
      = ((⟨mOld (ix3 b r (0 : Fin 1)), lOld (ix3 b r (0 : Fin 1)), fun e => accOld (ix3 b r e)⟩ : AttnSpec.St).step
          (fun i : Fin 1024 => AttnSpec.score (Ideal.ofBits .f32 0x3DB504F3#32) (fun e => q (ix3 b r e)) (fun e => k (ix3 b i e)))
          (fun (i : Fin 1024) (e : Fin 128) => vv (ix3 b i e))).L :=
  (newSum_raw q k mOld lOld b r).trans (step_L (rowState mOld lOld accOld b r) (rowScores q k b r) (rowValues vv b)).symm

/-- The new weighted sum of row (b, r), entry e, is the step's. -/
theorem newAcc_apply (q : Vec Ideal S8x512x128 .bf16) (k vv : Vec Ideal S8x1024x128 .bf16)
    (mOld lOld : Vec Ideal S8x512x1 .f32) (accOld : Vec Ideal S8x512x128 .f32) (b : Fin 8) (r : Fin 512) (e : Fin 128) :
    Gen.k3_pay1 (Gen.k3_pay7 vv) (Gen.k3_pay10 q k mOld mOld) (Gen.k3_pay11 q k mOld) accOld (ix3 b r e)
      = ((⟨mOld (ix3 b r (0 : Fin 1)), lOld (ix3 b r (0 : Fin 1)), fun e => accOld (ix3 b r e)⟩ : AttnSpec.St).step
          (fun i : Fin 1024 => AttnSpec.score (Ideal.ofBits .f32 0x3DB504F3#32) (fun e => q (ix3 b r e)) (fun e => k (ix3 b i e)))
          (fun (i : Fin 1024) (e : Fin 128) => vv (ix3 b i e))).A e :=
  (newAcc_raw q k vv mOld accOld b r e).trans
    (step_A (rowState mOld lOld accOld b r) (rowScores q k b r) (rowValues vv b) e).symm

end Cert.KernelIdeal.AttnPayload

end
-- ==== Proof.AttnSteps.lean ====
/-
  The scratch after a point is the specification's running quantities of every row.

  The three scratch arrays after the body at a grid point are given by a recurrence over the points: the update of the
  reset values at a query tile's first key tile, of what the point before left otherwise. Read at one row (b, r) of the
  query tile, one update is one step of the specification's walk: it reads the old arrays only at that row, and takes in
  the scores of the row against the point's key block and the point's value block. So after the k-th key tile of a
  query tile the row's entries are the walk's state after k+1 tiles, and at the fourth the stored quotient is the
  walk's result.
-/
import proofs.«165083_j41102837022983_2_alg».proof.Proof.AttnRegion
import proofs.«165083_j41102837022983_2_alg».proof.Proof.AttnSpec
import proofs.«165083_j41102837022983_2_alg».proof.Proof.AttnPayload
import Idealize.ShloMosaic.Lib.ValueIdx

set_option maxRecDepth 16384

noncomputable section

namespace Cert.KernelIdeal.AttnSteps

open Cert.KernelIdeal Cert.KernelIdeal.Gen Cert.KernelIdeal.AttnBody Cert.KernelIdeal.AttnRegion
open Idealize.ShloMosaic Idealize.ShloMosaic.TcCoe Idealize.ShloMosaic.ValueIdx Idealize.SL.Sem
open Cert.AttnSpec

/-- The scale of the scores. -/
abbrev cS : EReal := Ideal.ofBits .f32 0x3DB504F3#32

/-- The three running arrays of a query tile. -/
abbrev Tri : Type := Vec Ideal S8x512x1 .f32 × Vec Ideal S8x512x1 .f32 × Vec Ideal S8x512x128 .f32

/-- Row (b, r) of the three running arrays. -/
def rowSt (s : Tri) (b : Fin 8) (r : Fin 512) : St :=
  ⟨s.1 (ix3 b r 0), s.2.1 (ix3 b r 0), fun e => s.2.2 (ix3 b r e)⟩

/-- Two states with the same three fields are equal. -/
theorem st_ext {a b : St} (hM : a.M = b.M) (hL : a.L = b.L) (hA : ∀ e, a.A e = b.A e) : a = b := by
  cases a; cases b
  simp only [St.mk.injEq]
  exact ⟨hM, hL, funext hA⟩

/-- The key tile of a point depends on its position only through the remainder by four. -/
theorem tileOf_eq {n k : ℕ} (h : n % 4 = k) : tileOf n = tileOf k := by
  apply Fin.ext
  show n % 4 = k % 4
  omega

section

/-! ## One update, read at a row -/

/-- The reset values at a row are the walk's initial state. -/
theorem rowSt_reset (b : Fin 8) (r : Fin 512) : rowSt (resetSt (F := Ideal)) b r = St.init :=
  st_ext (AttnPayload.resetMax_apply b r) (AttnPayload.resetSum_apply b r) (fun e => AttnPayload.resetAcc_apply b r e)

/-- One update of the three running arrays, read at row (b, r), is one step of the walk from the old arrays' row,
    over the scores of the row against the key block and over the value block. -/
theorem rowSt_update (q : Vec Ideal S8x512x128 .bf16) (k vv : Vec Ideal S8x1024x128 .bf16) (s : Tri) (b : Fin 8) (r : Fin 512) :
    rowSt (newMax q k s.1, newSum q k s.1 s.2.1, newAcc q k vv s.1 s.2.2) b r
      = (rowSt s b r).step (fun i : Fin 1024 => score cS (fun e => q (ix3 b r e)) (fun e => k (ix3 b i e)))
          (fun (i : Fin 1024) (e : Fin 128) => vv (ix3 b i e)) := by
  refine st_ext ?_ ?_ fun e => ?_
  · show Gen.k3_pay2 (Gen.k3_pay9 q k s.1) (ix3 b r 0) = _
    rw [AttnPayload.storedMax_eq]
    exact AttnPayload.newMax_apply q k vv s.1 s.2.1 s.2.2 b r
  · exact AttnPayload.newSum_apply q k vv s.1 s.2.1 s.2.2 b r
  · exact AttnPayload.newAcc_apply q k vv s.1 s.2.1 s.2.2 b r e

/-! ## The recurrence over the points of one query tile -/

variable (V : (c : Dev nD) → (b : Ref sig .tc) → Buf (Elt Ideal) ((c : Thread nD τ).loc b))

/-- After the k-th key tile (k = 0, 1, 2, 3) of the query tile of `t`, row (b, r) of the running arrays is the walk's
    state after k + 1 tiles. -/
theorem rowSt_stAt (c : Dev nD) (t : Fin cfg3.N) (b : Fin 8) (r : Fin 512) (sRow : Fin 4096 → EReal) (vRow : Fin 4096 → Fin 128 → EReal)
    (hs : ∀ t' : Fin cfg3.N, t'.val / 4 = t.val / 4 → ∀ i : Fin 1024,
      AttnSpec.score cS (fun e => iblk3 V c 0 t' (ix3 b r e)) (fun e => iblk3 V c 1 t' (ix3 b i e)) = sRow (AttnSpec.key (AttnSpec.tileOf t'.val) i))
    (hv : ∀ t' : Fin cfg3.N, t'.val / 4 = t.val / 4 → ∀ (i : Fin 1024) (e : Fin 128), iblk3 V c 2 t' (ix3 b i e) = vRow (AttnSpec.key (AttnSpec.tileOf t'.val) i) e)
    (k : ℕ) : ∀ t' : Fin cfg3.N, t'.val / 4 = t.val / 4 → t'.val % 4 = k →
      rowSt (stAt V c t'.val t'.isLt) b r = St.run sRow vRow (k + 1) := by
  induction k with
  | zero =>
    intro t' hq hk
    have e1 : (fun i : Fin 1024 => score cS (fun e => iblk3 V c 0 t' (ix3 b r e)) (fun e => iblk3 V c 1 t' (ix3 b i e)))
        = fun i => sRow (key (tileOf 0) i) := funext fun i => (hs t' hq i).trans (by rw [tileOf_eq hk])
    have e2 : (fun (i : Fin 1024) (e : Fin 128) => iblk3 V c 2 t' (ix3 b i e))
        = fun i => vRow (key (tileOf 0) i) := funext fun i => funext fun e => (hv t' hq i e).trans (by rw [tileOf_eq hk])
    refine (congrArg (fun s => rowSt s b r) (stAt_reset V c t' hk)).trans ?_
    refine (rowSt_update (iblk3 V c 0 t') (iblk3 V c 1 t') (iblk3 V c 2 t') resetSt b r).trans ?_
    rw [rowSt_reset b r]
    exact congrArg₂ (St.step St.init) e1 e2
  | succ k ih =>
    intro t' hq hk
    have h0 : ¬ t'.val % 4 = 0 := by omega
    have hlt : t'.val - 1 < cfg3.N := Nat.lt_of_le_of_lt (Nat.sub_le _ _) t'.isLt
    have hqp : (⟨t'.val - 1, hlt⟩ : Fin cfg3.N).val / 4 = t.val / 4 := by
      show (t'.val - 1) / 4 = t.val / 4
      omega
    have hkp : (⟨t'.val - 1, hlt⟩ : Fin cfg3.N).val % 4 = k := by
      show (t'.val - 1) % 4 = k
      omega
    have ih' : rowSt (stAt V c (t'.val - 1) hlt) b r = St.run sRow vRow (k + 1) := ih ⟨t'.val - 1, hlt⟩ hqp hkp
    have e1 : (fun i : Fin 1024 => score cS (fun e => iblk3 V c 0 t' (ix3 b r e)) (fun e => iblk3 V c 1 t' (ix3 b i e)))
        = fun i => sRow (key (tileOf (k + 1)) i) := funext fun i => (hs t' hq i).trans (by rw [tileOf_eq hk])
    have e2 : (fun (i : Fin 1024) (e : Fin 128) => iblk3 V c 2 t' (ix3 b i e))
        = fun i => vRow (key (tileOf (k + 1)) i) := funext fun i => funext fun e => (hv t' hq i e).trans (by rw [tileOf_eq hk])
    refine (congrArg (fun s => rowSt s b r) (stAt_carry V c t' h0)).trans ?_
    refine (rowSt_update (iblk3 V c 0 t') (iblk3 V c 1 t') (iblk3 V c 2 t') (stAt V c (t'.val - 1) hlt) b r).trans ?_
    rw [ih']
    exact congrArg₂ (St.step (St.run sRow vRow (k + 1))) e1 e2

/-- THE SCRATCH AFTER A POINT, read at a row, is the walk's state after the point's key tile. -/
theorem stAt_row (c : Dev nD) (t : Fin cfg3.N) (b : Fin 8) (r : Fin 512) (sRow : Fin 4096 → EReal) (vRow : Fin 4096 → Fin 128 → EReal)
    (hs : ∀ t' : Fin cfg3.N, t'.val / 4 = t.val / 4 → ∀ i : Fin 1024,
      AttnSpec.score cS (fun e => iblk3 V c 0 t' (ix3 b r e)) (fun e => iblk3 V c 1 t' (ix3 b i e)) = sRow (AttnSpec.key (AttnSpec.tileOf t'.val) i))
    (hv : ∀ t' : Fin cfg3.N, t'.val / 4 = t.val / 4 → ∀ (i : Fin 1024) (e : Fin 128), iblk3 V c 2 t' (ix3 b i e) = vRow (AttnSpec.key (AttnSpec.tileOf t'.val) i) e) :
    (stAt V c t.val t.isLt).1 (ix3 b r 0) = (AttnSpec.St.run sRow vRow (t.val % 4 + 1)).M
      ∧ (stAt V c t.val t.isLt).2.1 (ix3 b r 0) = (AttnSpec.St.run sRow vRow (t.val % 4 + 1)).L
      ∧ ∀ e : Fin 128, (stAt V c t.val t.isLt).2.2 (ix3 b r e) = (AttnSpec.St.run sRow vRow (t.val % 4 + 1)).A e := by
  have h := rowSt_stAt V c t b r sRow vRow hs hv (t.val % 4) t rfl rfl
  exact ⟨congrArg St.M h, congrArg St.L h, fun e => congrFun (congrArg St.A h) e⟩

/-- At a query tile's fourth key tile the stored quotient, read at a row, is the walk's result. -/
theorem quotient_row (c : Dev nD) (t : Fin cfg3.N) (b : Fin 8) (r : Fin 512) (sRow : Fin 4096 → EReal) (vRow : Fin 4096 → Fin 128 → EReal)
    (hs : ∀ t' : Fin cfg3.N, t'.val / 4 = t.val / 4 → ∀ i : Fin 1024,
      AttnSpec.score cS (fun e => iblk3 V c 0 t' (ix3 b r e)) (fun e => iblk3 V c 1 t' (ix3 b i e)) = sRow (AttnSpec.key (AttnSpec.tileOf t'.val) i))
    (hv : ∀ t' : Fin cfg3.N, t'.val / 4 = t.val / 4 → ∀ (i : Fin 1024) (e : Fin 128), iblk3 V c 2 t' (ix3 b i e) = vRow (AttnSpec.key (AttnSpec.tileOf t'.val) i) e)
    (h3 : t.val % 4 = 3) (e : Fin 128) :
    AttnBody.quotient (stAt V c t.val t.isLt).2.2 (stAt V c t.val t.isLt).2.1 (ix3 b r e) = AttnSpec.tiledOut sRow vRow e := by
  obtain ⟨-, hL, hA⟩ := stAt_row V c t b r sRow vRow hs hv
  rw [h3] at hL hA
  show Gen.k3_pay3 (stAt V c t.val t.isLt).2.2 (stAt V c t.val t.isLt).2.1 (ix3 b r e) = _
  rw [AttnPayload.quotient_apply, hL, hA e]
  rfl

end

end Cert.KernelIdeal.AttnSteps

end
-- ==== Proof.AttnArray.lean ====
/- From blocks to the array, for the attention region at the ideal values. The region walks 8 query tiles of 512 rows,
   each against 4 key tiles of 1024 keys; a point's query block is rows `512 (t / 4) …` of the projected queries, its
   key and value blocks are keys `1024 (t % 4) …` of the projected keys and values; the output block of a query tile
   is written back once, after its fourth key tile, and the 8 output blocks tile the output array. So the output array
   ends holding, row by row, the quotient the tiled walk computes from that row's 4096 scores and value rows. -/
import proofs.«165083_j41102837022983_2_alg».proof.Proof.AttnRegion
import proofs.«165083_j41102837022983_2_alg».proof.Proof.AttnSpec
import proofs.«165083_j41102837022983_2_alg».proof.Proof.AttnSteps
import Idealize.ShloMosaic.Lib.Pipeline.Value
import Idealize.ShloMosaic.Lib.ValueIdx
import Idealize.ShloMosaic.Lib.Tactic

set_option maxRecDepth 16384

noncomputable section

open scoped BigOperators

namespace Cert.KernelIdeal.AttnArray

open Cert.KernelIdeal Cert.KernelIdeal.Gen Cert.KernelIdeal.AttnRegion
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

/-- The scale the scores are multiplied by. -/
abbrev scale : EReal := Ideal.ofBits .f32 0x3DB504F3#32

/-- Row `r` of the query tile of point `t` among the 4096 query rows. -/
abbrev qRow (t : Fin cfg3.N) (r : Fin 512) : Fin 4096 :=
  ⟨512 * (t.val / 4) + r.val, by have := t.isLt; have h : cfg3.N = 32 := N_3; have := r.isLt; omega⟩

/-- The whole result from the three projected arrays: at batch `j 0`, query row `j 1`, column `j 2`, what the tiled
    walk computes from the row's scores against all 4096 keys and the 4096 value rows. -/
abbrev attnOf (Q K W : Vec Ideal S8x4096x128 .bf16) : Vec Ideal S8x4096x128 .f32 := fun j =>
  AttnSpec.tiledOut (fun kk => AttnSpec.score scale (fun e => Q (ix3 (j 0) (j 1) e)) (fun e => K (ix3 (j 0) kk e)))
    (fun kk e => W (ix3 (j 0) kk e)) (j 2)

/-- The whole result at the arrays as the region finds them. -/
abbrev attnG (c : Dev nD) : Vec Ideal S8x4096x128 .f32 :=
  attnOf (V c (Pipeline.arrRef spec3 0)) (V c (Pipeline.arrRef spec3 1)) (V c (Pipeline.arrRef spec3 2))

/-- The scores of query row `(b, n)` against the 4096 keys, and the 4096 value rows of batch `b`, off the arrays as the
    region finds them. -/
abbrev rowScores (c : Dev nD) (b : Fin 8) (n : Fin 4096) : Fin 4096 → EReal := fun j =>
  AttnSpec.score scale (fun e => (V c (Pipeline.arrRef spec3 0) : Vec Ideal S8x4096x128 .bf16) (ix3 b n e))
    (fun e => (V c (Pipeline.arrRef spec3 1) : Vec Ideal S8x4096x128 .bf16) (ix3 b j e))
abbrev rowValues (c : Dev nD) (b : Fin 8) : Fin 4096 → Fin 128 → EReal := fun j e =>
  (V c (Pipeline.arrRef spec3 2) : Vec Ideal S8x4096x128 .bf16) (ix3 b j e)

/-! ## The printed index maps, over the grid -/

theorem idx_facts3 : ∀ t : Fin cfg3.N,
    win3_0.index t (0 : Fin 3) = 0 ∧ win3_0.index t (1 : Fin 3) = t.val / 4 ∧ win3_0.index t (2 : Fin 3) = 0
    ∧ win3_1.index t (0 : Fin 3) = 0 ∧ win3_1.index t (1 : Fin 3) = t.val % 4 ∧ win3_1.index t (2 : Fin 3) = 0
    ∧ win3_2.index t (0 : Fin 3) = 0 ∧ win3_2.index t (1 : Fin 3) = t.val % 4 ∧ win3_2.index t (2 : Fin 3) = 0
    ∧ win3_3.index t (0 : Fin 3) = 0 ∧ win3_3.index t (1 : Fin 3) = t.val / 4 ∧ win3_3.index t (2 : Fin 3) = 0 :=
  (by decide +kernel : ∀ t : Fin grid3.N, _)

/-! ## The blocks, read off the arrays: a block's coordinate is index × size + the coordinate inside the block -/

/-- The query block at point `t` is rows `512 (t / 4) …` of the projected queries. -/
theorem iblk3_q_apply (c : Dev nD) (t : Fin cfg3.N) (b : Fin 8) (r : Fin 512) (e : Fin 128) :
    (iblk3 V c 0 t : Vec Ideal S8x512x128 .bf16) (ix3 b r e)
      = (V c (Pipeline.arrRef spec3 0) : Vec Ideal S8x4096x128 .bf16) (ix3 b (qRow t r) e) := by
  obtain ⟨e0, e1, e2, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 3) * 8 + 1 * b.val = b.val; rw [e0]; omega
  | ⟨1, _⟩ => show win3_0.index t (1 : Fin 3) * 512 + 1 * r.val = 512 * (t.val / 4) + r.val; rw [e1]; omega
  | ⟨2, _⟩ => show win3_0.index t (2 : Fin 3) * 128 + 1 * e.val = e.val; rw [e2]; omega

/-- The key block at point `t` is keys `1024 (t % 4) …` of the projected keys. -/
theorem iblk3_k_apply (c : Dev nD) (t : Fin cfg3.N) (b : Fin 8) (i : Fin 1024) (e : Fin 128) :
    (iblk3 V c 1 t : Vec Ideal S8x1024x128 .bf16) (ix3 b i e)
      = (V c (Pipeline.arrRef spec3 1) : Vec Ideal S8x4096x128 .bf16) (ix3 b (AttnSpec.key (AttnSpec.tileOf t.val) i) e) := by
  obtain ⟨-, -, -, e0, e1, e2, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 3) * 8 + 1 * b.val = b.val; rw [e0]; omega
  | ⟨1, _⟩ => show win3_1.index t (1 : Fin 3) * 1024 + 1 * i.val = 1024 * (t.val % 4) + i.val; rw [e1]; omega
  | ⟨2, _⟩ => show win3_1.index t (2 : Fin 3) * 128 + 1 * e.val = e.val; rw [e2]; omega

/-- The value block at point `t` is keys `1024 (t % 4) …` of the projected values. -/
theorem iblk3_v_apply (c : Dev nD) (t : Fin cfg3.N) (b : Fin 8) (i : Fin 1024) (e : Fin 128) :
    (iblk3 V c 2 t : Vec Ideal S8x1024x128 .bf16) (ix3 b i e)
      = (V c (Pipeline.arrRef spec3 2) : Vec Ideal S8x4096x128 .bf16) (ix3 b (AttnSpec.key (AttnSpec.tileOf t.val) i) e) := by
  obtain ⟨-, -, -, -, -, -, e0, e1, e2, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 3) * 8 + 1 * b.val = b.val; rw [e0]; omega
  | ⟨1, _⟩ => show win3_2.index t (1 : Fin 3) * 1024 + 1 * i.val = 1024 * (t.val % 4) + i.val; rw [e1]; omega
  | ⟨2, _⟩ => show win3_2.index t (2 : Fin 3) * 128 + 1 * e.val = e.val; rw [e2]; omega

/-- Entry (b, r, e) of the output block at point `t` sits at batch `b`, row `512 (t / 4) + r`, column `e` of the
    output array. -/
theorem emb_out3 (t : Fin cfg3.N) (b : Fin 8) (r : Fin 512) (e : Fin 128) :
    ((cfg3.win 3).blk t).view.emb (ix3 b r e) = (ix3 b (qRow t r) e : S8x4096x128.Idx) := by
  obtain ⟨-, -, -, -, -, -, -, -, -, e0, e1, e2⟩ := idx_facts3 t
  funext a
  apply Fin.ext
  match a with
  | ⟨0, _⟩ => show win3_3.index t (0 : Fin 3) * 8 + 1 * b.val = b.val; rw [e0]; omega
  | ⟨1, _⟩ => show win3_3.index t (1 : Fin 3) * 512 + 1 * r.val = 512 * (t.val / 4) + r.val; rw [e1]; omega
  | ⟨2, _⟩ => show win3_3.index t (2 : Fin 3) * 128 + 1 * e.val = e.val; rw [e2]; omega

/-! ## A query row's scores and value rows along its walk -/

/-- Along the four points of a query tile, the scores of row `r` against the point's key block are the row's scores
    against the keys of the point's key tile. -/
theorem scores_along (c : Dev nD) (t : Fin cfg3.N) (b : Fin 8) (r : Fin 512) :
    ∀ t' : Fin cfg3.N, t'.val / 4 = t.val / 4 → ∀ i : Fin 1024,
      AttnSpec.score scale (fun e => iblk3 V c 0 t' (ix3 b r e)) (fun e => iblk3 V c 1 t' (ix3 b i e))
        = rowScores V c b (qRow t r) (AttnSpec.key (AttnSpec.tileOf t'.val) i) := by
  intro t' ht' i
  have hq : qRow t' r = qRow t r := Fin.ext (by show 512 * (t'.val / 4) + r.val = 512 * (t.val / 4) + r.val; rw [ht'])
  show AttnSpec.score scale _ _ = AttnSpec.score scale _ _
  congr 1
  · funext e; rw [← hq]; exact iblk3_q_apply V c t' b r e
  · funext e; exact iblk3_k_apply V c t' b i e

/-- and the value rows of the point's value block are the value rows of the point's key tile. -/
theorem values_along (c : Dev nD) (t : Fin cfg3.N) (b : Fin 8) :
    ∀ t' : Fin cfg3.N, t'.val / 4 = t.val / 4 → ∀ (i : Fin 1024) (e : Fin 128),
      iblk3 V c 2 t' (ix3 b i e)
        = rowValues V c b (AttnSpec.key (AttnSpec.tileOf t'.val) i) e :=
  fun t' _ i e => iblk3_v_apply V c t' b i e

/-! ## The cover -/

/-- An index of the output array is in point `t`'s block iff each coordinate is in the block's range on its axis. -/
theorem mem_blk3 (t : Fin cfg3.N) (i : S8x4096x128.Idx) :
    i ∈ ((cfg3.win 3).blk t).view.set ↔ ∀ a : Fin 3, win3_3.index t a * S8x512x128.size a ≤ (i a).val ∧ (i a).val < win3_3.index t a * S8x512x128.size a + S8x512x128.size a := by
  show i ∈ ((View.whole main_v9).slice (win3_3.rect t)).set ↔ _
  rw [View.set_slice_whole, Rect.mem_set_unit]
  exact Iff.rfl

/-- The 8 output blocks tile the output array: query row `i 1` is in the block of the last point of its tile,
    point `4 (i 1 / 512) + 3`, which is written back. -/
theorem cover3 (i : S8x4096x128.Idx) : ∃ t : Fin cfg3.N, (cfg3.win 3).flush t = true ∧ i ∈ ((cfg3.win 3).blk t).view.set := by
  have hi0 : (i 0).val < 8 := (i 0).isLt
  have hi1 : (i 1).val < 4096 := (i 1).isLt
  have hi2 : (i 2).val < 128 := (i 2).isLt
  have hN : cfg3.N = 32 := N_3
  have ht : 4 * ((i 1).val / 512) + 3 < cfg3.N := by rw [hN]; omega
  obtain ⟨-, -, -, -, -, -, -, -, -, e0, e1, e2⟩ := idx_facts3 ⟨4 * ((i 1).val / 512) + 3, ht⟩
  have e1' : win3_3.index ⟨4 * ((i 1).val / 512) + 3, ht⟩ (1 : Fin 3) = (i 1).val / 512 := by
    rw [e1]; show (4 * ((i 1).val / 512) + 3) / 4 = (i 1).val / 512; omega
  refine ⟨⟨4 * ((i 1).val / 512) + 3, ht⟩, (flush3_3 _).mpr (by show (4 * ((i 1).val / 512) + 3) % 4 = 3; omega), ?_⟩
  rw [mem_blk3]
  intro a
  match a with
  | ⟨0, _⟩ =>
    show win3_3.index ⟨4 * ((i 1).val / 512) + 3, ht⟩ (0 : Fin 3) * 8 ≤ (i 0).val ∧ (i 0).val < win3_3.index ⟨4 * ((i 1).val / 512) + 3, ht⟩ (0 : Fin 3) * 8 + 8
    rw [e0]; omega
  | ⟨1, _⟩ =>
    show win3_3.index ⟨4 * ((i 1).val / 512) + 3, ht⟩ (1 : Fin 3) * 512 ≤ (i 1).val ∧ (i 1).val < win3_3.index ⟨4 * ((i 1).val / 512) + 3, ht⟩ (1 : Fin 3) * 512 + 512
    rw [e1']; omega
  | ⟨2, _⟩ =>
    show win3_3.index ⟨4 * ((i 1).val / 512) + 3, ht⟩ (2 : Fin 3) * 128 ≤ (i 2).val ∧ (i 2).val < win3_3.index ⟨4 * ((i 1).val / 512) + 3, ht⟩ (2 : Fin 3) * 128 + 128
    rw [e2]; omega

/-! ## What a flushing point writes back -/

/-- The output block at a query tile's last point, entry by entry, is the whole result read through the point's
    block of the output array. -/
theorem out_blk3 (c : Dev nD) (t : Fin cfg3.N) (h3 : t.val % 4 = 3) (j : S8x512x128.Idx) :
    AttnBody.quotient (stAt V c t.val t.isLt).2.2 (stAt V c t.val t.isLt).2.1 j
      = attnG V c (((cfg3.win 3).blk t).view.emb j) := by
  obtain ⟨b, r, e, rfl⟩ : ∃ (b : Fin 8) (r : Fin 512) (e : Fin 128), j = ix3 b r e := ⟨j 0, j 1, j 2, eq_ix3 j⟩
  rw [emb_out3]
  refine (AttnSteps.quotient_row V c t b r (rowScores V c b (qRow t r)) (rowValues V c b) (scores_along V c t b r) (values_along V c t b) h3 e).trans ?_
  rfl

theorem flushed3_eq (c : Dev nD) (t : Fin cfg3.N) (hf : (cfg3.win 3).flush t = true) :
    (dat3 V c).flushed 3 t = ((cfg3.win 3).blk t).view.read (Elt Ideal) (attnG V c) := by
  have h3 : t.val % 4 = 3 := (flush3_3 t).mp hf
  show (cfg3.win 3).cut (grid3.coords t) ((dat3 V c).after 3 t) = _
  rw [after_3]
  funext j
  exact out_blk3 V c t h3 j

/-! ## The output array after the region -/

/-- The output array ends holding the whole result of the tiled walk over the three projected arrays as the region
    found them. -/
theorem attn_array (c : Dev nD) : (dat3 V c).arrAt 3 cfg3.N = attnG V c :=
  (dat3 V c).arrAt_eq_of_cover 3 (attnG V c) (fun t hf => flushed3_eq V c t hf) cover3

/-- The three input arrays are never written back: they end as the region found them. -/
theorem arrAt3_q (c : Dev nD) : (dat3 V c).arrAt 0 cfg3.N = V c (Pipeline.arrRef spec3 0) :=
  ((dat3 V c).arrAt_in 0 rfl _).trans (A_eq3 V c 0)
theorem arrAt3_k (c : Dev nD) : (dat3 V c).arrAt 1 cfg3.N = V c (Pipeline.arrRef spec3 1) :=
  ((dat3 V c).arrAt_in 1 rfl _).trans (A_eq3 V c 1)
theorem arrAt3_v (c : Dev nD) : (dat3 V c).arrAt 2 cfg3.N = V c (Pipeline.arrRef spec3 2) :=
  ((dat3 V c).arrAt_in 2 rfl _).trans (A_eq3 V c 2)

end Cert.KernelIdeal.AttnArray

end
-- ==== Proof.ProjValue.lean ====
/- The projection kernel's output block at an entry, at the ideal values: the body's one store leaves, at row `r` and
   column `e` of the output block, the sum over the contraction index `d` of the input block at (r, d) times the weight
   matrix at (d, e) — the format changes are the identity there and the product starts from the zero accumulator. -/
import proofs.«165083_j41102837022983_2_alg».proof.Proof.ProjRegion
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjValue

open Cert.KernelIdeal Cert.KernelIdeal.Gen Cert.KernelIdeal.ProjRegion
open Idealize.ShloMosaic Idealize.ShloMosaic.TcCoe Idealize.ShloMosaic.ValueIdx Idealize.SL.Sem

/-! ## The product's operand indices: rows and columns pass through, the one contracted axis is the summation index -/

theorem lhs_row (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_contr (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_contr (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_col (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product into the zero accumulator at an entry: the sum over the contraction index. -/
theorem matmul_zero_apply (a : FVec Ideal S2048x1024 .bf16) (b : FVec Ideal S1024x128 .bf16) (r : Fin 2048) (e : Fin 128) :
    matmul dot_S2048x1024_S1024x128_S2048x128_1_0_0_1_n_n none a b (constant S2048x128 .f32 0x00000000#32) (ix2 r e)
      = ∑ d : Fin 1024, a (ix2 r d) * b (ix2 d e) := by
  simp only [matmul]
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 r e) ((contrEquiv1 dot_S2048x1024_S1024x128_S2048x128_1_0_0_1_n_n 1024 rfl rfl).symm k) = ix2 r k := funext fun a => Fin.ext (by
    match a with
    | ⟨0, _⟩ => exact lhs_row _ _
    | ⟨1, _⟩ => exact (lhs_contr _ _).trans hk)
  have er : dot_S2048x1024_S1024x128_S2048x128_1_0_0_1_n_n.rhsIdx (ix2 r e) ((contrEquiv1 dot_S2048x1024_S1024x128_S2048x128_1_0_0_1_n_n 1024 rfl rfl).symm k) = ix2 k e := funext fun a => Fin.ext (by
    match a with
    | ⟨0, _⟩ => exact (rhs_contr _ _).trans hk
    | ⟨1, _⟩ => exact rhs_col _ _)
  rw [el, er]

theorem zeros2 : (![0, 0] : Fin 2 → Nat) = fun _ => 0 := funext fun a => by fin_cases a <;> rfl

/-! ## Region 0 -/

/-- The stored payload at an entry. -/
theorem pay0_apply (x : Vec Ideal S2048x1024 .f32) (w : Vec Ideal S1024x128 .f32) (r : Fin 2048) (e : Fin 128) :
    k0_pay1 (F := Ideal) x w (ix2 r e) = ∑ d : Fin 1024, x (ix2 r d) * w (ix2 d e) := by
  unfold k0_pay1
  rw [truncf_apply, matmul_zero_apply]
  refine Finset.sum_congr rfl fun d _ => ?_
  rw [truncf_apply, truncf_apply, shapeCast_self]

/-- The output block at an entry is the product of the two input blocks there. -/
theorem out0_apply (x : Vec Ideal S2048x1024 .f32) (w : Vec Ideal S1024x128 .f32) (r : Fin 2048) (e : Fin 128) :
    out0 (F := Ideal) x w (ix2 r e) = ∑ d : Fin 1024, x (ix2 r d) * w (ix2 d e) := by
  unfold out0
  rw [View.canon_unit_zero zeros2]
  simp only [View.ld_unit_zero (S := S2048x1024) zeros2, View.ld_unit_zero (S := S1024x128) zeros2]
  exact pay0_apply x w r e

/-! ## Region 1 -/

/-- The stored payload at an entry. -/
theorem pay1_apply (x : Vec Ideal S2048x1024 .f32) (w : Vec Ideal S1024x128 .f32) (r : Fin 2048) (e : Fin 128) :
    k1_pay1 (F := Ideal) x w (ix2 r e) = ∑ d : Fin 1024, x (ix2 r d) * w (ix2 d e) := by
  unfold k1_pay1
  rw [truncf_apply, matmul_zero_apply]
  refine Finset.sum_congr rfl fun d _ => ?_
  rw [truncf_apply, truncf_apply, shapeCast_self]

/-- The output block at an entry is the product of the two input blocks there. -/
theorem out1_apply (x : Vec Ideal S2048x1024 .f32) (w : Vec Ideal S1024x128 .f32) (r : Fin 2048) (e : Fin 128) :
    out1 (F := Ideal) x w (ix2 r e) = ∑ d : Fin 1024, x (ix2 r d) * w (ix2 d e) := by
  unfold out1
  rw [View.canon_unit_zero zeros2]
  simp only [View.ld_unit_zero (S := S2048x1024) zeros2, View.ld_unit_zero (S := S1024x128) zeros2]
  exact pay1_apply x w r e

/-! ## Region 2 -/

/-- The stored payload at an entry. -/
theorem pay2_apply (x : Vec Ideal S2048x1024 .f32) (w : Vec Ideal S1024x128 .f32) (r : Fin 2048) (e : Fin 128) :
    k2_pay1 (F := Ideal) x w (ix2 r e) = ∑ d : Fin 1024, x (ix2 r d) * w (ix2 d e) := by
  unfold k2_pay1
  rw [truncf_apply, matmul_zero_apply]
  refine Finset.sum_congr rfl fun d _ => ?_
  rw [truncf_apply, truncf_apply, shapeCast_self]

/-- The output block at an entry is the product of the two input blocks there. -/
theorem out2_apply (x : Vec Ideal S2048x1024 .f32) (w : Vec Ideal S1024x128 .f32) (r : Fin 2048) (e : Fin 128) :
    out2 (F := Ideal) x w (ix2 r e) = ∑ d : Fin 1024, x (ix2 r d) * w (ix2 d e) := by
  unfold out2
  rw [View.canon_unit_zero zeros2]
  simp only [View.ld_unit_zero (S := S2048x1024) zeros2, View.ld_unit_zero (S := S1024x128) zeros2]
  exact pay2_apply x w r e

end Cert.KernelIdeal.ProjValue

end
-- ==== Proof.ProjArray.lean ====
/- From blocks to arrays, for the three projection regions at the ideal values: the pipeline writes back, at each of
   its 16 points, the product of that point's row block of the input with the weight matrix, and the 16 row blocks
   tile the output array; so the output array ends holding the whole product, and the two input arrays end as the
   region found them. -/
import proofs.«165083_j41102837022983_2_alg».proof.Proof.ProjRegion
import proofs.«165083_j41102837022983_2_alg».proof.Proof.ProjValue
import Idealize.ShloMosaic.Lib.Pipeline.Value
import Idealize.ShloMosaic.Lib.ValueIdx
import Idealize.ShloMosaic.Lib.Tactic

set_option maxRecDepth 16384

noncomputable section

open scoped BigOperators

namespace Cert.KernelIdeal.ProjArray

open Cert.KernelIdeal Cert.KernelIdeal.Gen Cert.KernelIdeal.ProjRegion Cert.KernelIdeal.ProjValue
open Idealize.ShloMosaic Idealize.ShloMosaic.TcCoe Idealize.ShloMosaic.ValueIdx Idealize.SL.Sem
open Idealize.ShloMosaic.Pipeline (Dat)

-- the core's buffer contents when a region is entered
variable (V : (c : Dev nD) → (b : Ref sig .tc) → Buf (Elt Ideal) ((c : Thread nD τ).loc b))

/-- The product of a [32768,1024] array with a [1024,128] matrix, entry by entry. -/
abbrev matProd (X : Vec Ideal S32768x1024 .f32) (W : Vec Ideal S1024x128 .f32) : Vec Ideal S32768x128 .bf16 :=
  fun j => ∑ d : Fin 1024, X (ix2 (j 0) d) * W (ix2 d (j 1))

/-- Row `r` of the row block of point `t` is row `2048 t + r` of the array. -/
abbrev arrRow (t : Fin 16) (r : Fin 2048) : Fin 32768 := ⟨2048 * t.val + r.val, by have := t.isLt; have := r.isLt; omega⟩

/-! ## Region 0 -/

/-- The whole product: the input array as the region finds it against the weight matrix as the region finds it. -/
abbrev prod0 (c : Dev nD) : Vec Ideal S32768x128 .bf16 :=
  matProd (V c (Pipeline.arrRef spec0 0)) (V c (Pipeline.arrRef spec0 1))

/-- The printed index maps over the grid: the input's and the output's row block is the point's, the weight
    matrix's block is the one block there is. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input window's block at point `t` is rows `2048 t … 2048 t + 2047` of the input array. -/
theorem iblk0_x_apply (c : Dev nD) (t : Fin cfg0.N) (r : Fin 2048) (d : Fin 1024) :
    (iblk0 V c 0 t : Vec Ideal S2048x1024 .f32) (ix2 r d)
      = (V c (Pipeline.arrRef spec0 0) : Vec Ideal S32768x1024 .f32) (ix2 (arrRow (t.cast N_0) r) d) := by
  obtain ⟨e0, e1, -, -, -, -⟩ := idx_facts0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2048 + 1 * r.val = 2048 * t.val + r.val; rw [e0]; omega
  | ⟨1, _⟩ => show win0_0.index t (1 : Fin 2) * 1024 + 1 * d.val = d.val; rw [e1]; omega

/-- The weight window's block at every point is the whole weight matrix. -/
theorem iblk0_w_apply (c : Dev nD) (t : Fin cfg0.N) (d : Fin 1024) (e : Fin 128) :
    (iblk0 V c 1 t : Vec Ideal S1024x128 .f32) (ix2 d e)
      = (V c (Pipeline.arrRef spec0 1) : Vec Ideal S1024x128 .f32) (ix2 d e) := by
  obtain ⟨-, -, e2, e3, -, -⟩ := idx_facts0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 1024 + 1 * d.val = d.val; rw [e2]; omega
  | ⟨1, _⟩ => show win0_1.index t (1 : Fin 2) * 128 + 1 * e.val = e.val; rw [e3]; omega

/-- Entry (r, e) of the output window's block at point `t` sits at row `2048 t + r`, column `e` of the output array. -/
theorem emb_out0 (t : Fin cfg0.N) (r : Fin 2048) (e : Fin 128) :
    ((cfg0.win 2).blk t).view.emb (ix2 r e) = (ix2 (arrRow (t.cast N_0) r) e : S32768x128.Idx) := by
  obtain ⟨-, -, -, -, e4, e5⟩ := idx_facts0 t
  funext a
  apply Fin.ext
  match a with
  | ⟨0, _⟩ => show win0_2.index t (0 : Fin 2) * 2048 + 1 * r.val = 2048 * t.val + r.val; rw [e4]; omega
  | ⟨1, _⟩ => show win0_2.index t (1 : Fin 2) * 128 + 1 * e.val = e.val; rw [e5]; omega

/-- The output block the body leaves at point `t`, entry by entry, is the whole product read through the point's
    block of the output array. -/
theorem out_blk0 (c : Dev nD) (t : Fin cfg0.N) (j : S2048x128.Idx) :
    out0 (F := Ideal) (iblk0 V c 0 t) (iblk0 V c 1 t) j = prod0 V c (((cfg0.win 2).blk t).view.emb j) := by
  obtain ⟨r, e, rfl⟩ : ∃ (r : Fin 2048) (e : Fin 128), j = ix2 r e := ⟨j 0, j 1, eq_ix2 j⟩
  rw [out0_apply, emb_out0]
  refine Finset.sum_congr rfl fun d _ => ?_
  rw [iblk0_x_apply, iblk0_w_apply]

/-- What point `t` writes back is block `t` of the whole product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  funext j
  exact out_blk0 V c t j

/-- An index of the output array is in point `t`'s block iff each coordinate is in the block's range on its axis. -/
theorem mem_blk0 (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- The 16 row blocks tile the output array: row `i 0` is in the block of point `i 0 / 2048`, which is written back. -/
theorem cover0 (i : S32768x128.Idx) : ∃ t : Fin cfg0.N, (cfg0.win 2).flush t = true ∧ i ∈ ((cfg0.win 2).blk t).view.set := by
  have hi0 : (i 0).val < 32768 := (i 0).isLt
  have hi1 : (i 1).val < 128 := (i 1).isLt
  have hN : cfg0.N = 16 := N_0
  have ht : (i 0).val / 2048 < cfg0.N := by rw [hN]; omega
  obtain ⟨-, -, -, -, e4, e5⟩ := idx_facts0 ⟨(i 0).val / 2048, ht⟩
  refine ⟨⟨(i 0).val / 2048, ht⟩, flush0_2 _, ?_⟩
  rw [mem_blk0]
  intro a
  match a with
  | ⟨0, _⟩ =>
    show win0_2.index ⟨(i 0).val / 2048, ht⟩ (0 : Fin 2) * 2048 ≤ (i 0).val ∧ (i 0).val < win0_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win0_2.index ⟨(i 0).val / 2048, ht⟩ (1 : Fin 2) * 128 ≤ (i 1).val ∧ (i 1).val < win0_2.index ⟨(i 0).val / 2048, ht⟩ (1 : Fin 2) * 128 + 128
    rw [e5]; omega

/-- The output array after the region: the whole product of the input array and the weight matrix as the region
    found them. -/
theorem arrAt0_out (c : Dev nD) :
    (dat0 V c).arrAt 2 cfg0.N = matProd (V c (Pipeline.arrRef spec0 0)) (V c (Pipeline.arrRef spec0 1)) :=
  (dat0 V c).arrAt_eq_of_cover 2 (prod0 V c) (fun t _ => flushed0_eq V c t) (cover0)

/-- The input arrays are never written back: they end as the region found them. -/
theorem arrAt0_x (c : Dev nD) : (dat0 V c).arrAt 0 cfg0.N = V c (Pipeline.arrRef spec0 0) :=
  ((dat0 V c).arrAt_in 0 rfl _).trans (A_eq0 V c 0)
theorem arrAt0_w (c : Dev nD) : (dat0 V c).arrAt 1 cfg0.N = V c (Pipeline.arrRef spec0 1) :=
  ((dat0 V c).arrAt_in 1 rfl _).trans (A_eq0 V c 1)

/-! ## Region 1 -/

/-- The whole product: the input array as the region finds it against the weight matrix as the region finds it. -/
abbrev prod1 (c : Dev nD) : Vec Ideal S32768x128 .bf16 :=
  matProd (V c (Pipeline.arrRef spec1 0)) (V c (Pipeline.arrRef spec1 1))

/-- The printed index maps over the grid: the input's and the output's row block is the point's, the weight
    matrix's block is the one block there is. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input window's block at point `t` is rows `2048 t … 2048 t + 2047` of the input array. -/
theorem iblk1_x_apply (c : Dev nD) (t : Fin cfg1.N) (r : Fin 2048) (d : Fin 1024) :
    (iblk1 V c 0 t : Vec Ideal S2048x1024 .f32) (ix2 r d)
      = (V c (Pipeline.arrRef spec1 0) : Vec Ideal S32768x1024 .f32) (ix2 (arrRow (t.cast N_1) r) d) := by
  obtain ⟨e0, e1, -, -, -, -⟩ := idx_facts1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2048 + 1 * r.val = 2048 * t.val + r.val; rw [e0]; omega
  | ⟨1, _⟩ => show win1_0.index t (1 : Fin 2) * 1024 + 1 * d.val = d.val; rw [e1]; omega

/-- The weight window's block at every point is the whole weight matrix. -/
theorem iblk1_w_apply (c : Dev nD) (t : Fin cfg1.N) (d : Fin 1024) (e : Fin 128) :
    (iblk1 V c 1 t : Vec Ideal S1024x128 .f32) (ix2 d e)
      = (V c (Pipeline.arrRef spec1 1) : Vec Ideal S1024x128 .f32) (ix2 d e) := by
  obtain ⟨-, -, e2, e3, -, -⟩ := idx_facts1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1024 + 1 * d.val = d.val; rw [e2]; omega
  | ⟨1, _⟩ => show win1_1.index t (1 : Fin 2) * 128 + 1 * e.val = e.val; rw [e3]; omega

/-- Entry (r, e) of the output window's block at point `t` sits at row `2048 t + r`, column `e` of the output array. -/
theorem emb_out1 (t : Fin cfg1.N) (r : Fin 2048) (e : Fin 128) :
    ((cfg1.win 2).blk t).view.emb (ix2 r e) = (ix2 (arrRow (t.cast N_1) r) e : S32768x128.Idx) := by
  obtain ⟨-, -, -, -, e4, e5⟩ := idx_facts1 t
  funext a
  apply Fin.ext
  match a with
  | ⟨0, _⟩ => show win1_2.index t (0 : Fin 2) * 2048 + 1 * r.val = 2048 * t.val + r.val; rw [e4]; omega
  | ⟨1, _⟩ => show win1_2.index t (1 : Fin 2) * 128 + 1 * e.val = e.val; rw [e5]; omega

/-- The output block the body leaves at point `t`, entry by entry, is the whole product read through the point's
    block of the output array. -/
theorem out_blk1 (c : Dev nD) (t : Fin cfg1.N) (j : S2048x128.Idx) :
    out1 (F := Ideal) (iblk1 V c 0 t) (iblk1 V c 1 t) j = prod1 V c (((cfg1.win 2).blk t).view.emb j) := by
  obtain ⟨r, e, rfl⟩ : ∃ (r : Fin 2048) (e : Fin 128), j = ix2 r e := ⟨j 0, j 1, eq_ix2 j⟩
  rw [out1_apply, emb_out1]
  refine Finset.sum_congr rfl fun d _ => ?_
  rw [iblk1_x_apply, iblk1_w_apply]

/-- What point `t` writes back is block `t` of the whole product. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  funext j
  exact out_blk1 V c t j

/-- An index of the output array is in point `t`'s block iff each coordinate is in the block's range on its axis. -/
theorem mem_blk1 (t : Fin cfg1.N) (i : S32768x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v4).slice (win1_2.rect t)).set ↔ _
  rw [View.set_slice_whole, Rect.mem_set_unit]
  exact Iff.rfl

/-- The 16 row blocks tile the output array: row `i 0` is in the block of point `i 0 / 2048`, which is written back. -/
theorem cover1 (i : S32768x128.Idx) : ∃ t : Fin cfg1.N, (cfg1.win 2).flush t = true ∧ i ∈ ((cfg1.win 2).blk t).view.set := by
  have hi0 : (i 0).val < 32768 := (i 0).isLt
  have hi1 : (i 1).val < 128 := (i 1).isLt
  have hN : cfg1.N = 16 := N_1
  have ht : (i 0).val / 2048 < cfg1.N := by rw [hN]; omega
  obtain ⟨-, -, -, -, e4, e5⟩ := idx_facts1 ⟨(i 0).val / 2048, ht⟩
  refine ⟨⟨(i 0).val / 2048, ht⟩, flush1_2 _, ?_⟩
  rw [mem_blk1]
  intro a
  match a with
  | ⟨0, _⟩ =>
    show win1_2.index ⟨(i 0).val / 2048, ht⟩ (0 : Fin 2) * 2048 ≤ (i 0).val ∧ (i 0).val < win1_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win1_2.index ⟨(i 0).val / 2048, ht⟩ (1 : Fin 2) * 128 ≤ (i 1).val ∧ (i 1).val < win1_2.index ⟨(i 0).val / 2048, ht⟩ (1 : Fin 2) * 128 + 128
    rw [e5]; omega

/-- The output array after the region: the whole product of the input array and the weight matrix as the region
    found them. -/
theorem arrAt1_out (c : Dev nD) :
    (dat1 V c).arrAt 2 cfg1.N = matProd (V c (Pipeline.arrRef spec1 0)) (V c (Pipeline.arrRef spec1 1)) :=
  (dat1 V c).arrAt_eq_of_cover 2 (prod1 V c) (fun t _ => flushed1_eq V c t) (cover1)

/-- The input arrays are never written back: they end as the region found them. -/
theorem arrAt1_x (c : Dev nD) : (dat1 V c).arrAt 0 cfg1.N = V c (Pipeline.arrRef spec1 0) :=
  ((dat1 V c).arrAt_in 0 rfl _).trans (A_eq1 V c 0)
theorem arrAt1_w (c : Dev nD) : (dat1 V c).arrAt 1 cfg1.N = V c (Pipeline.arrRef spec1 1) :=
  ((dat1 V c).arrAt_in 1 rfl _).trans (A_eq1 V c 1)

/-! ## Region 2 -/

/-- The whole product: the input array as the region finds it against the weight matrix as the region finds it. -/
abbrev prod2 (c : Dev nD) : Vec Ideal S32768x128 .bf16 :=
  matProd (V c (Pipeline.arrRef spec2 0)) (V c (Pipeline.arrRef spec2 1))

/-- The printed index maps over the grid: the input's and the output's row block is the point's, the weight
    matrix's block is the one block there is. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The input window's block at point `t` is rows `2048 t … 2048 t + 2047` of the input array. -/
theorem iblk2_x_apply (c : Dev nD) (t : Fin cfg2.N) (r : Fin 2048) (d : Fin 1024) :
    (iblk2 V c 0 t : Vec Ideal S2048x1024 .f32) (ix2 r d)
      = (V c (Pipeline.arrRef spec2 0) : Vec Ideal S32768x1024 .f32) (ix2 (arrRow (t.cast N_2) r) d) := by
  obtain ⟨e0, e1, -, -, -, -⟩ := idx_facts2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2048 + 1 * r.val = 2048 * t.val + r.val; rw [e0]; omega
  | ⟨1, _⟩ => show win2_0.index t (1 : Fin 2) * 1024 + 1 * d.val = d.val; rw [e1]; omega

/-- The weight window's block at every point is the whole weight matrix. -/
theorem iblk2_w_apply (c : Dev nD) (t : Fin cfg2.N) (d : Fin 1024) (e : Fin 128) :
    (iblk2 V c 1 t : Vec Ideal S1024x128 .f32) (ix2 d e)
      = (V c (Pipeline.arrRef spec2 1) : Vec Ideal S1024x128 .f32) (ix2 d e) := by
  obtain ⟨-, -, e2, e3, -, -⟩ := idx_facts2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 1024 + 1 * d.val = d.val; rw [e2]; omega
  | ⟨1, _⟩ => show win2_1.index t (1 : Fin 2) * 128 + 1 * e.val = e.val; rw [e3]; omega

/-- Entry (r, e) of the output window's block at point `t` sits at row `2048 t + r`, column `e` of the output array. -/
theorem emb_out2 (t : Fin cfg2.N) (r : Fin 2048) (e : Fin 128) :
    ((cfg2.win 2).blk t).view.emb (ix2 r e) = (ix2 (arrRow (t.cast N_2) r) e : S32768x128.Idx) := by
  obtain ⟨-, -, -, -, e4, e5⟩ := idx_facts2 t
  funext a
  apply Fin.ext
  match a with
  | ⟨0, _⟩ => show win2_2.index t (0 : Fin 2) * 2048 + 1 * r.val = 2048 * t.val + r.val; rw [e4]; omega
  | ⟨1, _⟩ => show win2_2.index t (1 : Fin 2) * 128 + 1 * e.val = e.val; rw [e5]; omega

/-- The output block the body leaves at point `t`, entry by entry, is the whole product read through the point's
    block of the output array. -/
theorem out_blk2 (c : Dev nD) (t : Fin cfg2.N) (j : S2048x128.Idx) :
    out2 (F := Ideal) (iblk2 V c 0 t) (iblk2 V c 1 t) j = prod2 V c (((cfg2.win 2).blk t).view.emb j) := by
  obtain ⟨r, e, rfl⟩ : ∃ (r : Fin 2048) (e : Fin 128), j = ix2 r e := ⟨j 0, j 1, eq_ix2 j⟩
  rw [out2_apply, emb_out2]
  refine Finset.sum_congr rfl fun d _ => ?_
  rw [iblk2_x_apply, iblk2_w_apply]

/-- What point `t` writes back is block `t` of the whole product. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  funext j
  exact out_blk2 V c t j

/-- An index of the output array is in point `t`'s block iff each coordinate is in the block's range on its axis. -/
theorem mem_blk2 (t : Fin cfg2.N) (i : S32768x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v7).slice (win2_2.rect t)).set ↔ _
  rw [View.set_slice_whole, Rect.mem_set_unit]
  exact Iff.rfl

/-- The 16 row blocks tile the output array: row `i 0` is in the block of point `i 0 / 2048`, which is written back. -/
theorem cover2 (i : S32768x128.Idx) : ∃ t : Fin cfg2.N, (cfg2.win 2).flush t = true ∧ i ∈ ((cfg2.win 2).blk t).view.set := by
  have hi0 : (i 0).val < 32768 := (i 0).isLt
  have hi1 : (i 1).val < 128 := (i 1).isLt
  have hN : cfg2.N = 16 := N_2
  have ht : (i 0).val / 2048 < cfg2.N := by rw [hN]; omega
  obtain ⟨-, -, -, -, e4, e5⟩ := idx_facts2 ⟨(i 0).val / 2048, ht⟩
  refine ⟨⟨(i 0).val / 2048, ht⟩, flush2_2 _, ?_⟩
  rw [mem_blk2]
  intro a
  match a with
  | ⟨0, _⟩ =>
    show win2_2.index ⟨(i 0).val / 2048, ht⟩ (0 : Fin 2) * 2048 ≤ (i 0).val ∧ (i 0).val < win2_2.index ⟨(i 0).val / 2048, ht⟩ (0 : Fin 2) * 2048 + 2048
    rw [e4]; show (i 0).val / 2048 * 2048 ≤ (i 0).val ∧ (i 0).val < (i 0).val / 2048 * 2048 + 2048; omega
  | ⟨1, _⟩ =>
    show win2_2.index ⟨(i 0).val / 2048, ht⟩ (1 : Fin 2) * 128 ≤ (i 1).val ∧ (i 1).val < win2_2.index ⟨(i 0).val / 2048, ht⟩ (1 : Fin 2) * 128 + 128
    rw [e5]; omega

/-- The output array after the region: the whole product of the input array and the weight matrix as the region
    found them. -/
theorem arrAt2_out (c : Dev nD) :
    (dat2 V c).arrAt 2 cfg2.N = matProd (V c (Pipeline.arrRef spec2 0)) (V c (Pipeline.arrRef spec2 1)) :=
  (dat2 V c).arrAt_eq_of_cover 2 (prod2 V c) (fun t _ => flushed2_eq V c t) (cover2)

/-- The input arrays are never written back: they end as the region found them. -/
theorem arrAt2_x (c : Dev nD) : (dat2 V c).arrAt 0 cfg2.N = V c (Pipeline.arrRef spec2 0) :=
  ((dat2 V c).arrAt_in 0 rfl _).trans (A_eq2 V c 0)
theorem arrAt2_w (c : Dev nD) : (dat2 V c).arrAt 1 cfg2.N = V c (Pipeline.arrRef spec2 1) :=
  ((dat2 V c).arrAt_in 1 rfl _).trans (A_eq2 V c 1)

end Cert.KernelIdeal.ProjArray

end
-- ==== Proof.Glue.lean ====
/-
  The attention region's three input arrays are the projections of the six arguments.

  Each projection region is entered from an argument of shape [8, 4096, 1024] with its two leading axes merged into
  32768 rows (row 4096·b + n is position n of batch b) and from a weight matrix as launched; it leaves the whole
  product of the two in its output array. Before the attention region the rows of each product are split back into
  batch and position. So entry (b, n, e) of each of the attention region's input arrays is the sum over d of the
  argument at (b, n, d) times the weight at (d, e).
-/
import proofs.«165083_j41102837022983_2_alg».proof.Proof.Run
import proofs.«165083_j41102837022983_2_alg».proof.Proof.ProjArray
import proofs.«165083_j41102837022983_2_alg».proof.Proof.LibRank3Layout
import proofs.«165083_j41102837022983_2_alg».proof.Proof.AttnSpec

set_option maxRecDepth 16384

noncomputable section

open scoped BigOperators

namespace Cert.KernelIdeal.Glue

open Cert.KernelIdeal Cert.KernelIdeal.Gen
open Idealize.ShloMosaic Idealize.ShloMosaic.TcCoe Idealize.ShloMosaic.ValueIdx Idealize.SL.Sem
open Cert.AttnSpec

/-- The merged row of batch `b`, position `n`. -/
abbrev flatRow (b : Fin 8) (n : Fin 4096) : Fin 32768 :=
  ⟨b.val * 4096 + n.val, by have := b.isLt; have := n.isLt; omega⟩

/-- Merge the leading axes, multiply by the weight matrix, split the rows back: entry (b, n, e) is the projection of
    row (b, n) at column e. -/
theorem split_prod_merge_apply (X : Vec Ideal S8x4096x1024 .f32) (W : Vec Ideal S1024x128 .f32)
    (b : Fin 8) (n : Fin 4096) (e : Fin 128) :
    shapeCast S8x4096x128
        (ProjArray.matProd (shapeCast S32768x1024 X shapeCasts_S8x4096x1024_S32768x1024) W)
        shapeCasts_S32768x128_S8x4096x128 (ix3 b n e)
      = proj (fun d => X (ix3 b n d)) (fun d e => W (ix2 d e)) e := by
  rw [Cert.Rank3Layout.shapeCast_rows_abc_apply _ _ b n e (flatRow b n) rfl]
  show ∑ d : Fin 1024, _ * _ = ∑ d : Fin 1024, _ * _
  refine Finset.sum_congr rfl fun d _ => ?_
  refine congrArg₂ (· * ·) ?_ rfl
  exact Cert.Rank3Layout.shapeCast_abc_rows_apply X _ b n d (flatRow b n) rfl

variable (m : (ℓ : Loc nD τ sig) → Buf (Elt Ideal) ℓ) (ρ : Dev nD → PrngReg)

/-- The attention region's first input array: the first argument projected by the first weight matrix. -/
theorem Qa_apply (c : Dev nD) (b : Fin 8) (n : Fin 4096) (e : Fin 128) :
    (Run.V7 m ρ c (Pipeline.arrRef spec3 0) : S8x4096x128.Idx → Elt Ideal .bf16) (ix3 b n e)
      = proj (fun d => (m ((c : Thread nD τ).loc main_arg0) : S8x4096x1024.Idx → Elt Ideal .f32) (ix3 b n d))
          (fun d e => (m ((c : Thread nD τ).loc main_arg3) : S1024x128.Idx → Elt Ideal .f32) (ix2 d e)) e := by
  rw [Run.V7_win0 m ρ c, ProjArray.arrAt0_out (Run.V1 m ρ) c, Run.V1_win0 m ρ c, Run.V1_win1 m ρ c]
  exact split_prod_merge_apply _ _ b n e

/-- The attention region's second input array: the second argument projected by the second weight matrix. -/
theorem Ka_apply (c : Dev nD) (b : Fin 8) (n : Fin 4096) (e : Fin 128) :
    (Run.V7 m ρ c (Pipeline.arrRef spec3 1) : S8x4096x128.Idx → Elt Ideal .bf16) (ix3 b n e)
      = proj (fun d => (m ((c : Thread nD τ).loc main_arg1) : S8x4096x1024.Idx → Elt Ideal .f32) (ix3 b n d))
          (fun d e => (m ((c : Thread nD τ).loc main_arg4) : S1024x128.Idx → Elt Ideal .f32) (ix2 d e)) e := by
  rw [Run.V7_win1 m ρ c, ProjArray.arrAt1_out (Run.V3 m ρ) c, Run.V3_win0 m ρ c, Run.V3_win1 m ρ c]
  exact split_prod_merge_apply _ _ b n e

/-- The attention region's third input array: the third argument projected by the third weight matrix. -/
theorem Va_apply (c : Dev nD) (b : Fin 8) (n : Fin 4096) (e : Fin 128) :
    (Run.V7 m ρ c (Pipeline.arrRef spec3 2) : S8x4096x128.Idx → Elt Ideal .bf16) (ix3 b n e)
      = proj (fun d => (m ((c : Thread nD τ).loc main_arg2) : S8x4096x1024.Idx → Elt Ideal .f32) (ix3 b n d))
          (fun d e => (m ((c : Thread nD τ).loc main_arg5) : S1024x128.Idx → Elt Ideal .f32) (ix2 d e)) e := by
  rw [Run.V7_win2 m ρ c, ProjArray.arrAt2_out (Run.V5 m ρ) c, Run.V5_win0 m ρ c, Run.V5_win1 m ρ c]
  exact split_prod_merge_apply _ _ b n e

end Cert.KernelIdeal.Glue

end
-- ==== Proof.RefValue.lean ====
/-
  The reference program's result, read entry by entry, is the specification's normalised weighted sum.

  The reference projects the three inputs, takes the scores of every query row against every key row and scales them,
  subtracts each row's maximum (a maximum from -∞ over the 4096 keys, then once more against -∞), exponentiates, divides
  by the row's sum (a sum from 0), and contracts the weights with the projected value rows. Each stage is read at an
  index given by explicit coordinates; the index maps of the layout stages compute by cases on the axis.
-/
import proofs.«165083_j41102837022983_2_alg».proof.Proof.Gen.ReferenceIdeal.Read
import proofs.«165083_j41102837022983_2_alg».proof.Proof.AttnSpec

noncomputable section

namespace Cert.ReferenceIdeal.RefValue

open Cert.ReferenceIdeal Cert.ReferenceIdeal.Gen Cert.ReferenceIdeal.Read
open Idealize.ShloMosaic Idealize.ShloMosaic.ValueIdx
open Cert.AttnSpec

/-- Two rank-3 indices agree when they agree on each axis. -/
local macro "idx3" : tactic =>
  `(tactic| (funext a; match a with | ⟨0, _⟩ => rfl | ⟨1, _⟩ => rfl | ⟨2, _⟩ => rfl))
/-- Two rank-2 indices agree when they agree on each axis. -/
local macro "idx2" : tactic =>
  `(tactic| (funext a; match a with | ⟨0, _⟩ => rfl | ⟨1, _⟩ => rfl))

/-- An input of shape [8, 4096, 1024] as a function of its coordinates. -/
abbrev rows (a : FVec Ideal S8x4096x1024 .f32) : Fin 8 → Fin 4096 → Fin 1024 → EReal := fun b n d => a (ix3 b n d)
/-- A weight of shape [1024, 128] as a function of its coordinates. -/
abbrev wts (w : FVec Ideal S1024x128 .f32) : Fin 1024 → Fin 128 → EReal := fun d e => w (ix2 d e)
/-- The scale of the scores. -/
abbrev scale : EReal := Ideal.ofBits .f32 0x3DB504F3#32

/-- The f32 word `0xFF800000` is `-∞`. -/
theorem neg_inf : Ideal.ofBits .f32 0xFF800000#32 = (⊥ : EReal) := by simp [Ideal.ofBits, Ideal.ieee]
/-- The f32 word `0` is zero. -/
theorem zero_word : Ideal.ofBits .f32 0x00000000#32 = (0 : EReal) := by simp [Ideal.ofBits, Ideal.ieee]

section
variable (a0 a1 a2 : FVec Ideal S8x4096x1024 .f32) (a3 a4 a5 : FVec Ideal S1024x128 .f32)

/-! ## The three projections -/

theorem projQ_at (b : Fin 8) (n : Fin 4096) (e : Fin 128) :
    val_main_v0 (F := Ideal) a0 a3 (ix3 b n e) = proj (rows a0 b n) (wts a3) e := by
  rw [val_main_v0_apply]
  refine Finset.sum_congr rfl fun k _ => ?_
  exact congrArg₂ (· * ·) (congrArg a0 (by idx3)) (congrArg a3 (by idx2))

theorem projK_at (b : Fin 8) (n : Fin 4096) (e : Fin 128) :
    val_main_v1 (F := Ideal) a1 a4 (ix3 b n e) = proj (rows a1 b n) (wts a4) e := by
  rw [val_main_v1_apply]
  refine Finset.sum_congr rfl fun k _ => ?_
  exact congrArg₂ (· * ·) (congrArg a1 (by idx3)) (congrArg a4 (by idx2))

theorem projV_at (b : Fin 8) (n : Fin 4096) (e : Fin 128) :
    val_main_v2 (F := Ideal) a2 a5 (ix3 b n e) = proj (rows a2 b n) (wts a5) e := by
  rw [val_main_v2_apply]
  refine Finset.sum_congr rfl fun k _ => ?_
  exact congrArg₂ (· * ·) (congrArg a2 (by idx3)) (congrArg a5 (by idx2))

/-! ## The scaled scores -/

theorem scores_at (b : Fin 8) (n j : Fin 4096) :
    val_main_v5 (F := Ideal) a0 a1 a3 a4 (ix3 b n j) = scores scale (rows a0) (rows a1) (wts a3) (wts a4) b n j := by
  rw [val_main_v5_apply, val_main_v4_apply, val_main_cst_apply, val_main_v3_apply]
  show (∑ k : Fin 128, _) * scale = (∑ e : Fin 128, _) * scale
  refine congrArg (· * scale) (Finset.sum_congr rfl fun k _ => ?_)
  refine congrArg₂ (· * ·) ?_ ?_
  · exact (congrArg (val_main_v0 (F := Ideal) a0 a3) (by idx3)).trans (projQ_at a0 a3 b n k)
  · exact (congrArg (val_main_v1 (F := Ideal) a1 a4) (by idx3)).trans (projK_at a1 a4 b j k)

/-! ## A row's maximum -/

/-- The row index `(b, n)` with key `k` put back on the reduced axis is `(b, n, k)`. -/
theorem lift_row (h : S8x4096x4096.Reduces [2] S8x4096) (b : Fin 8) (n : Fin 4096) (k : Fin (S8x4096x4096.size 2)) :
    h.lift (ix2 b n) k = ix3 b n (⟨k.val, k.isLt⟩ : Fin 4096) := by
  funext c; apply Fin.ext
  fin_cases c <;> rfl

theorem rowmax_at (b : Fin 8) (n : Fin 4096) :
    val_main_v8 (F := Ideal) a0 a1 a3 a4 (ix2 b n)
      = Finset.univ.sup (scores scale (rows a0) (rows a1) (wts a3) (wts a4) b n) := by
  have hR : S8x4096x4096.Reduces [2] S8x4096 := by decide
  rw [val_main_v8_apply, val_main_v7_apply, val_main_cst_1_apply]
  unfold val_main_v6
  have hfold := Host.reduce_eq_fold_single (FloatOps.maximumf (F := Ideal) (φ := FTy.f32))
    (val_main_v5 (F := Ideal) a0 a1 a3 a4 : FVec Ideal S8x4096x4096 .f32)
    (val_main_cst_0 (F := Ideal) : FVec Ideal S_ .f32) reducesTo_S8x4096x4096_S8x4096_d2 hR h_S_ (ix2 b n)
  rw [hfold]
  have hf : (val_main_v5 (F := Ideal) a0 a1 a3 a4 ∘ hR.lift (ix2 b n))
      = fun k : Fin 4096 => scores scale (rows a0) (rows a1) (wts a3) (wts a4) b n k :=
    funext fun k => (congrArg (val_main_v5 (F := Ideal) a0 a1 a3 a4) (lift_row hR b n k)).trans
      (scores_at a0 a1 a3 a4 b n _)
  rw [hf, val_main_cst_0_apply]
  show max (Ideal.ofBits .f32 0xFF800000#32)
      (Finset.fold max (Ideal.ofBits .f32 0xFF800000#32) (fun k : Fin 4096 => scores scale (rows a0) (rows a1) (wts a3) (wts a4) b n k)
        Finset.univ) = _
  rw [neg_inf, max_eq_right bot_le]
  rfl

/-! ## The shifted exponentials, their sum, the weights -/

theorem expo_at (b : Fin 8) (n j : Fin 4096) :
    val_main_v12 (F := Ideal) a0 a1 a3 a4 (ix3 b n j)
      = Ideal.exp (scores scale (rows a0) (rows a1) (wts a3) (wts a4) b n j
          - Finset.univ.sup (scores scale (rows a0) (rows a1) (wts a3) (wts a4) b n)) := by
  rw [val_main_v12_apply, val_main_v11_apply, scores_at, val_main_v10_apply, val_main_v9_apply,
    show idx_main_v9 (idx_main_v10 (ix3 b n j)) = ix2 b n from by idx2, rowmax_at]
  rfl

theorem rowsum_at (b : Fin 8) (n : Fin 4096) :
    val_main_v13 (F := Ideal) a0 a1 a3 a4 (ix2 b n)
      = ∑ j : Fin 4096, Ideal.exp (scores scale (rows a0) (rows a1) (wts a3) (wts a4) b n j
          - Finset.univ.sup (scores scale (rows a0) (rows a1) (wts a3) (wts a4) b n)) := by
  rw [val_main_v13_apply, val_main_cst_2_apply]
  show Ideal.ofBits .f32 0x00000000#32 + _ = _
  rw [zero_word, zero_add]
  refine Finset.sum_congr rfl fun k _ => ?_
  exact (congrArg (val_main_v12 (F := Ideal) a0 a1 a3 a4) (by idx3)).trans (expo_at a0 a1 a3 a4 b n k)

theorem weight_at (b : Fin 8) (n j : Fin 4096) :
    val_main_v16 (F := Ideal) a0 a1 a3 a4 (ix3 b n j)
      = Ideal.div
          (Ideal.exp (scores scale (rows a0) (rows a1) (wts a3) (wts a4) b n j
            - Finset.univ.sup (scores scale (rows a0) (rows a1) (wts a3) (wts a4) b n)))
          (∑ j' : Fin 4096, Ideal.exp (scores scale (rows a0) (rows a1) (wts a3) (wts a4) b n j'
            - Finset.univ.sup (scores scale (rows a0) (rows a1) (wts a3) (wts a4) b n))) := by
  rw [val_main_v16_apply, expo_at, val_main_v15_apply, val_main_v14_apply,
    show idx_main_v14 (idx_main_v15 (ix3 b n j)) = ix2 b n from by idx2, rowsum_at]
  rfl

/-! ## The result -/

theorem result_at (b : Fin 8) (n : Fin 4096) (e : Fin 128) :
    val_main_v17 (F := Ideal) a0 a1 a2 a3 a4 a5 (ix3 b n e)
      = attnRef scale (rows a0) (rows a1) (rows a2) (wts a3) (wts a4) (wts a5) b n e := by
  rw [val_main_v17_apply]
  unfold attnRef softmaxOut
  refine Finset.sum_congr rfl fun k _ => ?_
  refine congrArg₂ (· * ·) ?_ ?_
  · exact (congrArg (val_main_v16 (F := Ideal) a0 a1 a3 a4) (by idx3)).trans (weight_at a0 a1 a3 a4 b n k)
  · exact (congrArg (val_main_v2 (F := Ideal) a2 a5) (by idx3)).trans (projV_at a2 a5 b k e)

end

/-- THE REFERENCE IS THE SPECIFICATION: the last stage of the reference, as a function of the six inputs, is the
    normalised weighted sum at every output index. -/
theorem ref_eq (a0 a1 a2 : FVec Ideal S8x4096x1024 .f32) (a3 a4 a5 : FVec Ideal S1024x128 .f32) :
    val_main_v17 (F := Ideal) a0 a1 a2 a3 a4 a5
      = fun j : S8x4096x128.Idx => attnRef (Ideal.ofBits .f32 0x3DB504F3#32)
          (fun b n d => a0 (ix3 b n d)) (fun b n d => a1 (ix3 b n d)) (fun b n d => a2 (ix3 b n d))
          (fun d e => a3 (ix2 d e)) (fun d e => a4 (ix2 d e)) (fun d e => a5 (ix2 d e)) (j 0) (j 1) (j 2) := by
  funext j
  obtain ⟨b, n, e, rfl⟩ : ∃ (b : Fin 8) (n : Fin 4096) (e : Fin 128), j = ix3 b n e := ⟨j 0, j 1, j 2, eq_ix3 j⟩
  exact result_at a0 a1 a2 a3 a4 a5 b n e

end Cert.ReferenceIdeal.RefValue

end
-- ==== Proof.LibOnlineSoftmax.lean ====
/-
  Online softmax on the extended reals.

  A weighted softmax average  (∑ exp(xᵢ)·fᵢ) / (∑ exp(xᵢ))  can be accumulated block by block while keeping only a
  running shift `m`, a running denominator `l` and a running numerator `a`: on a new block with shift `r`,

      m' = max m r,   α = exp (m − m'),   l' = α·l + ∑ⱼ exp (xⱼ − m'),   a' = α·a + ∑ⱼ exp (xⱼ − m')·fⱼ ,

  starting from  m = −∞, l = 0, a = 0  (so that the first α is exp(−∞) = 0).

  The point of this file: after at least one block the state is  (μ, ∑ exp(x−μ), ∑ exp(x−μ)·f)  for SOME real μ, the
  sums ranging over every key seen so far — because exp(μ−μ')·exp(x−μ) = exp(x−μ') — and a softmax does not depend on
  its shift, so a / l is the weighted softmax average whatever the shifts `r` were. In particular nothing is needed
  of `r` being the block's maximum: that choice matters for rounding, not for the value.

  Logits and values are real (finite); the arithmetic is the extended reals' with `Ideal.exp` and `Ideal.div`, whose
  corners (exp(−∞) = 0, division by zero) are met only at the start, where they give 0·0 = 0.
-/
import Idealize.ShloMosaic.PureOps.Ideal

noncomputable section

namespace Cert.Lib.OnlineSoftmax

open Idealize.ShloMosaic
open scoped BigOperators

/-! ## Coercions -/

/-- The coercion of reals into the extended reals commutes with finite sums. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exponential of a difference of reals, on the extended reals. -/
theorem exp_coe_sub (x μ : ℝ) : Ideal.exp ((x : EReal) - (μ : EReal)) = ((Real.exp (x - μ) : ℝ) : EReal) := by
  rw [← EReal.coe_sub]; rfl

/-- A quotient of reals by a nonzero real, on the extended reals, is the real quotient. -/
theorem div_coe_coe (a : ℝ) {q : ℝ} (hq : q ≠ 0) : Ideal.div (a : EReal) (q : EReal) = ((a / q : ℝ) : EReal) := by
  rw [Ideal.div_coe hq, ← EReal.coe_mul, mul_one_div]

/-- The reciprocal of a nonzero real, on the extended reals. -/
theorem one_div_coe {q : ℝ} (hq : q ≠ 0) : Ideal.div 1 (q : EReal) = ((q⁻¹ : ℝ) : EReal) := by
  have h := div_coe_coe 1 hq
  rw [one_div] at h
  exact_mod_cast h

/-! ## Normalising the factors, or dividing the product -/

/-- A dot product of two vectors each scaled by the reciprocal of a nonzero real (its norm, say) is the dot product
    divided by the product of the two reals: a kernel that normalises its operands first and a reference that
    divides the product by the norms' product compute one number — PROVIDED neither norm is zero (at zero the first
    is 0·(+∞) = 0 and the second 0/0). -/
theorem normalized_dot {ι : Type*} (s : Finset ι) (a b : ι → ℝ) {p t : ℝ} (hp : p ≠ 0) (ht : t ≠ 0) :
    ∑ i ∈ s, ((a i : EReal) * Ideal.div 1 (p : EReal)) * ((b i : EReal) * Ideal.div 1 (t : EReal))
      = Ideal.div ((∑ i ∈ s, a i * b i : ℝ) : EReal) ((p : EReal) * (t : EReal)) := by
  rw [one_div_coe hp, one_div_coe ht, ← EReal.coe_mul p t, div_coe_coe _ (mul_ne_zero hp ht)]
  simp only [← EReal.coe_mul, ← coe_sum]
  congr 1
  rw [Finset.sum_div]
  refine Finset.sum_congr rfl fun i _ => ?_
  field_simp

/-! ## A softmax does not depend on its shift -/

/-- Shifting every logit by the same real changes neither the numerator-to-denominator ratio. Stated over a double
    sum (blocks, then keys inside a block), which is how the accumulation meets it. -/
theorem shift_invariant {ι J : Type*} [Fintype J] (s : Finset ι) (x f : ι → J → ℝ) (μ : ℝ) :
    (∑ i ∈ s, ∑ j, Real.exp (x i j - μ) * f i j) / (∑ i ∈ s, ∑ j, Real.exp (x i j - μ))
      = (∑ i ∈ s, ∑ j, Real.exp (x i j) * f i j) / (∑ i ∈ s, ∑ j, Real.exp (x i j)) := by
  have h : ∀ i j, Real.exp (x i j - μ) = Real.exp (x i j) * Real.exp (-μ) := fun i j => by
    rw [← Real.exp_add, sub_eq_add_neg]
  have hn : (∑ i ∈ s, ∑ j, Real.exp (x i j - μ) * f i j) = (∑ i ∈ s, ∑ j, Real.exp (x i j) * f i j) * Real.exp (-μ) := by
    rw [Finset.sum_mul]; refine Finset.sum_congr rfl fun i _ => ?_
    rw [Finset.sum_mul]; refine Finset.sum_congr rfl fun j _ => ?_
    rw [h]; ring
  have hd : (∑ i ∈ s, ∑ j, Real.exp (x i j - μ)) = (∑ i ∈ s, ∑ j, Real.exp (x i j)) * Real.exp (-μ) := by
    rw [Finset.sum_mul]; refine Finset.sum_congr rfl fun i _ => ?_
    rw [Finset.sum_mul]; refine Finset.sum_congr rfl fun j _ => ?_
    rw [h]
  rw [hn, hd, mul_div_mul_right _ _ (Real.exp_ne_zero _)]

/-! ## The accumulation -/

variable {J : Type*} [Fintype J]

/-- One block: the new shift, the rescaled denominator plus the block's, the rescaled numerator plus the block's. -/
def step (r : ℝ) (x f : J → ℝ) (s : EReal × EReal × EReal) : EReal × EReal × EReal :=
  (max s.1 (r : EReal),
   Ideal.exp (s.1 - max s.1 (r : EReal)) * s.2.1 + ∑ j, Ideal.exp ((x j : EReal) - max s.1 (r : EReal)),
   Ideal.exp (s.1 - max s.1 (r : EReal)) * s.2.2 + ∑ j, Ideal.exp ((x j : EReal) - max s.1 (r : EReal)) * (f j : EReal))

/-- The state after the first `k` blocks, from (−∞, 0, 0). -/
def run (r : ℕ → ℝ) (x f : ℕ → J → ℝ) : ℕ → EReal × EReal × EReal
  | 0 => (⊥, 0, 0)
  | k + 1 => step (r k) (x k) (f k) (run r x f k)

/-- Rescaling the sums accumulated at shift `μ` to the shift `μ'`. -/
theorem rescale (k : ℕ) (x g : ℕ → J → ℝ) (μ μ' : ℝ) :
    Real.exp (μ - μ') * (∑ i ∈ Finset.range k, ∑ j, Real.exp (x i j - μ) * g i j)
      = ∑ i ∈ Finset.range k, ∑ j, Real.exp (x i j - μ') * g i j := by
  rw [Finset.mul_sum]; refine Finset.sum_congr rfl fun i _ => ?_
  rw [Finset.mul_sum]; refine Finset.sum_congr rfl fun j _ => ?_
  rw [← mul_assoc, ← Real.exp_add]; congr 2; ring

/-- After at least one block the state is real: some shift `μ`, and the two sums over every key seen, at that shift. -/
theorem run_succ (r : ℕ → ℝ) (x f : ℕ → J → ℝ) (k : ℕ) :
    ∃ μ : ℝ, run r x f (k + 1)
      = ((μ : EReal),
         ((∑ i ∈ Finset.range (k + 1), ∑ j, Real.exp (x i j - μ) : ℝ) : EReal),
         ((∑ i ∈ Finset.range (k + 1), ∑ j, Real.exp (x i j - μ) * f i j : ℝ) : EReal)) := by
  induction k with
  | zero =>
    refine ⟨r 0, ?_⟩
    have hm : max (⊥ : EReal) (r 0 : EReal) = (r 0 : EReal) := max_eq_right bot_le
    have hb : (⊥ : EReal) - (r 0 : EReal) = ⊥ := by rw [sub_eq_add_neg, EReal.bot_add]
    simp only [run, step, hm, hb, Ideal.exp_bot, zero_mul, zero_add, Finset.sum_range_one, exp_coe_sub,
      ← EReal.coe_mul, ← coe_sum]
  | succ k ih =>
    obtain ⟨μ, hμ⟩ := ih
    refine ⟨max μ (r (k + 1)), ?_⟩
    have hm : max (μ : EReal) (r (k + 1) : EReal) = ((max μ (r (k + 1)) : ℝ) : EReal) := (EReal.coe_strictMono.monotone.map_max).symm
    have h1 := rescale (k + 1) x (fun _ _ => (1 : ℝ)) μ (max μ (r (k + 1)))
    have h2 := rescale (k + 1) x f μ (max μ (r (k + 1)))
    simp only [mul_one] at h1
    rw [run, hμ]
    simp only [step, hm, exp_coe_sub, ← EReal.coe_mul, ← coe_sum, ← EReal.coe_add]
    rw [h1, h2, Finset.sum_range_succ _ (k + 1), Finset.sum_range_succ _ (k + 1)]

/-- The accumulated denominator is positive once a nonempty block has been seen. -/
theorem denom_pos [Nonempty J] (x : ℕ → J → ℝ) (μ : ℝ) (k : ℕ) :
    0 < ∑ i ∈ Finset.range (k + 1), ∑ j, Real.exp (x i j - μ) :=
  Finset.sum_pos (fun _ _ => Finset.sum_pos (fun _ _ => Real.exp_pos _) Finset.univ_nonempty)
    ⟨0, Finset.mem_range.mpr (Nat.succ_pos k)⟩

/-- THE RESULT. After `k+1` nonempty blocks, numerator times the reciprocal of the denominator is the weighted softmax
    average over every key of every block, whatever the shifts were. -/
theorem run_quotient [Nonempty J] (r : ℕ → ℝ) (x f : ℕ → J → ℝ) (k : ℕ) :
    (run r x f (k + 1)).2.2 * Ideal.div 1 (run r x f (k + 1)).2.1
      = (((∑ i ∈ Finset.range (k + 1), ∑ j, Real.exp (x i j) * f i j)
          / (∑ i ∈ Finset.range (k + 1), ∑ j, Real.exp (x i j)) : ℝ) : EReal) := by
  obtain ⟨μ, hμ⟩ := run_succ r x f k
  rw [hμ]
  dsimp only
  rw [one_div_coe (denom_pos x μ k).ne', ← EReal.coe_mul, ← div_eq_mul_inv, shift_invariant]

/-- The same average as a reference spells it: each weight exp(x−M) divided by the sum of all exp(x−M), at the
    reference's own shift `M`, then the weighted sum. -/
theorem softmax_sum [Nonempty J] (x f : ℕ → J → ℝ) (M : ℝ) (k : ℕ) :
    (∑ i ∈ Finset.range (k + 1), ∑ j,
        Real.exp (x i j - M) / (∑ i' ∈ Finset.range (k + 1), ∑ j', Real.exp (x i' j' - M)) * f i j)
      = (∑ i ∈ Finset.range (k + 1), ∑ j, Real.exp (x i j) * f i j)
          / (∑ i ∈ Finset.range (k + 1), ∑ j, Real.exp (x i j)) := by
  rw [← shift_invariant (Finset.range (k + 1)) x f M, Finset.sum_div]
  refine Finset.sum_congr rfl fun i _ => ?_
  rw [Finset.sum_div]; refine Finset.sum_congr rfl fun j _ => ?_
  ring

end Cert.Lib.OnlineSoftmax

end
-- ==== Proof.AttnLaw.lean ====
/-
  The tiled walk of a query row over its keys computes the reference's normalised weighted sum.

  With real scores the maximum after any tile is real, the first step has `exp (-∞ − M') = 0` and `0 · 0 = 0`, and
  from then on the running quantities are `(μ, ∑ exp (s j − μ), ∑ exp (s j − μ) · v j e)` over the keys met so far,
  because `exp (μ − μ') · exp (s − μ) = exp (s − μ')`. The quotient of the two sums does not depend on the shift `μ`,
  and the reference's sum of normalised weights times values is that same quotient at its own shift (the maximum of
  all 4096 scores); the 4096 keys are exactly the four tiles of 1024, each key once.
-/
import proofs.«165083_j41102837022983_2_alg».proof.Proof.AttnSpec
import proofs.«165083_j41102837022983_2_alg».proof.Proof.LibOnlineSoftmax
import Mathlib.Tactic

noncomputable section

namespace Cert.AttnLaw

open Idealize.ShloMosaic
open Cert.AttnSpec
open Cert.Lib
open scoped BigOperators

/-! ## Small facts -/

/-- The supremum of finitely many reals (at least one) inside the extended reals is one of them, hence real. -/
theorem sup_real {ι : Type*} [Fintype ι] [Nonempty ι] (g : ι → ℝ) :
    ∃ m : ℝ, Finset.univ.sup (fun i => (g i : EReal)) = (m : EReal) := by
  obtain ⟨i, _, hi⟩ := Finset.exists_mem_eq_sup Finset.univ Finset.univ_nonempty (fun i => (g i : EReal))
  exact ⟨g i, hi⟩

/-- The 4096 keys are the four tiles of 1024 keys, each key once. -/
def keyEquiv : Fin 4 × Fin 1024 ≃ Fin 4096 where
  toFun p := key p.1 p.2
  invFun j := (⟨j.val / 1024, by omega⟩, ⟨j.val % 1024, Nat.mod_lt _ (by norm_num)⟩)
  left_inv p := by
    rcases p with ⟨⟨a, ha⟩, ⟨b, hb⟩⟩
    simp only [key, Prod.mk.injEq, Fin.mk.injEq]
    constructor <;> omega
  right_inv j := by
    apply Fin.ext
    simp only [key]
    omega

/-- A sum over all keys, taken tile by tile in the order of the walk. -/
theorem sum_keys {M : Type*} [AddCommMonoid M] (g : Fin 4096 → M) :
    ∑ j, g j = ∑ n ∈ Finset.range 4, ∑ i, g (key (tileOf n) i) := by
  rw [← keyEquiv.sum_comp g, Fintype.sum_prod_type]
  simp only [Finset.sum_range_succ, Finset.sum_range_zero, Fin.sum_univ_four, zero_add]
  rfl

/-! ## The walk is the block-wise accumulation -/

/-- With real scores and values, and `r n` the (real) maximum of tile `n`, the running quantities of the walk are the
    block-wise accumulation with shifts `r`, entry by entry of the weighted sum. -/
theorem run_eq (sr : Fin 4096 → ℝ) (vr : Fin 4096 → Fin 128 → ℝ) (r : ℕ → ℝ)
    (hr : ∀ n, Finset.univ.sup (fun i => ((sr (key (tileOf n) i) : ℝ) : EReal)) = (r n : EReal)) (n : ℕ) (e : Fin 128) :
    (St.run (fun j => (sr j : EReal)) (fun j e => (vr j e : EReal)) n).M
        = (OnlineSoftmax.run r (fun n i => sr (key (tileOf n) i)) (fun n i => vr (key (tileOf n) i) e) n).1
    ∧ (St.run (fun j => (sr j : EReal)) (fun j e => (vr j e : EReal)) n).L
        = (OnlineSoftmax.run r (fun n i => sr (key (tileOf n) i)) (fun n i => vr (key (tileOf n) i) e) n).2.1
    ∧ (St.run (fun j => (sr j : EReal)) (fun j e => (vr j e : EReal)) n).A e
        = (OnlineSoftmax.run r (fun n i => sr (key (tileOf n) i)) (fun n i => vr (key (tileOf n) i) e) n).2.2 := by
  induction n with
  | zero => exact ⟨rfl, rfl, rfl⟩
  | succ n ih =>
    obtain ⟨h1, h2, h3⟩ := ih
    refine ⟨?_, ?_, ?_⟩ <;>
      simp only [St.run, St.step, OnlineSoftmax.run, OnlineSoftmax.step, hr, h1, h2, h3]

/-! ## One row -/

theorem tiled_eq_softmax (s : Fin 4096 → EReal) (v : Fin 4096 → Fin 128 → EReal)
    (hs : ∀ j, ∃ r : ℝ, s j = (r : EReal)) (hv : ∀ j e, ∃ r : ℝ, v j e = (r : EReal)) :
    tiledOut s v = softmaxOut s v := by
  classical
  choose sr hsr using hs
  choose vr hvr using hv
  obtain rfl : s = fun j => (sr j : EReal) := funext hsr
  obtain rfl : v = fun j e => (vr j e : EReal) := funext fun j => funext (hvr j)
  funext e
  -- the tiles' maxima are real
  choose r hr using fun n : ℕ => sup_real (fun i : Fin 1024 => sr (key (tileOf n) i))
  obtain ⟨h1, h2, h3⟩ := run_eq sr vr r hr (3 + 1) e
  obtain ⟨μ, hμ⟩ := OnlineSoftmax.run_succ r (fun n i => sr (key (tileOf n) i)) (fun n i => vr (key (tileOf n) i) e) 3
  -- the walk's quotient
  have hT : tiledOut (fun j => (sr j : EReal)) (fun j e => (vr j e : EReal)) e
      = (((∑ n ∈ Finset.range (3 + 1), ∑ i, Real.exp (sr (key (tileOf n) i)) * vr (key (tileOf n) i) e)
          / (∑ n ∈ Finset.range (3 + 1), ∑ i, Real.exp (sr (key (tileOf n) i))) : ℝ) : EReal) := by
    unfold tiledOut
    rw [h3, h2, hμ]
    dsimp only
    rw [OnlineSoftmax.div_coe_coe _ (OnlineSoftmax.denom_pos _ μ 3).ne', OnlineSoftmax.shift_invariant]
  -- the reference's sum
  obtain ⟨M, hM⟩ := sup_real sr
  have hpos : 0 < ∑ j' : Fin 4096, Real.exp (sr j' - M) :=
    Finset.sum_pos (fun _ _ => Real.exp_pos _) Finset.univ_nonempty
  have hden : ∑ j' : Fin 4096, Ideal.exp ((sr j' : EReal) - (M : EReal)) = ((∑ j', Real.exp (sr j' - M) : ℝ) : EReal) := by
    simp only [OnlineSoftmax.exp_coe_sub, ← OnlineSoftmax.coe_sum]
  rw [hT]
  unfold softmaxOut
  simp only [hM, hden, OnlineSoftmax.exp_coe_sub, OnlineSoftmax.div_coe_coe _ hpos.ne', ← EReal.coe_mul,
    ← OnlineSoftmax.coe_sum]
  rw [EReal.coe_eq_coe_iff]
  rw [sum_keys (fun j' => Real.exp (sr j' - M)),
    sum_keys (fun j => Real.exp (sr j - M) / _ * vr j e)]
  exact (OnlineSoftmax.softmax_sum (fun n i => sr (key (tileOf n) i)) (fun n i => vr (key (tileOf n) i) e) M 3).symm

/-! ## All rows, from the six inputs -/

/-- A projected entry of real rows and real weights is real. -/
theorem proj_real (x : Fin 1024 → EReal) (w : Fin 1024 → Fin 128 → EReal)
    (hx : ∀ d, ∃ r : ℝ, x d = (r : EReal)) (hw : ∀ d e, ∃ r : ℝ, w d e = (r : EReal)) (e : Fin 128) :
    ∃ r : ℝ, proj x w e = (r : EReal) := by
  choose xr hxr using hx
  choose wr hwr using hw
  refine ⟨∑ d, xr d * wr d e, ?_⟩
  simp only [proj, hxr, hwr, ← EReal.coe_mul, ← OnlineSoftmax.coe_sum]

/-- A scaled score of real rows at a real scale is real. -/
theorem score_real (c : EReal) (hc : ∃ r : ℝ, c = (r : EReal)) (q k : Fin 128 → EReal)
    (hq : ∀ e, ∃ r : ℝ, q e = (r : EReal)) (hk : ∀ e, ∃ r : ℝ, k e = (r : EReal)) :
    ∃ r : ℝ, score c q k = (r : EReal) := by
  obtain ⟨cr, rfl⟩ := hc
  choose qr hqr using hq
  choose kr hkr using hk
  refine ⟨(∑ e, qr e * kr e) * cr, ?_⟩
  simp only [score, hqr, hkr, ← EReal.coe_mul, ← OnlineSoftmax.coe_sum]

theorem attnTiled_eq_attnRef (c : EReal) (hc : ∃ r : ℝ, c = (r : EReal))
    (q k v : Fin 8 → Fin 4096 → Fin 1024 → EReal) (Wq Wk Wv : Fin 1024 → Fin 128 → EReal)
    (hq : ∀ b n d, ∃ r : ℝ, q b n d = (r : EReal)) (hk : ∀ b n d, ∃ r : ℝ, k b n d = (r : EReal))
    (hv : ∀ b n d, ∃ r : ℝ, v b n d = (r : EReal))
    (hWq : ∀ d e, ∃ r : ℝ, Wq d e = (r : EReal)) (hWk : ∀ d e, ∃ r : ℝ, Wk d e = (r : EReal))
    (hWv : ∀ d e, ∃ r : ℝ, Wv d e = (r : EReal)) :
    attnTiled c q k v Wq Wk Wv = attnRef c q k v Wq Wk Wv := by
  funext b n e
  unfold attnTiled attnRef
  exact congrFun (tiled_eq_softmax _ _
    (fun j => score_real c hc _ _ (proj_real _ _ (hq b n) hWq) (proj_real _ _ (hk b j) hWk))
    (fun j e' => proj_real _ _ (hv b j) hWv e')) e

end Cert.AttnLaw

end
-- ==== Proof.LibFiniteReal.lean ====
/-
  GENERAL LEMMAS: a `finite inputs` precondition read back on the extended reals.

  A precondition of the form `jnp.all (jnp.abs a < inf)` prints as a host `reduce` by `and`, from the constant
  one, of the comparison `|a| < +∞` against the f32 pattern `0x7F800000` broadcast from a scalar. On the extended
  reals `|v| = max v (-v)` is `+∞` at both infinities, so `|v| < +∞` says exactly that `v` is a real number.
  `real_of_all` turns ONE such conjunct, for an array of any shape reduced over any axes into a scalar, into
  `∀ i, ∃ r : ℝ, a i = r`. Imports only the library.
-/
import Idealize.ShloMosaic.Lib.ReduceAll
import Idealize.ShloMosaic.Lib.ValueIdx
import Idealize.ShloMosaic.PureOps.Ideal

noncomputable section

namespace Cert.FiniteReal

open Idealize.ShloMosaic Idealize.ShloMosaic.ValueIdx

/-- The f32 pattern `0x7F800000` is `+∞`. -/
theorem ofBits_pos_inf : Ideal.ofBits .f32 0x7F800000#32 = ⊤ := by simp [Ideal.ofBits, Ideal.ieee]

/-- `|v| < +∞` on the extended reals: `v` is real. -/
theorem real_of_abs_lt (v : EReal)
    (h : Ideal.cmp .olt (max v (-v)) (Ideal.ofBits .f32 0x7F800000#32) = 1#1) : ∃ r : ℝ, v = r := by
  rw [ofBits_pos_inf] at h
  induction v using EReal.rec with
  | bot =>
    exfalso
    rw [EReal.neg_bot, max_eq_right bot_le] at h
    simp [Ideal.cmp] at h
  | coe r => exact ⟨r, rfl⟩
  | top =>
    exfalso
    rw [max_eq_left le_top] at h
    simp [Ideal.cmp] at h

/-- A scalar has one index. -/
instance scalarIdx_subsingleton : Subsingleton (⟨0, ![]⟩ : Shape).Idx := ⟨fun a b => funext fun d => d.elim0⟩

/-- ONE CONJUNCT OF THE PRECONDITION, read back: an array whose `all (|a| < +∞)` is one has real entries. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ix0 = 1#1) (i : s.Idx) : ∃ r : ℝ, a i = r :=
  real_of_abs_lt (a i) (Host.reduce_andi_all _ _ hr hu ix0 h i)

end Cert.FiniteReal

end
-- ==== Proof.FiniteInputs.lean ====
/-
  The precondition read back: every entry of each of the six input arrays is a real number.

  The precondition is the conjunction, over the six arrays, of `all (|a| < +∞)`; on the extended reals `|v| < +∞`
  holds exactly when `v` is real. The scale of the scores is a fixed f32 word that denotes a real number.
-/
import proofs.«165083_j41102837022983_2_alg».proof.Proof.Gen.Pre_finite_inputs
import proofs.«165083_j41102837022983_2_alg».proof.Proof.LibFiniteReal

noncomputable section

namespace Cert.FiniteInputs

open Idealize.ShloMosaic Idealize.ShloMosaic.ValueIdx
open Cert.Pre_finite_inputs

/-- All six input arrays have real entries when the precondition is all ones. -/
theorem real_inputs (a0 a1 a2 : FVec Ideal S8x4096x1024 .f32) (a3 a4 a5 : FVec Ideal S1024x128 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨Cert.FiniteReal.real_of_all a0 _ _ _ c0, Cert.FiniteReal.real_of_all a1 _ _ _ c1,
    Cert.FiniteReal.real_of_all a2 _ _ _ c2, Cert.FiniteReal.real_of_all a3 _ _ _ c3,
    Cert.FiniteReal.real_of_all a4 _ _ _ c4, Cert.FiniteReal.real_of_all a5 _ _ _ c5⟩

/-- The scale of the scores, the f32 word `0x3DB504F3`, is a real number. -/
theorem scale_real : ∃ r : ℝ, Ideal.ofBits .f32 0x3DB504F3#32 = (r : EReal) := by
  simp [Ideal.ofBits, Ideal.ieee]
  exact ⟨_, (EReal.coe_mul _ _).symm⟩

end Cert.FiniteInputs

end
-- ==== Proof.Algebraic.lean ====
/-
  The algebraic claim. At the extended reals the idealized kernel program leaves in its result buffer, at (b, n, e),
  the quotient the tiled walk of query row (b, n) ends with — the projections Q = q·Wq, K = k·Wk, V = v·Wv are
  exact matrix products (a change of float format is the identity), the scores are Q·Kᵀ times the one scale word
  both programs share, and the running maximum, sum and weighted sum are carried through the four key tiles. The
  reference leaves the softmax-weighted sum of the value rows. For finite inputs every score is a real number,
  and the two agree: the rescaled partial sums telescope to the sums shifted by the overall maximum, and the
  final division distributes over the weighted sum because the normaliser is a positive real.
-/
import proofs.«165083_j41102837022983_2_alg».proof.Defs
import proofs.«165083_j41102837022983_2_alg».proof.Proof.Run
import proofs.«165083_j41102837022983_2_alg».proof.Proof.AttnArray
import proofs.«165083_j41102837022983_2_alg».proof.Proof.Glue
import proofs.«165083_j41102837022983_2_alg».proof.Proof.RefValue
import proofs.«165083_j41102837022983_2_alg».proof.Proof.AttnLaw
import proofs.«165083_j41102837022983_2_alg».proof.Proof.FiniteInputs
import proofs.«165083_j41102837022983_2_alg».proof.Proof.Gen.ReferenceIdeal.Read

noncomputable section

namespace Cert.Proof.Algebraic

open Idealize.ShloMosaic Idealize.ShloMosaic.TcCoe Idealize.SL.Sem
open Idealize.ShloMosaic.ValueIdx

/-- The scale word both programs multiply the scores by. -/
abbrev cS : EReal := Ideal.ofBits .f32 0x3DB504F3#32

/-- The common result, as a function of the six argument arrays: entry (b, n, e) by the tiled walk. -/
def result (a0 a1 a2 : FVec Ideal Cert.KernelIdeal.S8x4096x1024 .f32) (a3 a4 a5 : FVec Ideal Cert.KernelIdeal.S1024x128 .f32) :
    FVec Ideal Cert.KernelIdeal.S8x4096x128 .f32 :=
  fun j => AttnSpec.attnTiled cS (fun b n d => a0 (ix3 b n d)) (fun b n d => a1 (ix3 b n d)) (fun b n d => a2 (ix3 b n d))
    (fun d e => a3 (ix2 d e)) (fun d e => a4 (ix2 d e)) (fun d e => a5 (ix2 d e)) (j 0) (j 1) (j 2)

variable [Cert.KernelIdeal.Facts]

/-- What the idealized kernel program leaves in its result buffer is `result` of its argument arrays: the output
    array of the attention region is the tiled walk over the region's three input arrays, and those are the
    projections of the arguments (through the reshapes between the regions). -/
theorem kernel_value (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Run.W8 (F := Ideal) m ρ c (Proc.devRef .tc Cert.KernelIdeal.main_v9) = result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  rw [Cert.KernelIdeal.Run.W8_main_v9, Cert.KernelIdeal.AttnArray.attn_array]
  funext j
  obtain ⟨b, n, e, rfl⟩ : ∃ (b : Fin 8) (n : Fin 4096) (e : Fin 128), j = ix3 b n e := ⟨j 0, j 1, j 2, eq_ix3 j⟩
  exact congrArg₂ (fun s v => AttnSpec.tiledOut s v e)
    (funext fun kk => congrArg₂ (AttnSpec.score cS) (funext fun e' => Cert.KernelIdeal.Glue.Qa_apply m ρ c b n e')
      (funext fun e' => Cert.KernelIdeal.Glue.Ka_apply m ρ c b kk e'))
    (funext fun kk => funext fun e' => Cert.KernelIdeal.Glue.Va_apply m ρ c b kk e')

variable [Cert.ReferenceIdeal.Facts] [Cert.Pre_finite_inputs.Facts]

/-- Both programs run, and from memories that agree on the six arguments, all finite, they end with equal results. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c =>
      ⟨(h c _ (Cert.KernelIdeal.Run.mem_uc Cert.KernelIdeal.main_v9 (by decide))).trans (kernel_value m ρ c),
       (h c _ (Cert.KernelIdeal.Run.mem_uc Cert.KernelIdeal.main_arg0 (by decide))).trans (Cert.KernelIdeal.Run.W8_main_arg0 m ρ c),
       (h c _ (Cert.KernelIdeal.Run.mem_uc Cert.KernelIdeal.main_arg1 (by decide))).trans (Cert.KernelIdeal.Run.W8_main_arg1 m ρ c),
       (h c _ (Cert.KernelIdeal.Run.mem_uc Cert.KernelIdeal.main_arg2 (by decide))).trans (Cert.KernelIdeal.Run.W8_main_arg2 m ρ c),
       (h c _ (Cert.KernelIdeal.Run.mem_uc Cert.KernelIdeal.main_arg3 (by decide))).trans (Cert.KernelIdeal.Run.W8_main_arg3 m ρ c),
       (h c _ (Cert.KernelIdeal.Run.mem_uc Cert.KernelIdeal.main_arg4 (by decide))).trans (Cert.KernelIdeal.Run.W8_main_arg4 m ρ c),
       (h c _ (Cert.KernelIdeal.Run.mem_uc Cert.KernelIdeal.main_arg5 (by decide))).trans (Cert.KernelIdeal.Run.W8_main_arg5 m ρ c)⟩)
      (Cert.KernelIdeal.Run.run_all (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5⟩ := Cert.FiniteInputs.real_inputs _ _ _ _ _ _ (hpre c)
    rw [(h c).1, Cert.ReferenceIdeal.Read.val_main_v17_eq, Cert.ReferenceIdeal.RefValue.ref_eq,
      (hagree c).1, (hagree c).2.1, (hagree c).2.2.1, (hagree c).2.2.2.1, (hagree c).2.2.2.2.1, (hagree c).2.2.2.2.2]
    funext j
    exact (congrFun (congrFun (congrFun (Cert.AttnLaw.attnTiled_eq_attnRef cS Cert.FiniteInputs.scale_real _ _ _ _ _ _
      (fun _ _ _ => h0 _) (fun _ _ _ => h1 _) (fun _ _ _ => h2 _) (fun _ _ => h3 _) (fun _ _ => h4 _) (fun _ _ => h5 _))
      (j 0)) (j 1)) (j 2)).symm

end Cert.Proof.Algebraic

end
-- ==== Proof.lean ====
/-
  The certificate of a single-head attention kernel against its einsum-and-softmax reference.

  The kernel program is four pipelined regions between host reshapes: three projections Q = q·Wq, K = k·Wk,
  V = v·Wv, each a matrix product over row blocks of 2048, and an attention region on a grid of 8 query tiles by 4
  key tiles that keeps, for every query row, the maximum score so far, the sum of exponentials shifted by it and the
  weighted sum of value rows shifted by it, rescaling both sums whenever the maximum moves, and divides the last by
  the second at the fourth key tile. The reference multiplies out Q, K, V, forms all scores, and weights the value
  rows by the softmax of each row.

  Frames: each program runs to the end and leaves its argument arrays as launched (`Frames`). The idealization
  rewrote nothing, so it is preserved trivially. Algebraic: over the extended reals both programs compute, at
  (b, n, e), the same function of the six arguments when these are finite (`Algebraic`): the tiled walk of row
  (b, n) telescopes to the row's softmax-weighted sum.
-/
import proofs.«165083_j41102837022983_2_alg».proof.Defs
import proofs.«165083_j41102837022983_2_alg».proof.Proof.Gen.Kernel
import proofs.«165083_j41102837022983_2_alg».proof.Proof.Gen.KernelIdeal
import proofs.«165083_j41102837022983_2_alg».proof.Proof.Gen.ReferenceIdeal
import proofs.«165083_j41102837022983_2_alg».proof.Proof.Gen.Pre_finite_inputs
import proofs.«165083_j41102837022983_2_alg».proof.Proof.Frames
import proofs.«165083_j41102837022983_2_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    @Frames.frame_k Cert.Kernel.Gen.facts Cert.Pre_finite_inputs.Gen.facts,
    @Frames.frame_ki Cert.KernelIdeal.Gen.facts Cert.Pre_finite_inputs.Gen.facts,
    @Frames.frame_ri Cert.ReferenceIdeal.Gen.facts Cert.Pre_finite_inputs.Gen.facts,
    trivial,
    @Algebraic.algebraic Cert.KernelIdeal.Gen.facts Cert.ReferenceIdeal.Gen.facts Cert.Pre_finite_inputs.Gen.facts⟩

end Cert.Proof

end
